-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16384x64 : Shape := ⟨3, ![1, 16384, 64]⟩
abbrev S16384x16384 : Shape := ⟨2, ![16384, 16384]⟩
abbrev S64x64 : Shape := ⟨2, ![64, 64]⟩
abbrev S64 : Shape := ⟨1, ![64]⟩
abbrev S3x64x64 : Shape := ⟨3, ![3, 64, 64]⟩
abbrev S1x64 : Shape := ⟨2, ![1, 64]⟩
abbrev S_ : Shape := ⟨0, ![]⟩
abbrev S16384 : Shape := ⟨1, ![16384]⟩

class Facts : Prop where
  bcast_S_S1x16384x64 : S_.BroadcastsInDim S1x16384x64 (![] : Fin 0 → Fin S1x16384x64.rank)
  reducesTo_S1x16384x64_S_d0_1_2 : S1x16384x64.ReducesTo [0, 1, 2] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S1x64 : S_.BroadcastsInDim S1x64 (![] : Fin 0 → Fin S1x64.rank)
  reducesTo_S1x64_S_d0_1 : S1x64.ReducesTo [0, 1] S_
  reducesTo_S16384x16384_S16384_d0 : S16384x16384.ReducesTo [0] S16384
  bcast_S_S16384 : S_.BroadcastsInDim S16384 (![] : Fin 0 → Fin S16384.rank)
  reducesTo_S16384_S_d0 : S16384.ReducesTo [0] S_

variable [Facts]

def fn_part2 {F : FTy → Type} [FloatOps F] (main_arg1 : FVec F S16384x16384 .f32) (main_v33 : IVec S_ 1) : IVec S_ 1 :=
  let main_cst_12 : FVec F S_ .f32 := constant S_ .f32 0x00000000#32
  let main_v34 : FVec F S16384 .f32 := (fun x v => Host.reduceAdd x v reducesTo_S16384x16384_S16384_d0 h_S_) main_arg1 main_cst_12
  let main_cst_13 : FVec F S_ .f32 := constant S_ .f32 0x00000000#32
  let main_v35 : FVec F S16384 .f32 := broadcastInDim S16384 ![] bcast_S_S16384 main_cst_13
  let main_v36 : IVec S16384 1 := cmpf .une main_v34 main_v35
  let main_c_14 : IVec S_ 1 := constantI S_ 1 1#1
  let main_v37 : IVec S_ 1 := (fun x v => Host.reduce IntOp.andi x v reducesTo_S16384_S_d0 h_S_) main_v36 main_c_14
  let main_v38 : IVec S_ 1 := andi main_v33 main_v37
  main_v38

def fn_part1 {F : FTy → Type} [FloatOps F] (main_arg1 : FVec F S16384x16384 .f32) (main_arg4 : FVec F S3x64x64 .f32) (main_arg5 : FVec F S64x64 .f32) (main_arg6 : FVec F S1x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg1 main_v33

def fn {F : FTy → Type} [FloatOps F] (main_arg0 : FVec F S1x16384x64 .f32) (main_arg1 : FVec F S16384x16384 .f32) (main_arg2 : FVec F S64x64 .f32) (main_arg3 : FVec F S64 .f32) (main_arg4 : FVec F S3x64x64 .f32) (main_arg5 : FVec F S64x64 .f32) (main_arg6 : FVec F S1x64 .f32) : IVec S_ 1 :=
  let main_v0 : FVec F S1x16384x64 .f32 := Host.absf main_arg0
  let main_cst : FVec F S_ .f32 := constant S_ .f32 0x7F800000#32
  let main_v1 : FVec F S1x16384x64 .f32 := broadcastInDim S1x16384x64 ![] bcast_S_S1x16384x64 main_cst
  let main_v2 : IVec S1x16384x64 1 := cmpf .olt main_v0 main_v1
  let main_c : IVec S_ 1 := constantI S_ 1 1#1
  let main_v3 : IVec S_ 1 := (fun x v => Host.reduce IntOp.andi x v reducesTo_S1x16384x64_S_d0_1_2 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg4 main_arg5 main_arg6 main_v13 main_v16
-- ==== Kernel.lean ====
abbrev S1x16384x64 : Shape := ⟨3, ![1, 16384, 64]⟩
abbrev S16384x16384 : Shape := ⟨2, ![16384, 16384]⟩
abbrev S64x64 : Shape := ⟨2, ![64, 64]⟩
abbrev S64 : Shape := ⟨1, ![64]⟩
abbrev S3x64x64 : Shape := ⟨3, ![3, 64, 64]⟩
abbrev S1x64 : Shape := ⟨2, ![1, 64]⟩
abbrev S16384x64 : Shape := ⟨2, ![16384, 64]⟩
abbrev S_ : Shape := ⟨0, ![]⟩
abbrev S16384x1 : Shape := ⟨2, ![16384, 1]⟩
abbrev S16384x63 : Shape := ⟨2, ![16384, 63]⟩
abbrev S16384x128 : Shape := ⟨2, ![16384, 128]⟩
abbrev S1024x2048 : Shape := ⟨2, ![1024, 2048]⟩
abbrev S2048x128 : Shape := ⟨2, ![2048, 128]⟩
abbrev S1024x128 : Shape := ⟨2, ![1024, 128]⟩
abbrev S16384 : Shape := ⟨1, ![16384]⟩
abbrev S1x64x64 : Shape := ⟨3, ![1, 64, 64]⟩
abbrev S2048x64 : Shape := ⟨2, ![2048, 64]⟩
abbrev S1024x64 : Shape := ⟨2, ![1024, 64]⟩
abbrev S64x1 : Shape := ⟨2, ![64, 1]⟩
abbrev S1x1 : Shape := ⟨2, ![1, 1]⟩

abbrev nBuf : Space → Nat
  | .hbm => 67
  | .vmem => 20
  | .smem => 0
  | _ => 0

abbrev bufTy : (tb : Table) → Fin (tcTables nBuf tb) → BufTy
  | .hbm, ⟨0, _⟩ => ⟨S1x16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S3x64x64, .f32⟩
  | .hbm, ⟨5, _⟩ => ⟨S64x64, .f32⟩
  | .hbm, ⟨6, _⟩ => ⟨S1x64, .f32⟩
  | .hbm, ⟨7, _⟩ => ⟨S16384x64, .f32⟩
  | .hbm, ⟨8, _⟩ => ⟨S16384x64, .f32⟩
  | .hbm, ⟨9, _⟩ => ⟨S1x64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384x1, .f32⟩
  | .hbm, ⟨14, _⟩ => ⟨S_, .f32⟩
  | .hbm, ⟨15, _⟩ => ⟨S16384x63, .f32⟩
  | .hbm, ⟨16, _⟩ => ⟨S16384x128, .f32⟩
  | .hbm, ⟨17, _⟩ => ⟨S16384x128, .f32⟩
  | .hbm, ⟨18, _⟩ => ⟨S16384x16384, .bf16⟩
  | .hbm, ⟨19, _⟩ => ⟨S16384x64, .f32⟩
  | .hbm, ⟨20, _⟩ => ⟨S16384x1, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384x1, .f32⟩
  | .hbm, ⟨26, _⟩ => ⟨S16384x64, .f32⟩
  | .hbm, ⟨27, _⟩ => ⟨S16384x64, .f32⟩
  | .hbm, ⟨28, _⟩ => ⟨S1x64x64, .f32⟩
  | .hbm, ⟨29, _⟩ => ⟨S64x64, .f32⟩
  | .hbm, ⟨30, _⟩ => ⟨S64x64, .f32⟩
  | .hbm, ⟨31, _⟩ => ⟨S16384x64, .f32⟩
  | .hbm, ⟨32, _⟩ => ⟨S_, .f32⟩
  | .hbm, ⟨33, _⟩ => ⟨S16384x64, .f32⟩
  | .hbm, ⟨34, _⟩ => ⟨S16384x64, .f32⟩
  | .hbm, ⟨35, _⟩ => ⟨S16384x64, .f32⟩
  | .hbm, ⟨36, _⟩ => ⟨S16384x64, .f32⟩
  | .hbm, ⟨37, _⟩ => ⟨S16384x64, .f32⟩
  | .hbm, ⟨38, _⟩ => ⟨S1x64x64, .f32⟩
  | .hbm, ⟨39, _⟩ => ⟨S64x64, .f32⟩
  | .hbm, ⟨40, _⟩ => ⟨S64x64, .f32⟩
  | .hbm, ⟨41, _⟩ => ⟨S16384x64, .f32⟩
  | .hbm, ⟨42, _⟩ => ⟨S_, .f32⟩
  | .hbm, ⟨43, _⟩ => ⟨S16384x64, .f32⟩
  | .hbm, ⟨44, _⟩ => ⟨S16384x64, .f32⟩
  | .hbm, ⟨45, _⟩ => ⟨S16384x64, .f32⟩
  | .hbm, ⟨46, _⟩ => ⟨S16384x64, .f32⟩
  | .hbm, ⟨47, _⟩ => ⟨S16384x64, .f32⟩
  | .hbm, ⟨48, _⟩ => ⟨S1x64x64, .f32⟩
  | .hbm, ⟨49, _⟩ => ⟨S64x64, .f32⟩
  | .hbm, ⟨50, _⟩ => ⟨S64x64, .f32⟩
  | .hbm, ⟨51, _⟩ => ⟨S16384x64, .f32⟩
  | .hbm, ⟨52, _⟩ => ⟨S_, .f32⟩
  | .hbm, ⟨53, _⟩ => ⟨S16384x64, .f32⟩
  | .hbm, ⟨54, _⟩ => ⟨S16384x64, .f32⟩
  | .hbm, ⟨55, _⟩ => ⟨S_, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S64x1, .f32⟩
  | .hbm, ⟨61, _⟩ => ⟨S64x1, .f32⟩
  | .hbm, ⟨62, _⟩ => ⟨S_, .f32⟩
  | .hbm, ⟨63, _⟩ => ⟨S64x1, .f32⟩
  | .hbm, ⟨64, _⟩ => ⟨S64x1, .f32⟩
  | .hbm, ⟨65, _⟩ => ⟨S1x1, .f32⟩
  | .hbm, ⟨66, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S16384x128, .f32⟩
  | .local _ .vmem, ⟨3, _⟩ => ⟨S2048x128, .f32⟩
  | .local _ .vmem, ⟨4, _⟩ => ⟨S2048x128, .f32⟩
  | .local _ .vmem, ⟨5, _⟩ => ⟨S1024x2048, .bf16⟩
  | .local _ .vmem, ⟨6, _⟩ => ⟨S1024x2048, .bf16⟩
  | .local _ .vmem, ⟨7, _⟩ => ⟨S2048x128, .f32⟩
  | .local _ .vmem, ⟨8, _⟩ => ⟨S1024x2048, .bf16⟩
  | .local _ .vmem, ⟨9, _⟩ => ⟨S1024x2048, .bf16⟩
  | .local _ .vmem, ⟨10, _⟩ => ⟨S16384x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S1024x2048, .bf16⟩
  | .local _ .vmem, ⟨15, _⟩ => ⟨S1024x2048, .bf16⟩
  | .local _ .vmem, ⟨16, _⟩ => ⟨S16384x64, .f32⟩
  | .local _ .vmem, ⟨17, _⟩ => ⟨S2048x64, .f32⟩
  | .local _ .vmem, ⟨18, _⟩ => ⟨S2048x64, .f32⟩
  | .local _ .vmem, ⟨19, _⟩ => ⟨S2048x64, .f32⟩
  | _, _ => ⟨S1x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call1_cst : Ref sig .tc := ⟨.hbm, 42, rfl⟩
abbrev main_call1_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call2_cst : Ref sig .tc := ⟨.hbm, 52, rfl⟩
abbrev main_call2_v0 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call3_cst : Ref sig .tc := ⟨.hbm, 62, rfl⟩
abbrev main_call3_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 16], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 16], ![false, false]⟩

def k2_mult1 (i : grid2.Coords) : BitVec 32 :=
  let arg1 : BitVec 32 := BitVec.ofNat 32 (i 1).val
  let c1024_i32 : BitVec 32 := 1024#32
  let v3 : BitVec 32 := Scalar.muli arg1 c1024_i32
  v3
def k2_off1 (i : grid2.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_7 : BitVec 32 := 0#32
  let v19 : BitVec 1 := Scalar.cmpi .ne v18 c0_i32_7
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S16384x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  shapeCasts_S1x16384x64_S16384x64 : S1x16384x64.ShapeCasts S16384x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x1 : S_.BroadcastsInDim S16384x1 (![] : Fin 0 → Fin S16384x1.rank)
  bcast_S_S16384x63 : S_.BroadcastsInDim S16384x63 (![] : Fin 0 → Fin S16384x63.rank)
  concatenates_S16384x64_S16384x1_S16384x63_S16384x128_d1 : Shape.Concatenates [S16384x64, S16384x1, S16384x63] S16384x128 1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  slices_S16384x128_S16384x64_0_0 : S16384x128.Slices ![0, 0] S16384x64
  slices_S16384x128_S16384x1_0_64 : S16384x128.Slices ![0, 64] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  bcast_S_S16384x64 : S_.BroadcastsInDim S16384x64 (![] : Fin 0 → Fin S16384x64.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  h_S1024x64 : 0 < S1024x64.numel
  shapeCasts_S1024x64_S1024x64 : S1024x64.ShapeCasts S1024x64
  shapeCasts_S1024x2048_S1024x2048 : S1024x2048.ShapeCasts S1024x2048
  slices_S3x64x64_S1x64x64_1_0_0 : S3x64x64.Slices ![1, 0, 0] S1x64x64
  slices_S3x64x64_S1x64x64_2_0_0 : S3x64x64.Slices ![2, 0, 0] S1x64x64
  reducesTo_S16384x64_S64_d0 : S16384x64.ReducesTo [0] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  shapeCasts_S1x1_S_ : S1x1.ShapeCasts S_
  dot_S16384x64_S64x64_S16384x64_1_0_0_1_n_n_wf : DotDims.WF S16384x64 S64x64 S16384x64 [1] [0] [0] [1] [] []
  dot_S1024x2048_S1024x128_S2048x128_0_0_1_1_n_n_wf : DotDims.WF S1024x2048 S1024x128 S2048x128 [0] [0] [1] [1] [] []
  dot_S1024x2048_S1024x64_S2048x64_0_0_1_1_n_n_wf : DotDims.WF S1024x2048 S1024x64 S2048x64 [0] [0] [1] [1] [] []
  dot_S64x64_S64x1_S64x1_1_0_0_1_n_n_wf : DotDims.WF S64x64 S64x1 S64x1 [1] [0] [0] [1] [] []
  dot_S1x64_S64x1_S1x1_1_0_0_1_n_n_wf : DotDims.WF S1x64 S64x1 S1x1 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S16384x16384.size a
  hwx0_3 : ∀ i : grid0.Coords, EltTy.bits .bf16 = 32 ∨ (Rect.block (s := S16384x16384) S1024x2048.size (cc0_transform_3 i) (hinb0_3 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x64.size a ≤ S16384x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .bf16 = 32 ∨ (Rect.block (s := S16384x16384) S1024x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .f32 = 32 ∨ (Rect.block (s := S16384x64) S16384x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .f32 = 32 ∨ (Rect.block (s := S16384x64) S2048x64.size (cc1_transform_2 i) (hinb1_2 i)).WholeWords (EltTy.packing .f32)
  hrank2 : 0 < grid2.rank
  k2_mult1_dvd : ∀ i : grid2.Coords, 1024 ∣ (k2_mult1 i).toNat
  k2_off1_inb : ∀ i : grid2.Coords, ∀ a, (k2_off1 i) a + S1024x64.size a ≤ S16384x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S16384x16384.size a
  hwx2_0 : ∀ i : grid2.Coords, EltTy.bits .bf16 = 32 ∨ (Rect.block (s := S16384x16384) S1024x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x64.size a ≤ S16384x64.size a
  hwx2_1 : ∀ i : grid2.Coords, EltTy.bits .f32 = 32 ∨ (Rect.block (s := S16384x64) S16384x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S16384x64.size a
  hwx2_2 : ∀ i : grid2.Coords, EltTy.bits .f32 = 32 ∨ (Rect.block (s := S16384x64) S2048x64.size (cc2_transform_2 i) (hinb2_2 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S1024x2048_S1024x128_S2048x128_0_0_1_1_n_n : DotDims S1024x2048 S1024x128 S2048x128 where
  lhsContracting := [0]
  rhsContracting := [0]
  lhsNonContracting := [1]
  rhsNonContracting := [1]
  lhsBatch := []
  rhsBatch := []
  wf := dot_S1024x2048_S1024x128_S2048x128_0_0_1_1_n_n_wf
def dot_S1024x2048_S1024x64_S2048x64_0_0_1_1_n_n : DotDims S1024x2048 S1024x64 S2048x64 where
  lhsContracting := [0]
  rhsContracting := [0]
  lhsNonContracting := [1]
  rhsNonContracting := [1]
  lhsBatch := []
  rhsBatch := []
  wf := dot_S1024x2048_S1024x64_S2048x64_0_0_1_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S2048x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

abbrev win1_0 : Pipeline.Window sig grid1 :=
  Pipeline.Window.ofSpec (Memref.whole main_v8_1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v8_1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S16384x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S2048x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S1x16384x64 : Shape := ⟨3, ![1, 16384, 64]⟩
abbrev S16384x16384 : Shape := ⟨2, ![16384, 16384]⟩
abbrev S64x64 : Shape := ⟨2, ![64, 64]⟩
abbrev S64 : Shape := ⟨1, ![64]⟩
abbrev S3x64x64 : Shape := ⟨3, ![3, 64, 64]⟩
abbrev S1x64 : Shape := ⟨2, ![1, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1x64x64 : Shape := ⟨3, ![1, 64, 64]⟩
abbrev S64x1 : Shape := ⟨2, ![64, 1]⟩
abbrev S1x1 : Shape := ⟨2, ![1, 1]⟩

abbrev nBuf : Space → Nat
  | .hbm => 62
  | .vmem => 0
  | .smem => 0
  | _ => 0

abbrev bufTy : (tb : Table) → Fin (tcTables nBuf tb) → BufTy
  | .hbm, ⟨0, _⟩ => ⟨S1x16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S3x64x64, .f32⟩
  | .hbm, ⟨5, _⟩ => ⟨S64x64, .f32⟩
  | .hbm, ⟨6, _⟩ => ⟨S1x64, .f32⟩
  | .hbm, ⟨7, _⟩ => ⟨S16384x64, .f32⟩
  | .hbm, ⟨8, _⟩ => ⟨S16384x64, .f32⟩
  | .hbm, ⟨9, _⟩ => ⟨S1x64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384, .f32⟩
  | .hbm, ⟨14, _⟩ => ⟨S16384x16384, .f32⟩
  | .hbm, ⟨15, _⟩ => ⟨S16384x64, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S1x64x64, .f32⟩
  | .hbm, ⟨20, _⟩ => ⟨S64x64, .f32⟩
  | .hbm, ⟨21, _⟩ => ⟨S64x64, .f32⟩
  | .hbm, ⟨22, _⟩ => ⟨S16384x64, .f32⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16384x16384, .f32⟩
  | .hbm, ⟨27, _⟩ => ⟨S16384x64, .f32⟩
  | .hbm, ⟨28, _⟩ => ⟨S16384x1, .f32⟩
  | .hbm, ⟨29, _⟩ => ⟨S16384x64, .f32⟩
  | .hbm, ⟨30, _⟩ => ⟨S16384x64, .f32⟩
  | .hbm, ⟨31, _⟩ => ⟨S1x64x64, .f32⟩
  | .hbm, ⟨32, _⟩ => ⟨S64x64, .f32⟩
  | .hbm, ⟨33, _⟩ => ⟨S64x64, .f32⟩
  | .hbm, ⟨34, _⟩ => ⟨S16384x64, .f32⟩
  | .hbm, ⟨35, _⟩ => ⟨S_, .f32⟩
  | .hbm, ⟨36, _⟩ => ⟨S16384x64, .f32⟩
  | .hbm, ⟨37, _⟩ => ⟨S16384x64, .f32⟩
  | .hbm, ⟨38, _⟩ => ⟨S16384x16384, .f32⟩
  | .hbm, ⟨39, _⟩ => ⟨S16384x64, .f32⟩
  | .hbm, ⟨40, _⟩ => ⟨S16384x1, .f32⟩
  | .hbm, ⟨41, _⟩ => ⟨S16384x64, .f32⟩
  | .hbm, ⟨42, _⟩ => ⟨S16384x64, .f32⟩
  | .hbm, ⟨43, _⟩ => ⟨S1x64x64, .f32⟩
  | .hbm, ⟨44, _⟩ => ⟨S64x64, .f32⟩
  | .hbm, ⟨45, _⟩ => ⟨S64x64, .f32⟩
  | .hbm, ⟨46, _⟩ => ⟨S16384x64, .f32⟩
  | .hbm, ⟨47, _⟩ => ⟨S_, .f32⟩
  | .hbm, ⟨48, _⟩ => ⟨S16384x64, .f32⟩
  | .hbm, ⟨49, _⟩ => ⟨S16384x64, .f32⟩
  | .hbm, ⟨50, _⟩ => ⟨S_, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S64x1, .f32⟩
  | .hbm, ⟨56, _⟩ => ⟨S64x1, .f32⟩
  | .hbm, ⟨57, _⟩ => ⟨S_, .f32⟩
  | .hbm, ⟨58, _⟩ => ⟨S64x1, .f32⟩
  | .hbm, ⟨59, _⟩ => ⟨S64x1, .f32⟩
  | .hbm, ⟨60, _⟩ => ⟨S1x1, .f32⟩
  | .hbm, ⟨61, _⟩ => ⟨S_, .f32⟩
  | _, _ => ⟨S1x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_cst : Ref sig .tc := ⟨.hbm, 35, rfl⟩
abbrev main_call1_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call2_cst : Ref sig .tc := ⟨.hbm, 47, rfl⟩
abbrev main_call2_v0 : Ref sig .tc := ⟨.hbm, 48, rfl⟩
abbrev main_v35 : Ref sig .tc := ⟨.hbm, 49, rfl⟩
abbrev main_cst_0 : Ref sig .tc := ⟨.hbm, 50, rfl⟩
abbrev main_v36 : Ref sig .tc := ⟨.hbm, 51, rfl⟩
abbrev main_cst_1 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call3_cst : Ref sig .tc := ⟨.hbm, 57, rfl⟩
abbrev main_call3_v0 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  shapeCasts_S1x16384x64_S16384x64 : S1x16384x64.ShapeCasts S16384x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x16384_S16384_d0 : S16384x16384.ReducesTo [0] S16384
  h_S_ : 0 < S_.numel
  transposes_S16384x16384_S16384x16384_1_0 : S16384x16384.Transposes [1, 0] S16384x16384
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  bcast_S_S16384x64 : S_.BroadcastsInDim S16384x64 (![] : Fin 0 → Fin S16384x64.rank)
  slices_S3x64x64_S1x64x64_1_0_0 : S3x64x64.Slices ![1, 0, 0] S1x64x64
  slices_S3x64x64_S1x64x64_2_0_0 : S3x64x64.Slices ![2, 0, 0] S1x64x64
  reducesTo_S16384x64_S64_d0 : S16384x64.ReducesTo [0] S64
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  shapeCasts_S1x1_S_ : S1x1.ShapeCasts S_
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []
  dot_S64x64_S64x1_S64x1_1_0_0_1_n_n_wf : DotDims.WF S64x64 S64x1 S64x1 [1] [0] [0] [1] [] []
  dot_S1x64_S64x1_S1x1_1_0_0_1_n_n_wf : DotDims.WF S1x64 S64x1 S1x1 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.Agg0Defs.lean ====
/-
  The first aggregation pass, one grid of 8 output tiles × 16 reduction steps over the adjacency in its wide format: at step
  `i` of tile `j` the body narrows the 1024 × 2048 adjacency block `(i, j)` and stores the narrowed block as a second output
  (written back at every point), and adds to a 2048 × 128 accumulator the product of the transposed narrowed block with rows
  `1024·i … 1024·i + 1023` of the 128-wide features (the 64 feature columns, a column of ones, 63 columns of zeros); the
  accumulator is cleared at the tile's first step and copied to the tile's output block at its last.
  This module fixes what the three cases of that body are stated over: the two conditions as facts about the point's
  number, where the aggregate's window is idle and where it is written back, the buffers the body is called with, and the
  region's invariant with the accumulator pulled out of the scoped rest.
-/
import proofs.«155212_j57251914056250_2_alg».proof.Proof.Gen.KernelIdeal.Launch
import proofs.«155212_j57251914056250_2_alg».proof.Proof.Gen.KernelIdeal.Skeleton
import proofs.«155212_j57251914056250_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Agg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body -/

/-- The reduction step is the tile's first: the accumulator is cleared. -/
abbrev condFirst (i : grid0.Coords) : Prop :=
  (Scalar.cmpi .ne (Scalar.extui (Scalar.cmpi .eq (BitVec.ofNat 32 (i 1).val) 0#32)) 0#32) = 1#1
/-- It is so at the points whose number is a multiple of 16. -/
theorem hcondFirst : ∀ t : Fin cfg0.N, condFirst (grid0.coords t) ↔ t.val % 16 = 0 :=
  (by decide +kernel : ∀ t : Fin grid0.N, condFirst (grid0.coords t) ↔ t.val % 16 = 0)

/-- The reduction step is the tile's last: the accumulator is copied to the aggregate's block. -/
abbrev condLast (i : grid0.Coords) : Prop := k0_cond2 i = 1#1
/-- It is so at the points whose number is 15 modulo 16. -/
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Away from a tile's last step the aggregate's window is idle: nothing is stored into it … -/
theorem idle_2 : ∀ t : Fin cfg0.N, ¬condLast (grid0.coords t) → cfg0.idle 2 (grid0.coords t) = true := by decide +kernel
/-- … and it is not written back there. -/
theorem noFlush_2 : ∀ t : Fin cfg0.N, ¬condLast (grid0.coords t) → (cfg0.win 2).flush t = false := by decide +kernel
/-- At a tile's last step it is live. -/
theorem live_2 : ∀ t : Fin cfg0.N, condLast (grid0.coords t) → cfg0.idle 2 (grid0.coords t) = false := by decide +kernel
/-- The narrowed block's window is stored at every point. -/
theorem live_3 : ∀ t : Fin cfg0.N, cfg0.idle 3 (grid0.coords t) = false := by decide +kernel

/-! ## The buffers the body is called with -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16384x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .bf16 := win0_3.stage (cfg0.slots t 3)
abbrev hs3 (t : Fin cfg0.N) : (ms3 t).IsWhole := hstage0_3 ((cfg0.slots t 3).cast nbuf0_3)
/-- The accumulator: a scoped buffer of the kernel's own, carried from point to point. -/
abbrev accM : Memref sig .tc .vmem S2048x128 .f32 := Memref.whole cc0_scratch0
/-- The accumulator and one staging buffer of each output window as views: contents are stated through them. -/
abbrev accV : View sig .tc .vmem S2048x128 .f32 := accM.view
abbrev outV : View sig .tc .vmem S2048x128 .f32 := (Memref.whole cc0_stg2_0 : Memref sig .tc .vmem S2048x128 .f32).view
abbrev castV : View sig .tc .vmem S1024x2048 .bf16 := (Memref.whole cc0_stg3_0 : Memref sig .tc .vmem S1024x2048 .bf16).view

/-- The scoped buffers of the core other than this pass's staging buffers and its accumulator (the other passes'
    staging buffers and accumulators), each whole at some contents: they ride through this pass untouched. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_scratch0), ((c : Thread nD τ).loc cc2_scratch0) ↦{fullShare} f))

/-- The class's invariant (every scoped buffer that is no staging buffer of this pass at some contents, and the generator
    register at some state) gives the accumulator at some contents beside the other buffers … -/
theorem PhiA_split (c : Dev nD) : (Pipeline.ΦA spec0 c : sProp 𝕄) ⊢ iprop((∃ d, owns (c : Thread nD τ) accM fullShare d) ∗ others (F := F) c ∗ (∃ r, prngReg c r)) := by
  unfold Pipeline.ΦA others; rw [scopedRest0_eq]; simp only [accM, owns_whole]
  iintro ⟨⟨H1, H2, H3, H4, H5, H6, H7, H8, H9, H10, H11, H12, H13⟩, Hp⟩
  isplitl [H1]; · iexact H1
  isplitr [Hp]
  swap; · iexact Hp
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- … and is given back by them: separating conjunction is commutative and associative. -/
theorem PhiA_join (c : Dev nD) : iprop((∃ d, owns (c : Thread nD τ) accM fullShare d) ∗ others (F := F) c ∗ (∃ r, prngReg c r)) ⊢ (Pipeline.ΦA spec0 c : sProp 𝕄) := by
  unfold Pipeline.ΦA others; rw [scopedRest0_eq]; simp only [accM, owns_whole]
  iintro ⟨H1, ⟨H2, H3, H4, H5, H6, H7, H8, H9, H10, H11, H12, H13⟩, Hp⟩
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The two are one assertion. -/
theorem PhiA_eq (c : Dev nD) : (Pipeline.ΦA spec0 c : sProp 𝕄) = iprop((∃ d, owns (c : Thread nD τ) accM fullShare d) ∗ others (F := F) c ∗ (∃ r, prngReg c r)) :=
  Idealize.SL.BI.Entails.antisymm (PhiA_split c) (PhiA_join c)

end Cert.KernelIdeal.Agg0

end
-- ==== Proof.Agg0Runs.lean ====
/-
  The body of the first aggregation pass run symbolically, once per case of its two conditions: first step of a tile (the
  accumulator, at anything, is cleared and then takes the step's product), a middle step (the accumulator takes the step's
  product on top of what the step before left), last step (the same, and the accumulator is copied into the aggregate's
  block). In every case the narrowed adjacency block is stored whole into the second output's buffer. Each run is a
  subtype: the lists of pieces the stores leave in each buffer, found by the run itself, with the proof that the body
  runs from the buffers at their contents to the continuation holding them so.
-/
import proofs.«155212_j57251914056250_2_alg».proof.Proof.Agg0Defs

set_option maxRecDepth 16384

noncomputable section

namespace Cert.KernelIdeal.Agg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First step of a tile: adjacency block `x0`, features `x1`, the idle aggregate block `xi2` handed back untouched, the narrowed block's buffer and the accumulator at anything on entry. -/
noncomputable def runFirst (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole)
    (hc0 : condFirst i) (hc1 : ¬condLast i)
    (x0 : Vec F S1024x2048 .f32) (x1 : Vec F S16384x128 .f32) :
    Σ' (L3 : List (View.Piece (Elt F) S1024x2048 .bf16)), { LS : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel_layer0 i arg2 harg2 arg3 harg3 arg4 harg4 arg5 harg5 arg6 harg6) K } := by
  refine ⟨?_, ?_, fun xi2 E K => ?run⟩
  case run =>
    simp only [cc0__agg_kernel_layer0_eq_skeleton]; unfold cc0__agg_kernel_layer0_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

set_option maxHeartbeats 1000000 in
/-- A middle step: as above, the accumulator at what the step before left, `xs`. -/
noncomputable def runMiddle (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole)
    (hc0 : ¬condFirst i) (hc1 : ¬condLast i)
    (x0 : Vec F S1024x2048 .f32) (x1 : Vec F S16384x128 .f32) (xs : Vec F S2048x128 .f32) :
    Σ' (L3 : List (View.Piece (Elt F) S1024x2048 .bf16)), { LS : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel_layer0 i arg2 harg2 arg3 harg3 arg4 harg4 arg5 harg5 arg6 harg6) K } := by
  refine ⟨?_, ?_, fun xi2 E K => ?run⟩
  case run =>
    simp only [cc0__agg_kernel_layer0_eq_skeleton]; unfold cc0__agg_kernel_layer0_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

set_option maxHeartbeats 1000000 in
/-- Last step of a tile: the aggregate's block, at anything on entry, ends with the pieces `L2` written. -/
noncomputable def runLast (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole)
    (hc0 : ¬condFirst i) (hc1 : condLast i)
    (x0 : Vec F S1024x2048 .f32) (x1 : Vec F S16384x128 .f32) (xs : Vec F S2048x128 .f32) :
    Σ' (L2 : List (View.Piece (Elt F) S2048x128 .f32)), Σ' (L3 : List (View.Piece (Elt F) S1024x2048 .bf16)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel_layer0 i arg2 harg2 arg3 harg3 arg4 harg4 arg5 harg5 arg6 harg6) K } := by
  refine ⟨?_, ?_, ?_, fun E K => ?run⟩
  case run =>
    simp only [cc0__agg_kernel_layer0_eq_skeleton]; unfold cc0__agg_kernel_layer0_skel
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.KernelIdeal.Agg0

end
-- ==== Proof.Agg0Frame.lean ====
/-
  The first aggregation pass point by point. After the body at point `t` (tile `t / 16`, reduction step `t % 16`) the
  accumulator holds: at a tile's first step, zero plus the step's product; at a later step, what the step before left
  plus the step's product. The aggregate's block is stored at the tile's last step only, as a copy of the accumulator; at
  the other steps its window is idle and its buffer is handed back untouched. The narrowed adjacency block is stored at
  every point. From this: the pipeline's proof data, the region's invariant (the accumulator at the contents the point
  before left, every other scoped buffer and the generator register at anything), and the body's obligation at a generic
  point, by cases on `t % 16`.
-/
import proofs.«155212_j57251914056250_2_alg».proof.Proof.Agg0Runs

set_option maxRecDepth 16384

noncomputable section

namespace Cert.KernelIdeal.Agg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current staging buffer holds its block at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The features' window (the whole array, fetched once) holds the array at every point, fetched there or not. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end

/-! ## What each case leaves -/

theorem accCover_first (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : condFirst i) (hc1 : ¬condLast i)
    (x0 : Vec F S1024x2048 .f32) (x1 : Vec F S16384x128 .f32) (y : S2048x128.Idx) :
    ∃ pc ∈ (runFirst c i arg2 harg2 arg3 harg3 arg4 harg4 arg5 harg5 arg6 harg6 hc0 hc1 x0 x1).2.1, y ∈ pc.1.set :=
  View.cover_of_tiledL (runFirst c i arg2 harg2 arg3 harg3 arg4 harg4 arg5 harg5 arg6 harg6 hc0 hc1 x0 x1).2.1 S2048x128.size (by sl_kernel_rfl) y
/-- What this step leaves in the accumulator. -/
def accFirst (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : condFirst i) (hc1 : ¬condLast i)
    (x0 : Vec F S1024x2048 .f32) (x1 : Vec F S16384x128 .f32) : Vec F S2048x128 .f32 :=
  accV.read (Elt F) (accV.writes (Elt F) accV.junk (runFirst c i arg2 harg2 arg3 harg3 arg4 harg4 arg5 harg5 arg6 harg6 hc0 hc1 x0 x1).2.1)

theorem castCover_first (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : condFirst i) (hc1 : ¬condLast i)
    (x0 : Vec F S1024x2048 .f32) (x1 : Vec F S16384x128 .f32) (y : S1024x2048.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1024x2048.size (by sl_kernel_rfl) y
/-- What this step leaves in the narrowed block's buffer. -/
def castFirst (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : condFirst i) (hc1 : ¬condLast i)
    (x0 : Vec F S1024x2048 .f32) (x1 : Vec F S16384x128 .f32) : Vec F S1024x2048 .bf16 :=
  castV.read (Elt F) (castV.writes (Elt F) castV.junk (runFirst c i arg2 harg2 arg3 harg3 arg4 harg4 arg5 harg5 arg6 harg6 hc0 hc1 x0 x1).1)

theorem accCover_middle (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : ¬condLast i)
    (x0 : Vec F S1024x2048 .f32) (x1 : Vec F S16384x128 .f32) (xs : Vec F S2048x128 .f32) (y : S2048x128.Idx) :
    ∃ pc ∈ (runMiddle c i arg2 harg2 arg3 harg3 arg4 harg4 arg5 harg5 arg6 harg6 hc0 hc1 x0 x1 xs).2.1, y ∈ pc.1.set :=
  View.cover_of_tiledL (runMiddle c i arg2 harg2 arg3 harg3 arg4 harg4 arg5 harg5 arg6 harg6 hc0 hc1 x0 x1 xs).2.1 S2048x128.size (by sl_kernel_rfl) y
/-- What this step leaves in the accumulator. -/
def accMiddle (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : ¬condLast i)
    (x0 : Vec F S1024x2048 .f32) (x1 : Vec F S16384x128 .f32) (xs : Vec F S2048x128 .f32) : Vec F S2048x128 .f32 :=
  accV.read (Elt F) (accV.writes (Elt F) accV.junk (runMiddle c i arg2 harg2 arg3 harg3 arg4 harg4 arg5 harg5 arg6 harg6 hc0 hc1 x0 x1 xs).2.1)

theorem castCover_middle (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : ¬condLast i)
    (x0 : Vec F S1024x2048 .f32) (x1 : Vec F S16384x128 .f32) (xs : Vec F S2048x128 .f32) (y : S1024x2048.Idx) :
    ∃ pc ∈ (runMiddle c i arg2 harg2 arg3 harg3 arg4 harg4 arg5 harg5 arg6 harg6 hc0 hc1 x0 x1 xs).1, y ∈ pc.1.set :=
  View.cover_of_tiledL (runMiddle c i arg2 harg2 arg3 harg3 arg4 harg4 arg5 harg5 arg6 harg6 hc0 hc1 x0 x1 xs).1 S1024x2048.size (by sl_kernel_rfl) y
/-- What this step leaves in the narrowed block's buffer. -/
def castMiddle (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : ¬condLast i)
    (x0 : Vec F S1024x2048 .f32) (x1 : Vec F S16384x128 .f32) (xs : Vec F S2048x128 .f32) : Vec F S1024x2048 .bf16 :=
  castV.read (Elt F) (castV.writes (Elt F) castV.junk (runMiddle c i arg2 harg2 arg3 harg3 arg4 harg4 arg5 harg5 arg6 harg6 hc0 hc1 x0 x1 xs).1)

theorem accCover_last (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : condLast i)
    (x0 : Vec F S1024x2048 .f32) (x1 : Vec F S16384x128 .f32) (xs : Vec F S2048x128 .f32) (y : S2048x128.Idx) :
    ∃ pc ∈ (runLast c i arg2 harg2 arg3 harg3 arg4 harg4 arg5 harg5 arg6 harg6 hc0 hc1 x0 x1 xs).2.2.1, y ∈ pc.1.set :=
  View.cover_of_tiledL (runLast c i arg2 harg2 arg3 harg3 arg4 harg4 arg5 harg5 arg6 harg6 hc0 hc1 x0 x1 xs).2.2.1 S2048x128.size (by sl_kernel_rfl) y
/-- What this step leaves in the accumulator. -/
def accLast (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : condLast i)
    (x0 : Vec F S1024x2048 .f32) (x1 : Vec F S16384x128 .f32) (xs : Vec F S2048x128 .f32) : Vec F S2048x128 .f32 :=
  accV.read (Elt F) (accV.writes (Elt F) accV.junk (runLast c i arg2 harg2 arg3 harg3 arg4 harg4 arg5 harg5 arg6 harg6 hc0 hc1 x0 x1 xs).2.2.1)

theorem castCover_last (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : condLast i)
    (x0 : Vec F S1024x2048 .f32) (x1 : Vec F S16384x128 .f32) (xs : Vec F S2048x128 .f32) (y : S1024x2048.Idx) :
    ∃ pc ∈ (runLast c i arg2 harg2 arg3 harg3 arg4 harg4 arg5 harg5 arg6 harg6 hc0 hc1 x0 x1 xs).2.1, y ∈ pc.1.set :=
  View.cover_of_tiledL (runLast c i arg2 harg2 arg3 harg3 arg4 harg4 arg5 harg5 arg6 harg6 hc0 hc1 x0 x1 xs).2.1 S1024x2048.size (by sl_kernel_rfl) y
/-- What this step leaves in the narrowed block's buffer. -/
def castLast (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : condLast i)
    (x0 : Vec F S1024x2048 .f32) (x1 : Vec F S16384x128 .f32) (xs : Vec F S2048x128 .f32) : Vec F S1024x2048 .bf16 :=
  castV.read (Elt F) (castV.writes (Elt F) castV.junk (runLast c i arg2 harg2 arg3 harg3 arg4 harg4 arg5 harg5 arg6 harg6 hc0 hc1 x0 x1 xs).2.1)

theorem outCover_last (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : condLast i)
    (x0 : Vec F S1024x2048 .f32) (x1 : Vec F S16384x128 .f32) (xs : Vec F S2048x128 .f32) (y : S2048x128.Idx) :
    ∃ pc ∈ (runLast c i arg2 harg2 arg3 harg3 arg4 harg4 arg5 harg5 arg6 harg6 hc0 hc1 x0 x1 xs).1, y ∈ pc.1.set :=
  View.cover_of_tiledL (runLast c i arg2 harg2 arg3 harg3 arg4 harg4 arg5 harg5 arg6 harg6 hc0 hc1 x0 x1 xs).1 S2048x128.size (by sl_kernel_rfl) y
/-- What the last step leaves in the aggregate's block. -/
def outLast (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : condLast i)
    (x0 : Vec F S1024x2048 .f32) (x1 : Vec F S16384x128 .f32) (xs : Vec F S2048x128 .f32) : Vec F S2048x128 .f32 :=
  outV.read (Elt F) (outV.writes (Elt F) outV.junk (runLast c i arg2 harg2 arg3 harg3 arg4 harg4 arg5 harg5 arg6 harg6 hc0 hc1 x0 x1 xs).1)

/-- At a step that is not a tile's last the aggregate's window is idle: a placeholder nothing consults. -/
def outIdle : Vec F S2048x128 .f32 := outV.read (Elt F) (outV.writes (Elt F) outV.junk [])

section
variable (V : (c : Dev nD) → (b : Ref sig .tc) → Buf (Elt F) ((c : Thread nD τ).loc b))

/-! ## The accumulation -/

/-- What the two output windows' staging buffers and the accumulator hold after the body at position `n`: the case the
    position's number selects, run at the point's buffers and blocks, over what position `n - 1` left in the accumulator. -/
def outsAt (c : Dev nD) : (n : ℕ) → n < cfg0.N → Vec F S2048x128 .f32 × Vec F S1024x2048 .bf16 × Vec F S2048x128 .f32
  | 0, hn => (outIdle, castFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩), accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩))
  | n + 1, hn =>
    if h0 : (n + 1) % 16 = 0 then
      if h1 : (n + 1) % 16 = 15 then
        False.elim (by omega)
      else
        (outIdle, castFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩), accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩))
    else
      if h1 : (n + 1) % 16 = 15 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2.2, castLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2.2, accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2.2)
      else
        (outIdle, castMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (outsAt c n (Nat.lt_of_succ_lt hn)).2.2, accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (outsAt c n (Nat.lt_of_succ_lt hn)).2.2)

/-- At a tile's first step. -/
theorem outsAt_first (c : Dev nD) (t : Fin cfg0.N) (h0 : t.val % 16 = 0) (h1 : ¬t.val % 16 = 15) :
    outsAt V c t.val t.isLt = (outIdle, castFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t), accFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t)) := by
  obtain ⟨n, hn⟩ := t
  cases n with
  | zero => exact rfl
  | succ n => exact (dif_pos h0).trans ((dif_neg h1).trans rfl)

/-- At a middle step: over what the point before left. -/
theorem outsAt_middle (c : Dev nD) (t : Fin cfg0.N) (h0 : ¬t.val % 16 = 0) (h1 : ¬t.val % 16 = 15) :
    outsAt V c t.val t.isLt = (outIdle, castMiddle c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2.2, accMiddle c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a tile's last step: over what the point before left. -/
theorem outsAt_last (c : Dev nD) (t : Fin cfg0.N) (h0 : ¬t.val % 16 = 0) (h1 : t.val % 16 = 15) :
    outsAt V c t.val t.isLt = (outLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2, castLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2, accLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point the class's invariant; afterwards the accumulator at what the point before
    left, the other buffers and the generator register at anything. -/
def PhiS (c : Dev nD) : (n : ℕ) → n ≤ cfg0.N → sProp 𝕄
  | 0, _ => Pipeline.ΦA spec0 c
  | n + 1, hn => iprop(owns (c : Thread nD τ) accM fullShare ((outsAt V c n hn).2.2) ∗ others (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) accM fullShare ((outsAt V c n hn).2.2) ∗ others (F := F) c ∗ (∃ r, prngReg c r)) := rfl

theorem PhiS_pos (c : Dev nD) (n : ℕ) (h : n ≤ cfg0.N) (hz : n ≠ 0) :
    PhiS V c n h = iprop(owns (c : Thread nD τ) accM fullShare ((outsAt V c (n - 1) (by omega)).2.2) ∗ others (F := F) c ∗ (∃ r, prngReg c r)) := by
  cases n with
  | zero => exact absurd rfl hz
  | succ n => rfl

/-! ## The pipeline's proof data -/

/-- The arrays as the region finds them; after the body each input's buffer at its block, the outputs' and the
    accumulator at `outsAt`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
    | ⟨3, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]
theorem after_3 (c : Dev nD) (t : Fin cfg0.N) : (dat V c).after 3 t = (outsAt V c t.val t.isLt).2.1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

/-- What the body is called with at point `t`: the invariant, the core owing nothing, each window's current staging buffer. -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the point's number modulo 16 says which case it is in;
    the invariant hands the body the accumulator at what the point before left (at anything at the very first point, and
    at a tile's first step the body does not use it) and takes it back at this point's contents; the aggregate's window is
    handed back untouched away from a tile's last step and holds the copy of the accumulator at it; the narrowed block's
    buffer, at anything on entry, holds the narrowed block; nothing is owed. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg0.N = 128 from N_0)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 3 t = owns (c : Thread nD τ) (ms3 t) fullShare ((dat V c).after 3 t) from by
    unfold Dat.leavesExact; rw [live_3 t], after_3]
  by_cases h0 : t.val % 16 = 0
  · have h1 : ¬t.val % 16 = 15 := by omega
    rw [Dat.leavesExact_idle (dat V c) 2 t (idle_2 t (fun h => h1 ((hcondLast t).mp h))) (noFlush_2 t (fun h => h1 ((hcondLast t).mp h)))]
    rw [outsAt_first V c t h0 h1]
    unfold accFirst castFirst; (try dsimp only)
    by_cases hz : t.val = 0
    · rw [PhiS_castSucc V c t, PhiS_zero V c _ _ hz, PhiA_eq]
      iintro ⟨⟨HS, Hoth, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t)).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS]
        · unfold owns; iexists _; isplitr
          swap; · iexact HS
          ipureintro; exact View.read_writes_of_cover _ _ _ _ _ (accCover_first c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t))
        isplitl [Hoth]; · iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (castCover_first c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t))
    · rw [PhiS_castSucc V c t, PhiS_pos V c _ _ hz]
      iintro ⟨⟨HS, Hoth, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t)).2.2 _ Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hoth Hg]
      · isplitl [HS]
        · unfold owns; iexists _; isplitr
          swap; · iexact HS
          ipureintro; exact View.read_writes_of_cover _ _ _ _ _ (accCover_first c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t))
        isplitl [Hoth]; · iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (castCover_first c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t))
  · have hz : t.val ≠ 0 := fun h => h0 (by rw [h])
    by_cases h1 : t.val % 16 = 15
    · rw [show (dat V c).leavesExact 2 t = owns (c : Thread nD τ) (ms2 t) fullShare ((dat V c).after 2 t) from by
        unfold Dat.leavesExact; rw [live_2 t ((hcondLast t).mpr h1)], after_2]
      rw [outsAt_last V c t h0 h1]
      unfold outLast accLast castLast; (try dsimp only)
      rw [PhiS_castSucc V c t, PhiS_pos V c _ _ hz]
      iintro ⟨⟨HS, Hoth, Hg⟩, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hoth Hg]
      · isplitl [HS]
        · unfold owns; iexists _; isplitr
          swap; · iexact HS
          ipureintro; exact View.read_writes_of_cover _ _ _ _ _ (accCover_last c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2)
        isplitl [Hoth]; · iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (outCover_last c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2)
      unfold owns; iexists _; isplitr
      swap; · iexact H3
      ipureintro; exact View.read_writes_of_cover _ _ _ _ _ (castCover_last c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2)
    · rw [Dat.leavesExact_idle (dat V c) 2 t (idle_2 t (fun h => h1 ((hcondLast t).mp h))) (noFlush_2 t (fun h => h1 ((hcondLast t).mp h)))]
      rw [outsAt_middle V c t h0 h1]
      unfold accMiddle castMiddle; (try dsimp only)
      rw [PhiS_castSucc V c t, PhiS_pos V c _ _ hz]
      iintro ⟨⟨HS, Hoth, Hg⟩, Ho, ⟨%d0, H0⟩, ⟨%d1, H1⟩, ⟨%d2, H2⟩, ⟨%d3, H3⟩⟩
      iapply ((runMiddle c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2.2).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS]
        · unfold owns; iexists _; isplitr
          swap; · iexact HS
          ipureintro; exact View.read_writes_of_cover _ _ _ _ _ (accCover_middle c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2.2)
        isplitl [Hoth]; · iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (castCover_middle c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2.2)

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem Phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem Phi_out (c : Dev nD) : (dat V c).Φ (Fin.last cfg0.N) ⊢ Pipeline.ΦA spec0 c := by
  have e : (dat V c).Φ (Fin.last cfg0.N) = PhiS V c (Fin.last cfg0.N).val (Nat.le_of_lt_succ (Fin.last cfg0.N).isLt) := by
    dsimp only [dat]
  rw [e, PhiS_pos V c _ _ (by rw [Fin.val_last]; have : cfg0.N = 128 := N_0; omega), PhiA_eq]
  iintro ⟨HS, Hoth, Hg⟩
  isplitl [HS]; · iexists _; iexact HS
  isplitl [Hoth]; · iexact Hoth
  iexact Hg

end

end Cert.KernelIdeal.Agg0

end
-- ==== Proof.Agg1Defs.lean ====
/-
  The second aggregation pass (the first of the two that read the adjacency in its narrow format), one grid of
  8 output tiles × 16 reduction steps: at step `i` of tile `j` the body adds to a 2048 × 64 accumulator the product
  of the transposed 1024 × 2048 adjacency block `(i, j)` with rows `1024·i … 1024·i + 1023` of the features; the
  accumulator is cleared at the tile's first step and copied to the tile's output block at its last.
  This module fixes what the three cases of that body are stated over: the two conditions as facts about the
  point's number (`t % 16 = 0`, `t % 16 = 15`), where the output window is idle and where it is written back, the
  buffers the body is called with, and the region's invariant with the accumulator pulled out of the scoped rest.
-/
import proofs.«155212_j57251914056250_2_alg».proof.Proof.Gen.KernelIdeal.Launch
import proofs.«155212_j57251914056250_2_alg».proof.Proof.Gen.KernelIdeal.Skeleton
import proofs.«155212_j57251914056250_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body -/

/-- The reduction step is the tile's first: the accumulator is cleared. -/
abbrev condFirst (i : grid1.Coords) : Prop :=
  (Scalar.cmpi .ne (Scalar.extui (Scalar.cmpi .eq (BitVec.ofNat 32 (i 1).val) 0#32)) 0#32) = 1#1
/-- It is so at the points whose number is a multiple of 16. -/
theorem hcondFirst : ∀ t : Fin cfg1.N, condFirst (grid1.coords t) ↔ t.val % 16 = 0 :=
  (by decide +kernel : ∀ t : Fin grid1.N, condFirst (grid1.coords t) ↔ t.val % 16 = 0)

/-- The reduction step is the tile's last: the accumulator is copied to the output block. -/
abbrev condLast (i : grid1.Coords) : Prop := k1_cond2 i = 1#1
/-- It is so at the points whose number is 15 modulo 16. -/
theorem hcondLast : ∀ t : Fin cfg1.N, condLast (grid1.coords t) ↔ t.val % 16 = 15 :=
  (by decide +kernel : ∀ t : Fin grid1.N, condLast (grid1.coords t) ↔ t.val % 16 = 15)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
/-- Away from a tile's last step the output window is idle: nothing is stored into it … -/
theorem idle_2 : ∀ t : Fin cfg1.N, ¬condLast (grid1.coords t) → cfg1.idle 2 (grid1.coords t) = true := by decide +kernel
/-- … and it is not written back there. -/
theorem noFlush_2 : ∀ t : Fin cfg1.N, ¬condLast (grid1.coords t) → (cfg1.win 2).flush t = false := by decide +kernel
/-- At a tile's last step it is live. -/
theorem live_2 : ∀ t : Fin cfg1.N, condLast (grid1.coords t) → cfg1.idle 2 (grid1.coords t) = false := by decide +kernel

/-! ## The buffers the body is called with -/

abbrev ms0 (t : Fin cfg1.N) : Memref sig .tc .vmem S1024x2048 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S16384x64 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S2048x64 .f32 := win1_2.stage (cfg1.slots t 2)
abbrev hs2 (t : Fin cfg1.N) : (ms2 t).IsWhole := hstage1_2 ((cfg1.slots t 2).cast nbuf1_2)
/-- The accumulator: a scoped buffer of the kernel's own, carried from point to point. -/
abbrev accM : Memref sig .tc .vmem S2048x64 .f32 := Memref.whole cc1_scratch0
/-- The accumulator and one staging buffer of the output window as views: contents are stated through them. -/
abbrev accV : View sig .tc .vmem S2048x64 .f32 := accM.view
abbrev outV : View sig .tc .vmem S2048x64 .f32 := (Memref.whole cc1_stg2_0 : Memref sig .tc .vmem S2048x64 .f32).view

/-- The scoped buffers of the core other than this pass's staging buffers and its accumulator (the other passes'
    staging buffers and accumulators), each whole at some contents: they ride through this pass untouched. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_scratch0), ((c : Thread nD τ).loc cc2_scratch0) ↦{fullShare} f))

/-- The class's invariant (every scoped buffer that is no staging buffer of this pass at some contents, and the generator
    register at some state) gives the accumulator at some contents beside the other buffers … -/
theorem PhiA_split (c : Dev nD) : (Pipeline.ΦA spec1 c : sProp 𝕄) ⊢ iprop((∃ d, owns (c : Thread nD τ) accM fullShare d) ∗ others (F := F) c ∗ (∃ r, prngReg c r)) := by
  unfold Pipeline.ΦA others; rw [scopedRest1_eq]; simp only [accM, owns_whole]
  iintro ⟨⟨H1, H2, H3, H4, H5, H6, H7, H8, H9, H10, H11, H12, H13, H14, H15⟩, Hp⟩
  isplitl [H9]; · iexact H9
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  iexact H15

/-- … and is given back by them: separating conjunction is commutative and associative. -/
theorem PhiA_join (c : Dev nD) : iprop((∃ d, owns (c : Thread nD τ) accM fullShare d) ∗ others (F := F) c ∗ (∃ r, prngReg c r)) ⊢ (Pipeline.ΦA spec1 c : sProp 𝕄) := by
  unfold Pipeline.ΦA others; rw [scopedRest1_eq]; simp only [accM, owns_whole]
  iintro ⟨H9, ⟨H1, H2, H3, H4, H5, H6, H7, H8, H10, H11, H12, H13, H14, H15⟩, Hp⟩
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The two are one assertion. -/
theorem PhiA_eq (c : Dev nD) : (Pipeline.ΦA spec1 c : sProp 𝕄) = iprop((∃ d, owns (c : Thread nD τ) accM fullShare d) ∗ others (F := F) c ∗ (∃ r, prngReg c r)) :=
  Idealize.SL.BI.Entails.antisymm (PhiA_split c) (PhiA_join c)

end Cert.KernelIdeal.Agg1

end
-- ==== Proof.Agg1Runs.lean ====
/-
  The body of the second aggregation pass run symbolically, once per case of its two conditions:
  first step of a tile (the accumulator, at anything, is cleared and then takes the step's product), a middle step (the
  accumulator takes the step's product on top of what the step before left), last step (the same, and the accumulator is
  copied into the output block). Each run is a subtype: the list of pieces the stores leave in each buffer, found by the
  run itself, with the proof that the body runs from the buffers at their contents to the continuation holding them so.
-/
import proofs.«155212_j57251914056250_2_alg».proof.Proof.Agg1Defs

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First step of a tile: adjacency block `x0`, features `x1`, the idle output block `xi2` handed back untouched, the
    accumulator at anything on entry. -/
noncomputable def runFirst (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole)
    (hc0 : condFirst i) (hc1 : ¬condLast i)
    (x0 : Vec F S1024x2048 .bf16) (x1 : Vec F S16384x64 .f32) :
    { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel_bf16 i arg2 harg2 arg3 harg3 arg4 harg4 arg5 harg5) K } := by
  refine ⟨?_, fun xi2 E K => ?run⟩
  case run =>
    simp only [cc1__agg_kernel_bf16_eq_skeleton]; unfold cc1__agg_kernel_bf16_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A middle step: as above, the accumulator at what the step before left, `xs`. -/
noncomputable def runMiddle (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole)
    (hc0 : ¬condFirst i) (hc1 : ¬condLast i)
    (x0 : Vec F S1024x2048 .bf16) (x1 : Vec F S16384x64 .f32) (xs : Vec F S2048x64 .f32) :
    { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel_bf16 i arg2 harg2 arg3 harg3 arg4 harg4 arg5 harg5) K } := by
  refine ⟨?_, fun xi2 E K => ?run⟩
  case run =>
    simp only [cc1__agg_kernel_bf16_eq_skeleton]; unfold cc1__agg_kernel_bf16_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Last step of a tile: the output block, at anything on entry, ends with the pieces `L2` written. -/
noncomputable def runLast (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole)
    (hc0 : ¬condFirst i) (hc1 : condLast i)
    (x0 : Vec F S1024x2048 .bf16) (x1 : Vec F S16384x64 .f32) (xs : Vec F S2048x64 .f32) :
    Σ' (L2 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel_bf16 i arg2 harg2 arg3 harg3 arg4 harg4 arg5 harg5) K } := by
  refine ⟨?_, ?_, fun E K => ?run⟩
  case run =>
    simp only [cc1__agg_kernel_bf16_eq_skeleton]; unfold cc1__agg_kernel_bf16_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Agg1

end
-- ==== Proof.Agg1Frame.lean ====
/-
  The second aggregation pass point by point. After the body at point `t` (tile `t / 16`, reduction step `t % 16`) the
  accumulator holds: at a tile's first step, zero plus the step's product; at a later step, what the step before left
  plus the step's product. The tile's output block is stored at the last step only, as a copy of the accumulator;
  at the other steps the output window is idle and its buffer is handed back untouched. From this: the pipeline's proof
  data (what every staging buffer holds after the body at every point), the region's invariant (the accumulator at the
  contents the point before left, every other scoped buffer and the generator register at anything), and the body's
  obligation at a generic point, by cases on `t % 16`.
-/
import proofs.«155212_j57251914056250_2_alg».proof.Proof.Agg1Runs

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's current staging buffer holds its block at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The features' window (the whole array, fetched once) holds the array at every point, fetched there or not. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end

/-! ## What each case leaves -/

/-- The pieces the first step's two stores leave in the accumulator cover it. -/
theorem accCover_first (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : condFirst i) (hc1 : ¬condLast i)
    (x0 : Vec F S1024x2048 .bf16) (x1 : Vec F S16384x64 .f32) (y : S2048x64.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S2048x64.size (by sl_kernel_rfl) y
/-- What the first step leaves in the accumulator. -/
def accFirst (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : condFirst i) (hc1 : ¬condLast i)
    (x0 : Vec F S1024x2048 .bf16) (x1 : Vec F S16384x64 .f32) : Vec F S2048x64 .f32 :=
  accV.read (Elt F) (accV.writes (Elt F) accV.junk (runFirst c i arg2 harg2 arg3 harg3 arg4 harg4 arg5 harg5 hc0 hc1 x0 x1).1)

theorem accCover_middle (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : ¬condLast i)
    (x0 : Vec F S1024x2048 .bf16) (x1 : Vec F S16384x64 .f32) (xs : Vec F S2048x64 .f32) (y : S2048x64.Idx) :
    ∃ pc ∈ (runMiddle c i arg2 harg2 arg3 harg3 arg4 harg4 arg5 harg5 hc0 hc1 x0 x1 xs).1, y ∈ pc.1.set :=
  View.cover_of_tiledL (runMiddle c i arg2 harg2 arg3 harg3 arg4 harg4 arg5 harg5 hc0 hc1 x0 x1 xs).1 S2048x64.size (by sl_kernel_rfl) y
/-- What a middle step leaves in the accumulator, over what the step before left (`xs`). -/
def accMiddle (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : ¬condLast i)
    (x0 : Vec F S1024x2048 .bf16) (x1 : Vec F S16384x64 .f32) (xs : Vec F S2048x64 .f32) : Vec F S2048x64 .f32 :=
  accV.read (Elt F) (accV.writes (Elt F) accV.junk (runMiddle c i arg2 harg2 arg3 harg3 arg4 harg4 arg5 harg5 hc0 hc1 x0 x1 xs).1)

theorem accCover_last (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) (y : S2048x64.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S2048x64.size (by sl_kernel_rfl) y
/-- What the last step leaves in the accumulator. -/
def accLast (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) : Vec F S2048x64 .f32 :=
  accV.read (Elt F) (accV.writes (Elt F) accV.junk (runLast c i arg2 harg2 arg3 harg3 arg4 harg4 arg5 harg5 hc0 hc1 x0 x1 xs).2.1)

theorem outCover_last (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) (y : S2048x64.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S2048x64.size (by sl_kernel_rfl) y
/-- What the last step leaves in the output block. -/
def outLast (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) : Vec F S2048x64 .f32 :=
  outV.read (Elt F) (outV.writes (Elt F) outV.junk (runLast c i arg2 harg2 arg3 harg3 arg4 harg4 arg5 harg5 hc0 hc1 x0 x1 xs).1)

/-- At a step that is not a tile's last the output window is idle: a placeholder nothing consults. -/
def outIdle : Vec F S2048x64 .f32 := outV.read (Elt F) (outV.writes (Elt F) outV.junk [])

section
variable (V : (c : Dev nD) → (b : Ref sig .tc) → Buf (Elt F) ((c : Thread nD τ).loc b))

/-! ## The accumulation -/

/-- What the output window's staging buffer and the accumulator hold after the body at position `n`: the case the
    position's number selects, run at the point's buffers and blocks, over what position `n - 1` left in the accumulator. -/
def outsAt (c : Dev nD) : (n : ℕ) → n < cfg1.N → Vec F S2048x64 .f32 × Vec F S2048x64 .f32
  | 0, hn => (outIdle, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩))
  | n + 1, hn =>
    if h0 : (n + 1) % 16 = 0 then
      if h1 : (n + 1) % 16 = 15 then
        False.elim (by omega)
      else
        (outIdle, accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩))
    else
      if h1 : (n + 1) % 16 = 15 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2,
         accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2)
      else
        (outIdle, accMiddle c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (outsAt c n (Nat.lt_of_succ_lt hn)).2)

/-- At a tile's first step. -/
theorem outsAt_first (c : Dev nD) (t : Fin cfg1.N) (h0 : t.val % 16 = 0) (h1 : ¬t.val % 16 = 15) :
    outsAt V c t.val t.isLt = (outIdle, accFirst c (grid1.coords t) (ms0 t) (hs0 t) (ms1 t) (hs1 t) (ms2 t) (hs2 t) accM (Memref.isWhole_whole _) ((hcondFirst t).mpr h0) (fun h => h1 ((hcondLast t).mp h)) (iblk V c 0 t) (iblk V c 1 t)) := by
  obtain ⟨n, hn⟩ := t
  cases n with
  | zero => exact rfl
  | succ n => exact (dif_pos h0).trans ((dif_neg h1).trans rfl)

/-- At a middle step: over what the point before left. -/
theorem outsAt_middle (c : Dev nD) (t : Fin cfg1.N) (h0 : ¬t.val % 16 = 0) (h1 : ¬t.val % 16 = 15) :
    outsAt V c t.val t.isLt = (outIdle, accMiddle c (grid1.coords t) (ms0 t) (hs0 t) (ms1 t) (hs1 t) (ms2 t) (hs2 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a tile's last step: over what the point before left. -/
theorem outsAt_last (c : Dev nD) (t : Fin cfg1.N) (h0 : ¬t.val % 16 = 0) (h1 : t.val % 16 = 15) :
    outsAt V c t.val t.isLt = (outLast c (grid1.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2,
      accLast c (grid1.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point the class's invariant (every scoped buffer of the core that is no staging buffer
    of this pass at anything); afterwards the accumulator at what the point before left, the other buffers and the
    generator register at anything. -/
def PhiS (c : Dev nD) : (n : ℕ) → n ≤ cfg1.N → sProp 𝕄
  | 0, _ => Pipeline.ΦA spec1 c
  | n + 1, hn => iprop(owns (c : Thread nD τ) accM fullShare ((outsAt V c n hn).2) ∗ others (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) accM fullShare ((outsAt V c n hn).2) ∗ others (F := F) c ∗ (∃ r, prngReg c r)) := rfl

theorem PhiS_pos (c : Dev nD) (n : ℕ) (h : n ≤ cfg1.N) (hz : n ≠ 0) :
    PhiS V c n h = iprop(owns (c : Thread nD τ) accM fullShare ((outsAt V c (n - 1) (by omega)).2) ∗ others (F := F) c ∗ (∃ r, prngReg c r)) := by
  cases n with
  | zero => exact absurd rfl hz
  | succ n => rfl

/-! ## The pipeline's proof data -/

/-- The arrays as the region finds them; after the body each input's buffer at its block, the output's and the
    accumulator at `outsAt`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

end

section
variable (V : (c : Dev nD) → (b : Ref sig .tc) → Buf (Elt F) ((c : Thread nD τ).loc b))

/-! ## The body obligation, at a generic point -/

/-- What the body is called with at point `t`: the invariant, the core owing nothing, each window's current staging buffer. -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's number modulo 16 says which case it is in;
    the invariant hands the body the accumulator at what the point before left (at anything at the very first point, and
    at a tile's first step the body does not use it) and takes it back at this point's contents; the output window is
    handed back untouched away from a tile's last step and holds the copy of the accumulator at it; nothing is owed. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg1.N = 128 from N_1)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  by_cases h0 : t.val % 16 = 0
  · have h1 : ¬t.val % 16 = 15 := by omega
    rw [Dat.leavesExact_idle (dat V c) 2 t (idle_2 t (fun h => h1 ((hcondLast t).mp h))) (noFlush_2 t (fun h => h1 ((hcondLast t).mp h)))]
    rw [outsAt_first V c t h0 h1]
    unfold accFirst; (try dsimp only)
    by_cases hz : t.val = 0
    · rw [PhiS_castSucc V c t, PhiS_zero V c _ _ hz, PhiA_eq]
      iintro ⟨⟨HS, Hoth, Hg⟩, Ho, ⟨%d0, H0⟩, ⟨%d1, H1⟩, ⟨%d2, H2⟩⟩
      iapply ((runFirst c (grid1.coords t) (ms0 t) (hs0 t) (ms1 t) (hs1 t) (ms2 t) (hs2 t) accM (Memref.isWhole_whole _) ((hcondFirst t).mpr h0) (fun h => h1 ((hcondLast t).mp h)) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (accCover_first c (grid1.coords t) (ms0 t) (hs0 t) (ms1 t) (hs1 t) (ms2 t) (hs2 t) accM (Memref.isWhole_whole _) ((hcondFirst t).mpr h0) (fun h => h1 ((hcondLast t).mp h)) (iblk V c 0 t) (iblk V c 1 t))
        isplitl [Hoth]; · iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨HS, Hoth, Hg⟩, Ho, ⟨%d0, H0⟩, ⟨%d1, H1⟩, ⟨%d2, H2⟩⟩
      iapply ((runFirst c (grid1.coords t) (ms0 t) (hs0 t) (ms1 t) (hs1 t) (ms2 t) (hs2 t) accM (Memref.isWhole_whole _) ((hcondFirst t).mpr h0) (fun h => h1 ((hcondLast t).mp h)) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (accCover_first c (grid1.coords t) (ms0 t) (hs0 t) (ms1 t) (hs1 t) (ms2 t) (hs2 t) accM (Memref.isWhole_whole _) ((hcondFirst t).mpr h0) (fun h => h1 ((hcondLast t).mp h)) (iblk V c 0 t) (iblk V c 1 t))
        isplitl [Hoth]; · iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat V c).leavesExact 2 t = owns (c : Thread nD τ) (ms2 t) fullShare ((dat V c).after 2 t) from by
        unfold Dat.leavesExact; rw [live_2 t ((hcondLast t).mpr h1)], after_2]
      rw [outsAt_last V c t h0 h1]
      unfold outLast accLast; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runLast c (grid1.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS]
        · unfold owns; iexists _; isplitr
          swap; · iexact HS
          ipureintro; exact View.read_writes_of_cover _ _ _ _ _ (accCover_last c (grid1.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (outCover_last c (grid1.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2)
    · rw [Dat.leavesExact_idle (dat V c) 2 t (idle_2 t (fun h => h1 ((hcondLast t).mp h))) (noFlush_2 t (fun h => h1 ((hcondLast t).mp h)))]
      rw [outsAt_middle V c t h0 h1]
      unfold accMiddle; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runMiddle c (grid1.coords t) (ms0 t) (hs0 t) (ms1 t) (hs1 t) (ms2 t) (hs2 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (accCover_middle c (grid1.coords t) (ms0 t) (hs0 t) (ms1 t) (hs1 t) (ms2 t) (hs2 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2)
        isplitl [Hoth]; · iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem Phi_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA_eq]
  iintro ⟨HS, Hoth, Hg⟩
  isplitl [HS]; · iexists _; iexact HS
  isplitl [Hoth]; · iexact Hoth
  iexact Hg

end

end Cert.KernelIdeal.Agg1

end
-- ==== Proof.Agg2Defs.lean ====
/-
  The third aggregation pass (the second of the two that read the adjacency in its narrow format), one grid of
  8 output tiles × 16 reduction steps: at step `i` of tile `j` the body adds to a 2048 × 64 accumulator the product
  of the transposed 1024 × 2048 adjacency block `(i, j)` with rows `1024·i … 1024·i + 1023` of the features; the
  accumulator is cleared at the tile's first step and copied to the tile's output block at its last.
  This module fixes what the three cases of that body are stated over: the two conditions as facts about the
  point's number (`t % 16 = 0`, `t % 16 = 15`), where the output window is idle and where it is written back, the
  buffers the body is called with, and the region's invariant with the accumulator pulled out of the scoped rest.
-/
import proofs.«155212_j57251914056250_2_alg».proof.Proof.Gen.KernelIdeal.Launch
import proofs.«155212_j57251914056250_2_alg».proof.Proof.Gen.KernelIdeal.Skeleton
import proofs.«155212_j57251914056250_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Agg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body -/

/-- The reduction step is the tile's first: the accumulator is cleared. -/
abbrev condFirst (i : grid2.Coords) : Prop :=
  (Scalar.cmpi .ne (Scalar.extui (Scalar.cmpi .eq (BitVec.ofNat 32 (i 1).val) 0#32)) 0#32) = 1#1
/-- It is so at the points whose number is a multiple of 16. -/
theorem hcondFirst : ∀ t : Fin cfg2.N, condFirst (grid2.coords t) ↔ t.val % 16 = 0 :=
  (by decide +kernel : ∀ t : Fin grid2.N, condFirst (grid2.coords t) ↔ t.val % 16 = 0)

/-- The reduction step is the tile's last: the accumulator is copied to the output block. -/
abbrev condLast (i : grid2.Coords) : Prop := k2_cond2 i = 1#1
/-- It is so at the points whose number is 15 modulo 16. -/
theorem hcondLast : ∀ t : Fin cfg2.N, condLast (grid2.coords t) ↔ t.val % 16 = 15 :=
  (by decide +kernel : ∀ t : Fin grid2.N, condLast (grid2.coords t) ↔ t.val % 16 = 15)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
/-- Away from a tile's last step the output window is idle: nothing is stored into it … -/
theorem idle_2 : ∀ t : Fin cfg2.N, ¬condLast (grid2.coords t) → cfg2.idle 2 (grid2.coords t) = true := by decide +kernel
/-- … and it is not written back there. -/
theorem noFlush_2 : ∀ t : Fin cfg2.N, ¬condLast (grid2.coords t) → (cfg2.win 2).flush t = false := by decide +kernel
/-- At a tile's last step it is live. -/
theorem live_2 : ∀ t : Fin cfg2.N, condLast (grid2.coords t) → cfg2.idle 2 (grid2.coords t) = false := by decide +kernel

/-! ## The buffers the body is called with -/

abbrev ms0 (t : Fin cfg2.N) : Memref sig .tc .vmem S1024x2048 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S16384x64 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S2048x64 .f32 := win2_2.stage (cfg2.slots t 2)
abbrev hs2 (t : Fin cfg2.N) : (ms2 t).IsWhole := hstage2_2 ((cfg2.slots t 2).cast nbuf2_2)
/-- The accumulator: a scoped buffer of the kernel's own, carried from point to point. -/
abbrev accM : Memref sig .tc .vmem S2048x64 .f32 := Memref.whole cc2_scratch0
/-- The accumulator and one staging buffer of the output window as views: contents are stated through them. -/
abbrev accV : View sig .tc .vmem S2048x64 .f32 := accM.view
abbrev outV : View sig .tc .vmem S2048x64 .f32 := (Memref.whole cc2_stg2_0 : Memref sig .tc .vmem S2048x64 .f32).view

/-- The scoped buffers of the core other than this pass's staging buffers and its accumulator (the other passes'
    staging buffers and accumulators), each whole at some contents: they ride through this pass untouched. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The class's invariant (every scoped buffer that is no staging buffer of this pass at some contents, and the generator
    register at some state) gives the accumulator at some contents beside the other buffers … -/
theorem PhiA_split (c : Dev nD) : (Pipeline.ΦA spec2 c : sProp 𝕄) ⊢ iprop((∃ d, owns (c : Thread nD τ) accM fullShare d) ∗ others (F := F) c ∗ (∃ r, prngReg c r)) := by
  unfold Pipeline.ΦA others; rw [scopedRest2_eq]; simp only [accM, owns_whole]
  iintro ⟨⟨H1, H2, H3, H4, H5, H6, H7, H8, H9, H10, H11, H12, H13, H14, H15⟩, Hp⟩
  isplitl [H15]; · iexact H15
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- … and is given back by them: separating conjunction is commutative and associative. -/
theorem PhiA_join (c : Dev nD) : iprop((∃ d, owns (c : Thread nD τ) accM fullShare d) ∗ others (F := F) c ∗ (∃ r, prngReg c r)) ⊢ (Pipeline.ΦA spec2 c : sProp 𝕄) := by
  unfold Pipeline.ΦA others; rw [scopedRest2_eq]; simp only [accM, owns_whole]
  iintro ⟨H15, ⟨H1, H2, H3, H4, H5, H6, H7, H8, H9, H10, H11, H12, H13, H14⟩, Hp⟩
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The two are one assertion. -/
theorem PhiA_eq (c : Dev nD) : (Pipeline.ΦA spec2 c : sProp 𝕄) = iprop((∃ d, owns (c : Thread nD τ) accM fullShare d) ∗ others (F := F) c ∗ (∃ r, prngReg c r)) :=
  Idealize.SL.BI.Entails.antisymm (PhiA_split c) (PhiA_join c)

end Cert.KernelIdeal.Agg2

end
-- ==== Proof.Agg2Runs.lean ====
/-
  The body of the third aggregation pass run symbolically, once per case of its two conditions:
  first step of a tile (the accumulator, at anything, is cleared and then takes the step's product), a middle step (the
  accumulator takes the step's product on top of what the step before left), last step (the same, and the accumulator is
  copied into the output block). Each run is a subtype: the list of pieces the stores leave in each buffer, found by the
  run itself, with the proof that the body runs from the buffers at their contents to the continuation holding them so.
-/
import proofs.«155212_j57251914056250_2_alg».proof.Proof.Agg2Defs

set_option maxRecDepth 16384

noncomputable section

namespace Cert.KernelIdeal.Agg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First step of a tile: adjacency block `x0`, features `x1`, the idle output block `xi2` handed back untouched, the
    accumulator at anything on entry. -/
noncomputable def runFirst (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole)
    (hc0 : condFirst i) (hc1 : ¬condLast i)
    (x0 : Vec F S1024x2048 .bf16) (x1 : Vec F S16384x64 .f32) :
    { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc2__agg_kernel_bf16 i arg2 harg2 arg3 harg3 arg4 harg4 arg5 harg5) K } := by
  refine ⟨?_, fun xi2 E K => ?run⟩
  case run =>
    simp only [cc2__agg_kernel_bf16_eq_skeleton]; unfold cc2__agg_kernel_bf16_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A middle step: as above, the accumulator at what the step before left, `xs`. -/
noncomputable def runMiddle (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole)
    (hc0 : ¬condFirst i) (hc1 : ¬condLast i)
    (x0 : Vec F S1024x2048 .bf16) (x1 : Vec F S16384x64 .f32) (xs : Vec F S2048x64 .f32) :
    { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc2__agg_kernel_bf16 i arg2 harg2 arg3 harg3 arg4 harg4 arg5 harg5) K } := by
  refine ⟨?_, fun xi2 E K => ?run⟩
  case run =>
    simp only [cc2__agg_kernel_bf16_eq_skeleton]; unfold cc2__agg_kernel_bf16_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Last step of a tile: the output block, at anything on entry, ends with the pieces `L2` written. -/
noncomputable def runLast (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole)
    (hc0 : ¬condFirst i) (hc1 : condLast i)
    (x0 : Vec F S1024x2048 .bf16) (x1 : Vec F S16384x64 .f32) (xs : Vec F S2048x64 .f32) :
    Σ' (L2 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc2__agg_kernel_bf16 i arg2 harg2 arg3 harg3 arg4 harg4 arg5 harg5) K } := by
  refine ⟨?_, ?_, fun E K => ?run⟩
  case run =>
    simp only [cc2__agg_kernel_bf16_eq_skeleton]; unfold cc2__agg_kernel_bf16_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Agg2

end
-- ==== Proof.Agg2Frame.lean ====
/-
  The third aggregation pass point by point. After the body at point `t` (tile `t / 16`, reduction step `t % 16`) the
  accumulator holds: at a tile's first step, zero plus the step's product; at a later step, what the step before left
  plus the step's product. The tile's output block is stored at the last step only, as a copy of the accumulator;
  at the other steps the output window is idle and its buffer is handed back untouched. From this: the pipeline's proof
  data (what every staging buffer holds after the body at every point), the region's invariant (the accumulator at the
  contents the point before left, every other scoped buffer and the generator register at anything), and the body's
  obligation at a generic point, by cases on `t % 16`.
-/
import proofs.«155212_j57251914056250_2_alg».proof.Proof.Agg2Runs

set_option maxRecDepth 16384

noncomputable section

namespace Cert.KernelIdeal.Agg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency window's current staging buffer holds its block at every point. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The features' window (the whole array, fetched once) holds the array at every point, fetched there or not. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end

/-! ## What each case leaves -/

/-- The pieces the first step's two stores leave in the accumulator cover it. -/
theorem accCover_first (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : condFirst i) (hc1 : ¬condLast i)
    (x0 : Vec F S1024x2048 .bf16) (x1 : Vec F S16384x64 .f32) (y : S2048x64.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S2048x64.size (by sl_kernel_rfl) y
/-- What the first step leaves in the accumulator. -/
def accFirst (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : condFirst i) (hc1 : ¬condLast i)
    (x0 : Vec F S1024x2048 .bf16) (x1 : Vec F S16384x64 .f32) : Vec F S2048x64 .f32 :=
  accV.read (Elt F) (accV.writes (Elt F) accV.junk (runFirst c i arg2 harg2 arg3 harg3 arg4 harg4 arg5 harg5 hc0 hc1 x0 x1).1)

theorem accCover_middle (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : ¬condLast i)
    (x0 : Vec F S1024x2048 .bf16) (x1 : Vec F S16384x64 .f32) (xs : Vec F S2048x64 .f32) (y : S2048x64.Idx) :
    ∃ pc ∈ (runMiddle c i arg2 harg2 arg3 harg3 arg4 harg4 arg5 harg5 hc0 hc1 x0 x1 xs).1, y ∈ pc.1.set :=
  View.cover_of_tiledL (runMiddle c i arg2 harg2 arg3 harg3 arg4 harg4 arg5 harg5 hc0 hc1 x0 x1 xs).1 S2048x64.size (by sl_kernel_rfl) y
/-- What a middle step leaves in the accumulator, over what the step before left (`xs`). -/
def accMiddle (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : ¬condLast i)
    (x0 : Vec F S1024x2048 .bf16) (x1 : Vec F S16384x64 .f32) (xs : Vec F S2048x64 .f32) : Vec F S2048x64 .f32 :=
  accV.read (Elt F) (accV.writes (Elt F) accV.junk (runMiddle c i arg2 harg2 arg3 harg3 arg4 harg4 arg5 harg5 hc0 hc1 x0 x1 xs).1)

theorem accCover_last (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) (y : S2048x64.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S2048x64.size (by sl_kernel_rfl) y
/-- What the last step leaves in the accumulator. -/
def accLast (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) : Vec F S2048x64 .f32 :=
  accV.read (Elt F) (accV.writes (Elt F) accV.junk (runLast c i arg2 harg2 arg3 harg3 arg4 harg4 arg5 harg5 hc0 hc1 x0 x1 xs).2.1)

theorem outCover_last (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) (y : S2048x64.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S2048x64.size (by sl_kernel_rfl) y
/-- What the last step leaves in the output block. -/
def outLast (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) : Vec F S2048x64 .f32 :=
  outV.read (Elt F) (outV.writes (Elt F) outV.junk (runLast c i arg2 harg2 arg3 harg3 arg4 harg4 arg5 harg5 hc0 hc1 x0 x1 xs).1)

/-- At a step that is not a tile's last the output window is idle: a placeholder nothing consults. -/
def outIdle : Vec F S2048x64 .f32 := outV.read (Elt F) (outV.writes (Elt F) outV.junk [])

section
variable (V : (c : Dev nD) → (b : Ref sig .tc) → Buf (Elt F) ((c : Thread nD τ).loc b))

/-! ## The accumulation -/

/-- What the output window's staging buffer and the accumulator hold after the body at position `n`: the case the
    position's number selects, run at the point's buffers and blocks, over what position `n - 1` left in the accumulator. -/
def outsAt (c : Dev nD) : (n : ℕ) → n < cfg2.N → Vec F S2048x64 .f32 × Vec F S2048x64 .f32
  | 0, hn => (outIdle, accFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩))
  | n + 1, hn =>
    if h0 : (n + 1) % 16 = 0 then
      if h1 : (n + 1) % 16 = 15 then
        False.elim (by omega)
      else
        (outIdle, accFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩))
    else
      if h1 : (n + 1) % 16 = 15 then
        (outLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2,
         accLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2)
      else
        (outIdle, accMiddle c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (outsAt c n (Nat.lt_of_succ_lt hn)).2)

/-- At a tile's first step. -/
theorem outsAt_first (c : Dev nD) (t : Fin cfg2.N) (h0 : t.val % 16 = 0) (h1 : ¬t.val % 16 = 15) :
    outsAt V c t.val t.isLt = (outIdle, accFirst c (grid2.coords t) (ms0 t) (hs0 t) (ms1 t) (hs1 t) (ms2 t) (hs2 t) accM (Memref.isWhole_whole _) ((hcondFirst t).mpr h0) (fun h => h1 ((hcondLast t).mp h)) (iblk V c 0 t) (iblk V c 1 t)) := by
  obtain ⟨n, hn⟩ := t
  cases n with
  | zero => exact rfl
  | succ n => exact (dif_pos h0).trans ((dif_neg h1).trans rfl)

/-- At a middle step: over what the point before left. -/
theorem outsAt_middle (c : Dev nD) (t : Fin cfg2.N) (h0 : ¬t.val % 16 = 0) (h1 : ¬t.val % 16 = 15) :
    outsAt V c t.val t.isLt = (outIdle, accMiddle c (grid2.coords t) (ms0 t) (hs0 t) (ms1 t) (hs1 t) (ms2 t) (hs2 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a tile's last step: over what the point before left. -/
theorem outsAt_last (c : Dev nD) (t : Fin cfg2.N) (h0 : ¬t.val % 16 = 0) (h1 : t.val % 16 = 15) :
    outsAt V c t.val t.isLt = (outLast c (grid2.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2,
      accLast c (grid2.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point the class's invariant (every scoped buffer of the core that is no staging buffer
    of this pass at anything); afterwards the accumulator at what the point before left, the other buffers and the
    generator register at anything. -/
def PhiS (c : Dev nD) : (n : ℕ) → n ≤ cfg2.N → sProp 𝕄
  | 0, _ => Pipeline.ΦA spec2 c
  | n + 1, hn => iprop(owns (c : Thread nD τ) accM fullShare ((outsAt V c n hn).2) ∗ others (F := F) c ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(owns (c : Thread nD τ) accM fullShare ((outsAt V c n hn).2) ∗ others (F := F) c ∗ (∃ r, prngReg c r)) := rfl

theorem PhiS_pos (c : Dev nD) (n : ℕ) (h : n ≤ cfg2.N) (hz : n ≠ 0) :
    PhiS V c n h = iprop(owns (c : Thread nD τ) accM fullShare ((outsAt V c (n - 1) (by omega)).2) ∗ others (F := F) c ∗ (∃ r, prngReg c r)) := by
  cases n with
  | zero => exact absurd rfl hz
  | succ n => rfl

/-! ## The pipeline's proof data -/

/-- The arrays as the region finds them; after the body each input's buffer at its block, the output's and the
    accumulator at `outsAt`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

end

section
variable (V : (c : Dev nD) → (b : Ref sig .tc) → Buf (Elt F) ((c : Thread nD τ).loc b))

/-! ## The body obligation, at a generic point -/

/-- What the body is called with at point `t`: the invariant, the core owing nothing, each window's current staging buffer. -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's number modulo 16 says which case it is in;
    the invariant hands the body the accumulator at what the point before left (at anything at the very first point, and
    at a tile's first step the body does not use it) and takes it back at this point's contents; the output window is
    handed back untouched away from a tile's last step and holds the copy of the accumulator at it; nothing is owed. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg2.N = 128 from N_2)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  by_cases h0 : t.val % 16 = 0
  · have h1 : ¬t.val % 16 = 15 := by omega
    rw [Dat.leavesExact_idle (dat V c) 2 t (idle_2 t (fun h => h1 ((hcondLast t).mp h))) (noFlush_2 t (fun h => h1 ((hcondLast t).mp h)))]
    rw [outsAt_first V c t h0 h1]
    unfold accFirst; (try dsimp only)
    by_cases hz : t.val = 0
    · rw [PhiS_castSucc V c t, PhiS_zero V c _ _ hz, PhiA_eq]
      iintro ⟨⟨HS, Hoth, Hg⟩, Ho, ⟨%d0, H0⟩, ⟨%d1, H1⟩, ⟨%d2, H2⟩⟩
      iapply ((runFirst c (grid2.coords t) (ms0 t) (hs0 t) (ms1 t) (hs1 t) (ms2 t) (hs2 t) accM (Memref.isWhole_whole _) ((hcondFirst t).mpr h0) (fun h => h1 ((hcondLast t).mp h)) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (accCover_first c (grid2.coords t) (ms0 t) (hs0 t) (ms1 t) (hs1 t) (ms2 t) (hs2 t) accM (Memref.isWhole_whole _) ((hcondFirst t).mpr h0) (fun h => h1 ((hcondLast t).mp h)) (iblk V c 0 t) (iblk V c 1 t))
        isplitl [Hoth]; · iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨HS, Hoth, Hg⟩, Ho, ⟨%d0, H0⟩, ⟨%d1, H1⟩, ⟨%d2, H2⟩⟩
      iapply ((runFirst c (grid2.coords t) (ms0 t) (hs0 t) (ms1 t) (hs1 t) (ms2 t) (hs2 t) accM (Memref.isWhole_whole _) ((hcondFirst t).mpr h0) (fun h => h1 ((hcondLast t).mp h)) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (accCover_first c (grid2.coords t) (ms0 t) (hs0 t) (ms1 t) (hs1 t) (ms2 t) (hs2 t) accM (Memref.isWhole_whole _) ((hcondFirst t).mpr h0) (fun h => h1 ((hcondLast t).mp h)) (iblk V c 0 t) (iblk V c 1 t))
        isplitl [Hoth]; · iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat V c).leavesExact 2 t = owns (c : Thread nD τ) (ms2 t) fullShare ((dat V c).after 2 t) from by
        unfold Dat.leavesExact; rw [live_2 t ((hcondLast t).mpr h1)], after_2]
      rw [outsAt_last V c t h0 h1]
      unfold outLast accLast; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runLast c (grid2.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS]
        · unfold owns; iexists _; isplitr
          swap; · iexact HS
          ipureintro; exact View.read_writes_of_cover _ _ _ _ _ (accCover_last c (grid2.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (outCover_last c (grid2.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2)
    · rw [Dat.leavesExact_idle (dat V c) 2 t (idle_2 t (fun h => h1 ((hcondLast t).mp h))) (noFlush_2 t (fun h => h1 ((hcondLast t).mp h)))]
      rw [outsAt_middle V c t h0 h1]
      unfold accMiddle; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runMiddle c (grid2.coords t) (ms0 t) (hs0 t) (ms1 t) (hs1 t) (ms2 t) (hs2 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (accCover_middle c (grid2.coords t) (ms0 t) (hs0 t) (ms1 t) (hs1 t) (ms2 t) (hs2 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2)
        isplitl [Hoth]; · iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem Phi_in (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem Phi_out (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 128 := N_2; omega), PhiA_eq]
  iintro ⟨HS, Hoth, Hg⟩
  isplitl [HS]; · iexists _; iexact HS
  isplitl [Hoth]; · iexact Hoth
  iexact Hg

end

end Cert.KernelIdeal.Agg2

end
-- ==== Proof.AggRun.lean ====
/-
  The whole program's run. @main is thirteen segments: a stretch of host operations, the first aggregation pass, two
  stretches, the second pass, two stretches, the third pass, five stretches. Between two segments every unscoped buffer of
  the core holds a named contents: the launch memory, then the host operations' results folded in one stretch at a time,
  then — after a pass — that pass's arrays at what its pipeline leaves (an input as entered, an output with its
  write-backs folded) and every other buffer as entered. Each pass is a segment record over its proof data; the run is the
  library's launch over the list, and its post says every unscoped buffer ends at the last of these contents.
-/
import proofs.«155212_j57251914056250_2_alg».proof.Proof.Agg0Frame
import proofs.«155212_j57251914056250_2_alg».proof.Proof.Agg1Frame
import proofs.«155212_j57251914056250_2_alg».proof.Proof.Agg2Frame
import proofs.«155212_j57251914056250_2_alg».proof.Proof.Gen.KernelIdeal.Regions

set_option maxRecDepth 16384

noncomputable section

namespace Cert.KernelIdeal.AggRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch of host operations (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At pass 0's exit: its arrays at what the pipeline leaves (the inputs as entered, each output's write-backs folded),
    every other buffer as entered. -/
def W2 (c : Dev nD) : Valuation τ sig (Elt F) :=
  Pipeline.withArrays spec0 c (W1 m ρ c) fun w => (Agg0.dat (V1 m ρ) c).arrAt w cfg0.N
theorem W2_arr (c : Dev nD) (w : Fin cfg0.W) :
    W2 m ρ c (Proc.devRef .tc (Pipeline.arrRef spec0 w)) = (Agg0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Agg0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
/-- The second pass's entry. -/
abbrev W4 : Dev nD → Valuation τ sig (Elt F) := fun c => StableHlo.after hostOps1_1 (W3 m ρ c)
abbrev V4 : (c : Dev nD) → (b : Ref sig .tc) → Buf (Elt F) ((c : Thread nD τ).loc b) := fun c b => W4 m ρ c b

/-- At pass 1's exit: its arrays at what the pipeline leaves (the inputs as entered, each output's write-backs folded),
    every other buffer as entered. -/
def W5 (c : Dev nD) : Valuation τ sig (Elt F) :=
  Pipeline.withArrays spec1 c (W4 m ρ c) fun w => (Agg1.dat (V4 m ρ) c).arrAt w cfg1.N
theorem W5_arr (c : Dev nD) (w : Fin cfg1.W) :
    W5 m ρ c (Proc.devRef .tc (Pipeline.arrRef spec1 w)) = (Agg1.dat (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (Agg1.dat (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after hostOps2 (W5 m ρ c)
/-- The third pass's entry. -/
abbrev W7 : Dev nD → Valuation τ sig (Elt F) := fun c => StableHlo.after hostOps2_1 (W6 m ρ c)
abbrev V7 : (c : Dev nD) → (b : Ref sig .tc) → Buf (Elt F) ((c : Thread nD τ).loc b) := fun c b => W7 m ρ c b

/-- At pass 2's exit: its arrays at what the pipeline leaves (the inputs as entered, each output's write-backs folded),
    every other buffer as entered. -/
def W8 (c : Dev nD) : Valuation τ sig (Elt F) :=
  Pipeline.withArrays spec2 c (W7 m ρ c) fun w => (Agg2.dat (V7 m ρ) c).arrAt w cfg2.N
theorem W8_arr (c : Dev nD) (w : Fin cfg2.W) :
    W8 m ρ c (Proc.devRef .tc (Pipeline.arrRef spec2 w)) = (Agg2.dat (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (Agg2.dat (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps3 (W8 m ρ c)
abbrev W10 : Dev nD → Valuation τ sig (Elt F) := fun c => StableHlo.after hostOps3_1 (W9 m ρ c)
abbrev W11 : Dev nD → Valuation τ sig (Elt F) := fun c => StableHlo.after hostOps3_2 (W10 m ρ c)
abbrev W12 : Dev nD → Valuation τ sig (Elt F) := fun c => StableHlo.after hostOps3_3 (W11 m ρ c)
/-- At the return. -/
abbrev W13 : Dev nD → Valuation τ sig (Elt F) := fun c => StableHlo.after hostOps3_4 (W12 m ρ c)

/-! ## The proof data family and the thread state -/

/-- Every pass's proof data, each at its region's entry contents. -/
def pdats : (p : Fin 3) → (c : Dev nD) → Dat τ (Elt F) Unit ℕ (UR sig nD τ) ℕ (Pipeline.pin (pcfgs (F := F)) adm p) c
  | ⟨0, _⟩ => fun c => Agg0.dat (V1 m ρ) c
  | ⟨1, _⟩ => fun c => Agg1.dat (V4 m ρ) c
  | ⟨2, _⟩ => fun c => Agg2.dat (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W13 m ρ c) ∗ ∃ r, prngReg c r)

/-! ## The passes as segments -/

set_option backward.isDefEq.respectTransparency.types false in
/-- Pass 0 over the thread state: entered from every unscoped buffer at `W1`, left at `W2`. Its arrays are split out
    of the unscoped buffers and put back at the exit contents; the generator register and the scoped rest go into the
    pass's invariant and come back out of it after the last point; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Agg0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Agg0.Phi_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 over the thread state: entered from every unscoped buffer at `W4`, left at `W5`. Its arrays are split out
    of the unscoped buffers and put back at the exit contents; the generator register and the scoped rest go into the
    pass's invariant and come back out of it after the last point; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Agg1.body_obligation (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Agg1.Phi_out (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 over the thread state: entered from every unscoped buffer at `W7`, left at `W8`. Its arrays are split out
    of the unscoped buffers and put back at the exit contents; the generator register and the scoped rest go into the
    pass's invariant and come back out of it after the last point; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Agg2.body_obligation (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Agg2.Phi_out (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ),
    .host (hseg hostOps2 hostOps2_sub hostOps2_fresh (W5 m ρ)),
    .host (hseg hostOps2_1 hostOps2_1_sub hostOps2_1_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)),
    .host (hseg hostOps3_3 hostOps3_3_sub hostOps3_3_fresh (W11 m ρ)),
    .host (hseg hostOps3_4 hostOps3_4_sub hostOps3_4_fresh (W12 m ρ)) ]
/-- @main is the run of the segments. -/
theorem main_run (c : Dev nD) : main (F := F) c = Pipeline.Seg.run (segs m ρ) := (main_chain c).trans (by chain_rfl)

set_option backward.isDefEq.respectTransparency.types false in
/-- THE RUN, at any `F`: from any memory with zero counters every weakly fair execution of @main on the TensorCores
    terminates, nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => (show iprop(StableHlo.held (c : Thread nD τ) (Pipeline.ucRefs τ sig) (W13 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.KernelIdeal.AggRun

end
-- ==== Proof.AggKept.lean ====
/-
  What the program leaves untouched. Its seven arguments are read and never written: no stretch of host arithmetic
  has an argument as a result, and an aggregation pass writes only its own result arrays (the adjacency argument
  enters the first pass as an input, and an input array comes out as it went in). So at the return every argument
  holds what it held at launch, and the run of the whole program ends with the arguments unchanged. The same
  reasoning carries any buffer across the stretches and passes that do not write it, which is how a value computed
  early (the reciprocal degrees, the adjacency copy) is still there when a later step reads it.
-/
import proofs.«155212_j57251914056250_2_alg».proof.Proof.AggRun

noncomputable section

namespace Cert.KernelIdeal.AggRun

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-! ## A buffer no stretch writes keeps its contents across the stretch -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h
theorem W6_of (c : Dev nD) (r : Ref sig .tc) (h : r ∉ hostOps2_W) :
    W6 m ρ c (Proc.devRef .tc r) = W5 m ρ c (Proc.devRef .tc r) :=
  StableHlo.after_of_writes_sub hostOps2 _ hostOps2_writes h
theorem W7_of (c : Dev nD) (r : Ref sig .tc) (h : r ∉ hostOps2_1_W) :
    W7 m ρ c (Proc.devRef .tc r) = W6 m ρ c (Proc.devRef .tc r) :=
  StableHlo.after_of_writes_sub hostOps2_1 _ hostOps2_1_writes h
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h
theorem W10_of (c : Dev nD) (r : Ref sig .tc) (h : r ∉ hostOps3_1_W) :
    W10 m ρ c (Proc.devRef .tc r) = W9 m ρ c (Proc.devRef .tc r) :=
  StableHlo.after_of_writes_sub hostOps3_1 _ hostOps3_1_writes h
theorem W11_of (c : Dev nD) (r : Ref sig .tc) (h : r ∉ hostOps3_2_W) :
    W11 m ρ c (Proc.devRef .tc r) = W10 m ρ c (Proc.devRef .tc r) :=
  StableHlo.after_of_writes_sub hostOps3_2 _ hostOps3_2_writes h
theorem W12_of (c : Dev nD) (r : Ref sig .tc) (h : r ∉ hostOps3_3_W) :
    W12 m ρ c (Proc.devRef .tc r) = W11 m ρ c (Proc.devRef .tc r) :=
  StableHlo.after_of_writes_sub hostOps3_3 _ hostOps3_3_writes h
theorem W13_of (c : Dev nD) (r : Ref sig .tc) (h : r ∉ hostOps3_4_W) :
    W13 m ρ c (Proc.devRef .tc r) = W12 m ρ c (Proc.devRef .tc r) :=
  StableHlo.after_of_writes_sub hostOps3_4 _ hostOps3_4_writes h

/-! ## An input array of a pass comes out as it went in -/

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((Agg0.dat (V1 m ρ) c).arrAt_in w hin _).trans (Agg0.A_eq (V1 m ρ) c w))
theorem W5_in (c : Dev nD) (w : Fin cfg1.W) (hin : (cfg1.win w).isOut = false) :
    W5 m ρ c (Proc.devRef .tc (Pipeline.arrRef spec1 w)) = W4 m ρ c (Proc.devRef .tc (Pipeline.arrRef spec1 w)) :=
  (W5_arr m ρ c w).trans (((Agg1.dat (V4 m ρ) c).arrAt_in w hin _).trans (Agg1.A_eq (V4 m ρ) c w))
theorem W8_in (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((Agg2.dat (V7 m ρ) c).arrAt_in w hin _).trans (Agg2.A_eq (V7 m ρ) c w))

/-! ## The arguments at the return -/

/-- A buffer that no stretch writes and every pass leaves as it found it holds at the return what it held at launch. -/
theorem kept_of (c : Dev nD) (r : Ref sig .tc)
    (h0 : r ∉ hostOps0_W) (h1 : r ∉ hostOps1_W) (h1_1 : r ∉ hostOps1_1_W) (h2 : r ∉ hostOps2_W) (h2_1 : r ∉ hostOps2_1_W)
    (h3 : r ∉ hostOps3_W) (h3_1 : r ∉ hostOps3_1_W) (h3_2 : r ∉ hostOps3_2_W) (h3_3 : r ∉ hostOps3_3_W) (h3_4 : r ∉ hostOps3_4_W)
    (e2 : W2 m ρ c (Proc.devRef .tc r) = W1 m ρ c (Proc.devRef .tc r))
    (e5 : W5 m ρ c (Proc.devRef .tc r) = W4 m ρ c (Proc.devRef .tc r))
    (e8 : W8 m ρ c (Proc.devRef .tc r) = W7 m ρ c (Proc.devRef .tc r)) :
    W13 m ρ c (Proc.devRef .tc r) = m ((c : Thread nD τ).loc r) :=
  (W13_of m ρ c r h3_4).trans <| (W12_of m ρ c r h3_3).trans <| (W11_of m ρ c r h3_2).trans <| (W10_of m ρ c r h3_1).trans <|
    (W9_of m ρ c r h3).trans <| e8.trans <| (W7_of m ρ c r h2_1).trans <| (W6_of m ρ c r h2).trans <| e5.trans <|
    (W4_of m ρ c r h1_1).trans <| (W3_of m ρ c r h1).trans <| e2.trans <| (W1_of m ρ c r h0).trans rfl

theorem kept_arg0 (c : Dev nD) : W13 m ρ c (Proc.devRef .tc main_arg0) = m ((c : Thread nD τ).loc main_arg0) :=
  kept_of m ρ c main_arg0 (by decide) (by decide) (by decide) (by decide) (by decide) (by decide) (by decide) (by decide) (by decide) (by decide)
    (W2_of_ne m ρ c main_arg0 (by decide)) (W5_of_ne m ρ c main_arg0 (by decide)) (W8_of_ne m ρ c main_arg0 (by decide))
/-- The adjacency argument is the first pass's first input. -/
theorem kept_arg1 (c : Dev nD) : W13 m ρ c (Proc.devRef .tc main_arg1) = m ((c : Thread nD τ).loc main_arg1) :=
  kept_of m ρ c main_arg1 (by decide) (by decide) (by decide) (by decide) (by decide) (by decide) (by decide) (by decide) (by decide) (by decide)
    (W2_in m ρ c 0 rfl) (W5_of_ne m ρ c main_arg1 (by decide)) (W8_of_ne m ρ c main_arg1 (by decide))
theorem kept_arg2 (c : Dev nD) : W13 m ρ c (Proc.devRef .tc main_arg2) = m ((c : Thread nD τ).loc main_arg2) :=
  kept_of m ρ c main_arg2 (by decide) (by decide) (by decide) (by decide) (by decide) (by decide) (by decide) (by decide) (by decide) (by decide)
    (W2_of_ne m ρ c main_arg2 (by decide)) (W5_of_ne m ρ c main_arg2 (by decide)) (W8_of_ne m ρ c main_arg2 (by decide))
theorem kept_arg3 (c : Dev nD) : W13 m ρ c (Proc.devRef .tc main_arg3) = m ((c : Thread nD τ).loc main_arg3) :=
  kept_of m ρ c main_arg3 (by decide) (by decide) (by decide) (by decide) (by decide) (by decide) (by decide) (by decide) (by decide) (by decide)
    (W2_of_ne m ρ c main_arg3 (by decide)) (W5_of_ne m ρ c main_arg3 (by decide)) (W8_of_ne m ρ c main_arg3 (by decide))
theorem kept_arg4 (c : Dev nD) : W13 m ρ c (Proc.devRef .tc main_arg4) = m ((c : Thread nD τ).loc main_arg4) :=
  kept_of m ρ c main_arg4 (by decide) (by decide) (by decide) (by decide) (by decide) (by decide) (by decide) (by decide) (by decide) (by decide)
    (W2_of_ne m ρ c main_arg4 (by decide)) (W5_of_ne m ρ c main_arg4 (by decide)) (W8_of_ne m ρ c main_arg4 (by decide))
theorem kept_arg5 (c : Dev nD) : W13 m ρ c (Proc.devRef .tc main_arg5) = m ((c : Thread nD τ).loc main_arg5) :=
  kept_of m ρ c main_arg5 (by decide) (by decide) (by decide) (by decide) (by decide) (by decide) (by decide) (by decide) (by decide) (by decide)
    (W2_of_ne m ρ c main_arg5 (by decide)) (W5_of_ne m ρ c main_arg5 (by decide)) (W8_of_ne m ρ c main_arg5 (by decide))
theorem kept_arg6 (c : Dev nD) : W13 m ρ c (Proc.devRef .tc main_arg6) = m ((c : Thread nD τ).loc main_arg6) :=
  kept_of m ρ c main_arg6 (by decide) (by decide) (by decide) (by decide) (by decide) (by decide) (by decide) (by decide) (by decide) (by decide)
    (W2_of_ne m ρ c main_arg6 (by decide)) (W5_of_ne m ρ c main_arg6 (by decide)) (W8_of_ne m ρ c main_arg6 (by decide))

/-! ## The run leaves the arguments unchanged -/

/-- From any memory with zero counters every weakly fair execution of the program terminates, nothing faulting, with
    each of the seven arguments holding what it held at launch. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (kept_arg0 m ρ c),
     (h c _ (mem_uc main_arg1 (by decide))).trans (kept_arg1 m ρ c),
     (h c _ (mem_uc main_arg2 (by decide))).trans (kept_arg2 m ρ c),
     (h c _ (mem_uc main_arg3 (by decide))).trans (kept_arg3 m ρ c),
     (h c _ (mem_uc main_arg4 (by decide))).trans (kept_arg4 m ρ c),
     (h c _ (mem_uc main_arg5 (by decide))).trans (kept_arg5 m ρ c),
     (h c _ (mem_uc main_arg6 (by decide))).trans (kept_arg6 m ρ c)⟩) (run_all m ρ)

end Cert.KernelIdeal.AggRun

end
-- ==== Proof.HostRead.lean ====
/-
  The host-side arithmetic of the three-layer dense graph convolution, read as pure terms. Between the three
  aggregation launches the program does ordinary array arithmetic: it forms the embedded input `x·W + b`, widens it
  with a column of ones and sixty-three columns of zeros (so that one aggregation `adjᵀ·[h | 1 | 0…0]` yields both
  the aggregated features, columns 0–63, and the column sums of the adjacency, column 64), takes the reciprocal
  `1 / deg` of column 64, and after each aggregation multiplies by that reciprocal, applies the layer's transposed
  weight slice and clamps below at zero; the tail averages the last layer's rows and applies the two readout
  products. Each stretch of this arithmetic, run from ANY contents of the buffers, leaves in its result buffer
  exactly the composed operations applied to the contents of the buffers it starts from: that is what the
  `read_*` statements below say, with each composed term given a name.
-/
import proofs.«155212_j57251914056250_2_alg».proof.Proof.Gen.KernelIdeal.Launch
import Idealize.ShloMosaic.Lib.StableHlo.Run

noncomputable section

namespace Cert.KernelIdeal.HostRead

open Cert.KernelIdeal Cert.KernelIdeal.Gen Idealize.ShloMosaic Idealize.ShloMosaic.TcCoe Idealize.ShloMosaic.StableHlo

variable {F : FTy → Type} [FloatOps F]

/-- An operation of three operands writes its function's value of the three operands' contents, each read at its
    own buffer. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- Reads each remaining operation's result where it is written and passes over the operations that write
    elsewhere, until the term is over the starting contents only. -/
local macro "read_results" : tactic =>
  `(tactic| repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide)
      | (rw [nary_result_ne]; rotate_left; decide)))

/-- The widened embedded input: `x·W + b` in columns 0–63 (the input `x` with its leading unit axis dropped, times
    the weight `W`, plus the bias `b` repeated down the rows), the constant one in column 64, zero in columns 65–127. -/
def augIn (x : (⟨S1x16384x64, .f32⟩ : BufTy).Contents (Elt F)) (w : (⟨S64x64, .f32⟩ : BufTy).Contents (Elt F))
    (b : (⟨S64, .f32⟩ : BufTy).Contents (Elt F)) : (⟨S16384x128, .f32⟩ : BufTy).Contents (Elt F) :=
  concatenate S16384x128 1
    [⟨S16384x64, addf (Host.dotGeneral dot_S16384x64_S64x64_S16384x64_1_0_0_1_n_n none (shapeCast _ x shapeCasts_S1x16384x64_S16384x64) w)
        (broadcastInDim S16384x64 ![0, 1] bcast_S1x64_S16384x64_0_1 (broadcastInDim S1x64 ![1] bcast_S64_S1x64_1 b))⟩,
     ⟨S16384x1, broadcastInDim S16384x1 ![] bcast_S_S16384x1 (constant S_ .f32 0x3F800000#32)⟩,
     ⟨S16384x63, broadcastInDim S16384x63 ![] bcast_S_S16384x63 (constant S_ .f32 0x00000000#32)⟩]
    concatenates_S16384x64_S16384x1_S16384x63_S16384x128_d1

theorem read_v7 (W : Valuation τ sig (Elt F)) :
    StableHlo.after hostOps0 W (Proc.devRef .tc main_v7)
      = augIn (W (Proc.devRef .tc main_arg0)) (W (Proc.devRef .tc main_arg2)) (W (Proc.devRef .tc main_arg3)) := by
  show StableHlo.after hostOps0 _ (Proc.devRef .tc main_v7) = _
  simp only [after_cons, after_nil]
  rw [nary3_result]
  read_results
  rfl

/-- The reciprocal of the degrees: column 64 of the first aggregate (the adjacency's column sums) as a vector, the
    constant one divided by it entry by entry, set back as a column. -/
def invDeg (a : (⟨S16384x128, .f32⟩ : BufTy).Contents (Elt F)) : (⟨S16384x1, .f32⟩ : BufTy).Contents (Elt F) :=
  broadcastInDim S16384x1 ![0] bcast_S16384_S16384x1_0
    (Host.divf (broadcastInDim S16384 ![] bcast_S_S16384 (constant S_ .f32 0x3F800000#32))
      (shapeCast _ (extractStridedSlice S16384x1 ![0, 64] a slices_S16384x128_S16384x1_0_64) shapeCasts_S16384x1_S16384))

theorem read_v14 (W : Valuation τ sig (Elt F)) :
    StableHlo.after hostOps1_1 (StableHlo.after hostOps1 W) (Proc.devRef .tc main_v14)
      = invDeg (W (Proc.devRef .tc main_v8_0)) := by
  show StableHlo.after hostOps1_1 (StableHlo.after hostOps1 _) (Proc.devRef .tc main_v14) = _
  after_results
  rfl

/-- The first layer: columns 0–63 of the first aggregate, each row multiplied by its reciprocal degree, times the
    transpose of the first 64 × 64 slice of the layer weights, clamped below at zero. -/
def layer0 (a : (⟨S16384x128, .f32⟩ : BufTy).Contents (Elt F)) (u : (⟨S3x64x64, .f32⟩ : BufTy).Contents (Elt F)) :
    (⟨S16384x64, .f32⟩ : BufTy).Contents (Elt F) :=
  maximumf
    (Host.dotGeneral dot_S16384x64_S64x64_S16384x64_1_0_0_1_n_n none
      (mulf (extractStridedSlice S16384x64 ![0, 0] a slices_S16384x128_S16384x64_0_0)
        (broadcastInDim S16384x64 ![0, 1] bcast_S16384x1_S16384x64_0_1 (invDeg a)))
      (transpose S64x64 [1, 0]
        (shapeCast _ (extractStridedSlice S1x64x64 ![0, 0, 0] u slices_S3x64x64_S1x64x64_0_0_0) shapeCasts_S1x64x64_S64x64)
        transposes_S64x64_S64x64_1_0))
    (broadcastInDim S16384x64 ![] bcast_S_S16384x64 (constant S_ .f32 0x00000000#32))

theorem read_v21 (W : Valuation τ sig (Elt F)) :
    StableHlo.after hostOps1_1 (StableHlo.after hostOps1 W) (Proc.devRef .tc main_v21)
      = layer0 (W (Proc.devRef .tc main_v8_0)) (W (Proc.devRef .tc main_arg4)) := by
  show StableHlo.after hostOps1_1 (StableHlo.after hostOps1 _) (Proc.devRef .tc main_v21) = _
  after_results
  rfl

/-- The second layer: the second aggregate, each row multiplied by its reciprocal degree, times the transpose of
    the second slice of the layer weights, clamped below at zero. -/
def layer1 (g : (⟨S16384x64, .f32⟩ : BufTy).Contents (Elt F)) (d : (⟨S16384x1, .f32⟩ : BufTy).Contents (Elt F))
    (u : (⟨S3x64x64, .f32⟩ : BufTy).Contents (Elt F)) : (⟨S16384x64, .f32⟩ : BufTy).Contents (Elt F) :=
  maximumf
    (Host.dotGeneral dot_S16384x64_S64x64_S16384x64_1_0_0_1_n_n none
      (mulf g (broadcastInDim S16384x64 ![0, 1] bcast_S16384x1_S16384x64_0_1 d))
      (transpose S64x64 [1, 0]
        (shapeCast _ (extractStridedSlice S1x64x64 ![1, 0, 0] u slices_S3x64x64_S1x64x64_1_0_0) shapeCasts_S1x64x64_S64x64)
        transposes_S64x64_S64x64_1_0))
    (broadcastInDim S16384x64 ![] bcast_S_S16384x64 (constant S_ .f32 0x00000000#32))

theorem read_v29 (W : Valuation τ sig (Elt F)) :
    StableHlo.after hostOps2_1 (StableHlo.after hostOps2 W) (Proc.devRef .tc main_v29)
      = layer1 (W (Proc.devRef .tc main_v22)) (W (Proc.devRef .tc main_v14)) (W (Proc.devRef .tc main_arg4)) := by
  show StableHlo.after hostOps2_1 (StableHlo.after hostOps2 _) (Proc.devRef .tc main_v29) = _
  after_results
  rfl

/-- The third layer: the third aggregate, each row multiplied by its reciprocal degree, times the transpose of the
    third slice of the layer weights, clamped below at zero. -/
def layer2 (g : (⟨S16384x64, .f32⟩ : BufTy).Contents (Elt F)) (d : (⟨S16384x1, .f32⟩ : BufTy).Contents (Elt F))
    (u : (⟨S3x64x64, .f32⟩ : BufTy).Contents (Elt F)) : (⟨S16384x64, .f32⟩ : BufTy).Contents (Elt F) :=
  maximumf
    (Host.dotGeneral dot_S16384x64_S64x64_S16384x64_1_0_0_1_n_n none
      (mulf g (broadcastInDim S16384x64 ![0, 1] bcast_S16384x1_S16384x64_0_1 d))
      (transpose S64x64 [1, 0]
        (shapeCast _ (extractStridedSlice S1x64x64 ![2, 0, 0] u slices_S3x64x64_S1x64x64_2_0_0) shapeCasts_S1x64x64_S64x64)
        transposes_S64x64_S64x64_1_0))
    (broadcastInDim S16384x64 ![] bcast_S_S16384x64 (constant S_ .f32 0x00000000#32))

theorem read_v37 (W : Valuation τ sig (Elt F)) :
    StableHlo.after hostOps3_1 (StableHlo.after hostOps3 W) (Proc.devRef .tc main_v37)
      = layer2 (W (Proc.devRef .tc main_v30)) (W (Proc.devRef .tc main_v14)) (W (Proc.devRef .tc main_arg4)) := by
  show StableHlo.after hostOps3_1 (StableHlo.after hostOps3 _) (Proc.devRef .tc main_v37) = _
  after_results
  rfl

/-- The readout: the mean of the last layer's 16384 rows (their sum from zero, divided by 16384) as a column, times
    the first readout matrix, clamped below at zero, times the second readout row; the single entry as a scalar. -/
def readout (h : (⟨S16384x64, .f32⟩ : BufTy).Contents (Elt F)) (p : (⟨S64x64, .f32⟩ : BufTy).Contents (Elt F))
    (q : (⟨S1x64, .f32⟩ : BufTy).Contents (Elt F)) : (⟨S_, .f32⟩ : BufTy).Contents (Elt F) :=
  shapeCast _
    (Host.dotGeneral dot_S1x64_S64x1_S1x1_1_0_0_1_n_n none q
      (maximumf
        (Host.dotGeneral dot_S64x64_S64x1_S64x1_1_0_0_1_n_n none p
          (broadcastInDim S64x1 ![0] bcast_S64_S64x1_0
            (Host.divf (Host.reduceAdd h (constant S_ .f32 0x00000000#32) reducesTo_S16384x64_S64_d0 h_S_)
              (broadcastInDim S64 ![] bcast_S_S64 (constant S_ .f32 0x46800000#32)))))
        (broadcastInDim S64x1 ![] bcast_S_S64x1 (constant S_ .f32 0x00000000#32))))
    shapeCasts_S1x1_S_

theorem read_v45 (W : Valuation τ sig (Elt F)) :
    StableHlo.after hostOps3_4 (StableHlo.after hostOps3_3 (StableHlo.after hostOps3_2 W)) (Proc.devRef .tc main_v45)
      = readout (W (Proc.devRef .tc main_v37)) (W (Proc.devRef .tc main_arg5)) (W (Proc.devRef .tc main_arg6)) := by
  show StableHlo.after hostOps3_4 (StableHlo.after hostOps3_3 (StableHlo.after hostOps3_2 _)) (Proc.devRef .tc main_v45) = _
  after_results
  rfl

/-- What a layer does after the rows are scaled: the product with the transpose of the layer's weight slice,
    clamped below at zero. The three layers differ only in which 64 × 64 slice of the weights they take. -/
def applyW0 (z : (⟨S16384x64, .f32⟩ : BufTy).Contents (Elt F)) (u : (⟨S3x64x64, .f32⟩ : BufTy).Contents (Elt F)) :
    (⟨S16384x64, .f32⟩ : BufTy).Contents (Elt F) :=
  maximumf
    (Host.dotGeneral dot_S16384x64_S64x64_S16384x64_1_0_0_1_n_n none z
      (transpose S64x64 [1, 0]
        (shapeCast _ (extractStridedSlice S1x64x64 ![0, 0, 0] u slices_S3x64x64_S1x64x64_0_0_0) shapeCasts_S1x64x64_S64x64)
        transposes_S64x64_S64x64_1_0))
    (broadcastInDim S16384x64 ![] bcast_S_S16384x64 (constant S_ .f32 0x00000000#32))

def applyW1 (z : (⟨S16384x64, .f32⟩ : BufTy).Contents (Elt F)) (u : (⟨S3x64x64, .f32⟩ : BufTy).Contents (Elt F)) :
    (⟨S16384x64, .f32⟩ : BufTy).Contents (Elt F) :=
  maximumf
    (Host.dotGeneral dot_S16384x64_S64x64_S16384x64_1_0_0_1_n_n none z
      (transpose S64x64 [1, 0]
        (shapeCast _ (extractStridedSlice S1x64x64 ![1, 0, 0] u slices_S3x64x64_S1x64x64_1_0_0) shapeCasts_S1x64x64_S64x64)
        transposes_S64x64_S64x64_1_0))
    (broadcastInDim S16384x64 ![] bcast_S_S16384x64 (constant S_ .f32 0x00000000#32))

def applyW2 (z : (⟨S16384x64, .f32⟩ : BufTy).Contents (Elt F)) (u : (⟨S3x64x64, .f32⟩ : BufTy).Contents (Elt F)) :
    (⟨S16384x64, .f32⟩ : BufTy).Contents (Elt F) :=
  maximumf
    (Host.dotGeneral dot_S16384x64_S64x64_S16384x64_1_0_0_1_n_n none z
      (transpose S64x64 [1, 0]
        (shapeCast _ (extractStridedSlice S1x64x64 ![2, 0, 0] u slices_S3x64x64_S1x64x64_2_0_0) shapeCasts_S1x64x64_S64x64)
        transposes_S64x64_S64x64_1_0))
    (broadcastInDim S16384x64 ![] bcast_S_S16384x64 (constant S_ .f32 0x00000000#32))

/-- Each layer is its scaled rows (the aggregate times the reciprocal degrees, row by row) put through the layer's
    weights: the form in which two ways of scaling the rows are compared. -/
theorem layer0_eq (a : (⟨S16384x128, .f32⟩ : BufTy).Contents (Elt F)) (u : (⟨S3x64x64, .f32⟩ : BufTy).Contents (Elt F)) :
    layer0 a u = applyW0 (mulf (extractStridedSlice S16384x64 ![0, 0] a slices_S16384x128_S16384x64_0_0)
      (broadcastInDim S16384x64 ![0, 1] bcast_S16384x1_S16384x64_0_1 (invDeg a))) u := rfl

theorem layer1_eq (g : (⟨S16384x64, .f32⟩ : BufTy).Contents (Elt F)) (d : (⟨S16384x1, .f32⟩ : BufTy).Contents (Elt F))
    (u : (⟨S3x64x64, .f32⟩ : BufTy).Contents (Elt F)) :
    layer1 g d u = applyW1 (mulf g (broadcastInDim S16384x64 ![0, 1] bcast_S16384x1_S16384x64_0_1 d)) u := rfl

theorem layer2_eq (g : (⟨S16384x64, .f32⟩ : BufTy).Contents (Elt F)) (d : (⟨S16384x1, .f32⟩ : BufTy).Contents (Elt F))
    (u : (⟨S3x64x64, .f32⟩ : BufTy).Contents (Elt F)) :
    layer2 g d u = applyW2 (mulf g (broadcastInDim S16384x64 ![0, 1] bcast_S16384x1_S16384x64_0_1 d)) u := rfl

end Cert.KernelIdeal.HostRead

end
-- ==== Proof.RefOut.lean ====
/-
  The reference computation of the three-layer dense graph convolution, as one pure term of its seven arguments and
  as the composition of its natural pieces. The reference embeds the input (`x·W + b`), takes the degrees as the
  column sums of the adjacency array (a reduction from zero over the rows), and three times over multiplies the
  transposed adjacency array into the features, divides each row by its degree, applies the layer's transposed weight
  slice and clamps below at zero; it ends by averaging the rows and applying the two readout products. The pieces
  below are exactly the operations of that computation in order, so their composition is the whole term by
  unfolding alone.
-/
import proofs.«155212_j57251914056250_2_alg».proof.Proof.Gen.ReferenceIdeal.Run

noncomputable section

namespace Cert.Gcn

open Cert.ReferenceIdeal Cert.ReferenceIdeal.Gen Idealize.ShloMosaic Idealize.ShloMosaic.TcCoe Idealize.SL.Sem Idealize.ShloMosaic.StableHlo

variable {F : FTy → Type} [FloatOps F]

/-- The embedded input `x·W + b`: the input with its leading unit axis dropped, times the weight, plus the bias
    repeated down the rows. -/
def refEmbed (x : (⟨S1x16384x64, .f32⟩ : BufTy).Contents (Elt F)) (w : (⟨S64x64, .f32⟩ : BufTy).Contents (Elt F)) (b : (⟨S64, .f32⟩ : BufTy).Contents (Elt F)) : (⟨S16384x64, .f32⟩ : BufTy).Contents (Elt F) :=
  addf (Host.dotGeneral dot_S16384x64_S64x64_S16384x64_1_0_0_1_n_n none (shapeCast _ x shapeCasts_S1x16384x64_S16384x64) w)
    (broadcastInDim S16384x64 ![0, 1] bcast_S1x64_S16384x64_0_1 (broadcastInDim S1x64 ![1] bcast_S64_S1x64_1 b))

/-- The degrees: the column sums of the adjacency array, summed from zero over the rows. -/
def refDeg (adj : (⟨S16384x16384, .f32⟩ : BufTy).Contents (Elt F)) : (⟨S16384, .f32⟩ : BufTy).Contents (Elt F) :=
  Host.reduceAdd adj (constant S_ .f32 0x00000000#32) reducesTo_S16384x16384_S16384_d0 h_S_

/-- One aggregation with its scaling: the transposed adjacency array times the features, each row divided by its
    degree. -/
def refScaled (adj : (⟨S16384x16384, .f32⟩ : BufTy).Contents (Elt F)) (h : (⟨S16384x64, .f32⟩ : BufTy).Contents (Elt F)) : (⟨S16384x64, .f32⟩ : BufTy).Contents (Elt F) :=
  Host.divf
    (Host.dotGeneral dot_S16384x16384_S16384x64_S16384x64_1_0_0_1_n_n none
      (transpose S16384x16384 [1, 0] adj transposes_S16384x16384_S16384x16384_1_0) h)
    (broadcastInDim S16384x64 ![0, 1] bcast_S16384x1_S16384x64_0_1
      (broadcastInDim S16384x1 ![0] bcast_S16384_S16384x1_0 (refDeg adj)))

/-- The weights of layer 0: the product with the transpose of slice 0 of the layer weights, clamped below at zero. -/
def refApplyW0 (z : (⟨S16384x64, .f32⟩ : BufTy).Contents (Elt F)) (u : (⟨S3x64x64, .f32⟩ : BufTy).Contents (Elt F)) : (⟨S16384x64, .f32⟩ : BufTy).Contents (Elt F) :=
  maximumf
    (Host.dotGeneral dot_S16384x64_S64x64_S16384x64_1_0_0_1_n_n none z
      (transpose S64x64 [1, 0]
        (shapeCast _ (extractStridedSlice S1x64x64 ![0, 0, 0] u slices_S3x64x64_S1x64x64_0_0_0) shapeCasts_S1x64x64_S64x64)
        transposes_S64x64_S64x64_1_0))
    (broadcastInDim S16384x64 ![] bcast_S_S16384x64 (constant S_ .f32 0x00000000#32))

/-- The weights of layer 1: the product with the transpose of slice 1 of the layer weights, clamped below at zero. -/
def refApplyW1 (z : (⟨S16384x64, .f32⟩ : BufTy).Contents (Elt F)) (u : (⟨S3x64x64, .f32⟩ : BufTy).Contents (Elt F)) : (⟨S16384x64, .f32⟩ : BufTy).Contents (Elt F) :=
  maximumf
    (Host.dotGeneral dot_S16384x64_S64x64_S16384x64_1_0_0_1_n_n none z
      (transpose S64x64 [1, 0]
        (shapeCast _ (extractStridedSlice S1x64x64 ![1, 0, 0] u slices_S3x64x64_S1x64x64_1_0_0) shapeCasts_S1x64x64_S64x64)
        transposes_S64x64_S64x64_1_0))
    (broadcastInDim S16384x64 ![] bcast_S_S16384x64 (constant S_ .f32 0x00000000#32))

/-- The weights of layer 2: the product with the transpose of slice 2 of the layer weights, clamped below at zero. -/
def refApplyW2 (z : (⟨S16384x64, .f32⟩ : BufTy).Contents (Elt F)) (u : (⟨S3x64x64, .f32⟩ : BufTy).Contents (Elt F)) : (⟨S16384x64, .f32⟩ : BufTy).Contents (Elt F) :=
  maximumf
    (Host.dotGeneral dot_S16384x64_S64x64_S16384x64_1_0_0_1_n_n none z
      (transpose S64x64 [1, 0]
        (shapeCast _ (extractStridedSlice S1x64x64 ![2, 0, 0] u slices_S3x64x64_S1x64x64_2_0_0) shapeCasts_S1x64x64_S64x64)
        transposes_S64x64_S64x64_1_0))
    (broadcastInDim S16384x64 ![] bcast_S_S16384x64 (constant S_ .f32 0x00000000#32))

/-- The readout: the mean of the rows (their sum from zero, divided by 16384) as a column, times the first readout
    matrix, clamped below at zero, times the second readout row; the single entry as a scalar. -/
def refReadout (h : (⟨S16384x64, .f32⟩ : BufTy).Contents (Elt F)) (p : (⟨S64x64, .f32⟩ : BufTy).Contents (Elt F)) (q : (⟨S1x64, .f32⟩ : BufTy).Contents (Elt F)) : (⟨S_, .f32⟩ : BufTy).Contents (Elt F) :=
  shapeCast _
    (Host.dotGeneral dot_S1x64_S64x1_S1x1_1_0_0_1_n_n none q
      (maximumf
        (Host.dotGeneral dot_S64x64_S64x1_S64x1_1_0_0_1_n_n none p
          (broadcastInDim S64x1 ![0] bcast_S64_S64x1_0
            (Host.divf (Host.reduceAdd h (constant S_ .f32 0x00000000#32) reducesTo_S16384x64_S64_d0 h_S_)
              (broadcastInDim S64 ![] bcast_S_S64 (constant S_ .f32 0x46800000#32)))))
        (broadcastInDim S64x1 ![] bcast_S_S64x1 (constant S_ .f32 0x00000000#32))))
    shapeCasts_S1x1_S_

/-- The reference's result: embed, then three times aggregate, scale and apply the layer's weights, then read out. -/
def refOut (x : (⟨S1x16384x64, .f32⟩ : BufTy).Contents (Elt F)) (adj : (⟨S16384x16384, .f32⟩ : BufTy).Contents (Elt F)) (U0 : (⟨S64x64, .f32⟩ : BufTy).Contents (Elt F)) (b0 : (⟨S64, .f32⟩ : BufTy).Contents (Elt F))
    (Us : (⟨S3x64x64, .f32⟩ : BufTy).Contents (Elt F)) (Q : (⟨S64x64, .f32⟩ : BufTy).Contents (Elt F)) (P' : (⟨S1x64, .f32⟩ : BufTy).Contents (Elt F)) : (⟨S_, .f32⟩ : BufTy).Contents (Elt F) :=
  refReadout
    (refApplyW2 (refScaled adj (refApplyW1 (refScaled adj (refApplyW0 (refScaled adj (refEmbed x U0 b0)) Us)) Us)) Us)
    Q P'

/-- The composition of the pieces is the reference's whole term, operation for operation. -/
theorem refOut_eq (x : (⟨S1x16384x64, .f32⟩ : BufTy).Contents (Elt F)) (adj : (⟨S16384x16384, .f32⟩ : BufTy).Contents (Elt F)) (U0 : (⟨S64x64, .f32⟩ : BufTy).Contents (Elt F)) (b0 : (⟨S64, .f32⟩ : BufTy).Contents (Elt F))
    (Us : (⟨S3x64x64, .f32⟩ : BufTy).Contents (Elt F)) (Q : (⟨S64x64, .f32⟩ : BufTy).Contents (Elt F)) (P' : (⟨S1x64, .f32⟩ : BufTy).Contents (Elt F)) :
    refOut x adj U0 b0 Us Q P'
      = shapeCast _ (Host.dotGeneral dot_S1x64_S64x1_S1x1_1_0_0_1_n_n none P' (maximumf (Host.dotGeneral dot_S64x64_S64x1_S64x1_1_0_0_1_n_n none Q (broadcastInDim S64x1 ![0] bcast_S64_S64x1_0 (Host.divf (Host.reduceAdd (maximumf (Host.dotGeneral dot_S16384x64_S64x64_S16384x64_1_0_0_1_n_n none (Host.divf (Host.dotGeneral dot_S16384x16384_S16384x64_S16384x64_1_0_0_1_n_n none (transpose S16384x16384 [1, 0] adj transposes_S16384x16384_S16384x16384_1_0) (maximumf (Host.dotGeneral dot_S16384x64_S64x64_S16384x64_1_0_0_1_n_n none (Host.divf (Host.dotGeneral dot_S16384x16384_S16384x64_S16384x64_1_0_0_1_n_n none (transpose S16384x16384 [1, 0] adj transposes_S16384x16384_S16384x16384_1_0) (maximumf (Host.dotGeneral dot_S16384x64_S64x64_S16384x64_1_0_0_1_n_n none (Host.divf (Host.dotGeneral dot_S16384x16384_S16384x64_S16384x64_1_0_0_1_n_n none (transpose S16384x16384 [1, 0] adj transposes_S16384x16384_S16384x16384_1_0) (addf (Host.dotGeneral dot_S16384x64_S64x64_S16384x64_1_0_0_1_n_n none (shapeCast _ x shapeCasts_S1x16384x64_S16384x64) U0) (broadcastInDim S16384x64 ![0, 1] bcast_S1x64_S16384x64_0_1 (broadcastInDim S1x64 ![1] bcast_S64_S1x64_1 b0)))) (broadcastInDim S16384x64 ![0, 1] bcast_S16384x1_S16384x64_0_1 (broadcastInDim S16384x1 ![0] bcast_S16384_S16384x1_0 (Host.reduceAdd adj (constant S_ .f32 0x00000000#32) reducesTo_S16384x16384_S16384_d0 h_S_)))) (transpose S64x64 [1, 0] (shapeCast _ (extractStridedSlice S1x64x64 ![0, 0, 0] Us slices_S3x64x64_S1x64x64_0_0_0) shapeCasts_S1x64x64_S64x64) transposes_S64x64_S64x64_1_0)) (broadcastInDim S16384x64 ![] bcast_S_S16384x64 (constant S_ .f32 0x00000000#32)))) (broadcastInDim S16384x64 ![0, 1] bcast_S16384x1_S16384x64_0_1 (broadcastInDim S16384x1 ![0] bcast_S16384_S16384x1_0 (Host.reduceAdd adj (constant S_ .f32 0x00000000#32) reducesTo_S16384x16384_S16384_d0 h_S_)))) (transpose S64x64 [1, 0] (shapeCast _ (extractStridedSlice S1x64x64 ![1, 0, 0] Us slices_S3x64x64_S1x64x64_1_0_0) shapeCasts_S1x64x64_S64x64) transposes_S64x64_S64x64_1_0)) (broadcastInDim S16384x64 ![] bcast_S_S16384x64 (constant S_ .f32 0x00000000#32)))) (broadcastInDim S16384x64 ![0, 1] bcast_S16384x1_S16384x64_0_1 (broadcastInDim S16384x1 ![0] bcast_S16384_S16384x1_0 (Host.reduceAdd adj (constant S_ .f32 0x00000000#32) reducesTo_S16384x16384_S16384_d0 h_S_)))) (transpose S64x64 [1, 0] (shapeCast _ (extractStridedSlice S1x64x64 ![2, 0, 0] Us slices_S3x64x64_S1x64x64_2_0_0) shapeCasts_S1x64x64_S64x64) transposes_S64x64_S64x64_1_0)) (broadcastInDim S16384x64 ![] bcast_S_S16384x64 (constant S_ .f32 0x00000000#32))) (constant S_ .f32 0x00000000#32) reducesTo_S16384x64_S64_d0 h_S_) (broadcastInDim S64 ![] bcast_S_S64 (constant S_ .f32 0x46800000#32))))) (broadcastInDim S64x1 ![] bcast_S_S64x1 (constant S_ .f32 0x00000000#32)))) shapeCasts_S1x1_S_ := rfl

end Cert.Gcn

end
-- ==== Proof.AggSpec.lean ====
/-
  The neighbour aggregation of a dense-adjacency graph layer, as the kernel computes it: block by block over the
  rows. For an adjacency array `adj` of 16384 × 16384 entries and a feature array `h` of 16384 × D entries, entry
  `(j, d)` of the aggregate is `∑ i, adj[i, j] · h[i, d]`; the kernel takes the rows `i` in sixteen consecutive
  blocks of 1024 and adds the blocks' partial sums. On the extended reals addition is commutative and associative
  with no side condition, so this is the plain sum over all rows (proved where it is used).
-/
import Idealize.ShloMosaic.PureOps.Ideal
import Idealize.ShloMosaic.Lib.ValueIdx
import Mathlib.Algebra.BigOperators.Fin

noncomputable section

namespace Cert.Gcn

open Idealize.ShloMosaic Idealize.ShloMosaic.ValueIdx

/-- Row `1024·b + r` of an array of 16384 rows: row `r` of the `b`-th block of 1024 consecutive rows. -/
def blockRow (b : Fin 16) (r : Fin 1024) : Fin 16384 := ⟨1024 * b.val + r.val, by omega⟩

/-- The aggregate, block by block: entry `(j, d)` is the sum over the sixteen row blocks of the sums, over a
    block's rows `i`, of `adj[i, j] · h[i, d]`. -/
def aggBlocks (D : ℕ) (adj : (⟨2, ![16384, 16384]⟩ : Shape).Idx → EReal) (h : (⟨2, ![16384, D]⟩ : Shape).Idx → EReal) :
    (⟨2, ![16384, D]⟩ : Shape).Idx → EReal :=
  fun o => ∑ b : Fin 16, ∑ r : Fin 1024,
    adj (ix2 (blockRow b r) (show Fin 16384 from o 0)) * h (ix2 (blockRow b r) (show Fin D from o 1))

/-- The same aggregate as one sum over all 16384 rows. -/
def aggRows (D : ℕ) (adj : (⟨2, ![16384, 16384]⟩ : Shape).Idx → EReal) (h : (⟨2, ![16384, D]⟩ : Shape).Idx → EReal) :
    (⟨2, ![16384, D]⟩ : Shape).Idx → EReal :=
  fun o => ∑ i : Fin 16384, adj (ix2 i (show Fin 16384 from o 0)) * h (ix2 i (show Fin D from o 1))

end Cert.Gcn

end
-- ==== Proof.LibBlockSum.lean ====
/-
  A sum over `m · n` rows taken block by block: the sum over the `m` blocks of the sums over each block's `n` rows,
  row `n · t + r` being row `r` of block `t`. This is what an output accumulated over a grid axis of row blocks
  holds against a whole-array reduction: the grid's fold adds the blocks' partial sums, the reference sums all rows.
  In any commutative additive monoid (the extended reals' addition is one), so no finiteness is asked.
-/
import Mathlib.Algebra.BigOperators.Fin
import Mathlib.Logic.Equiv.Fin.Basic

open scoped BigOperators

namespace BlockSum

/-- Row `r` of block `t` is a row of the whole. -/
theorem row_lt {m n : ℕ} (t : Fin m) (r : Fin n) : n * t.val + r.val < m * n :=
  calc n * t.val + r.val < n * t.val + n := Nat.add_lt_add_left r.isLt _
    _ = n * (t.val + 1) := (Nat.mul_succ n t.val).symm
    _ ≤ n * m := Nat.mul_le_mul_left n t.isLt
    _ = m * n := Nat.mul_comm n m

/-- THE SUM BY BLOCKS: over `m` blocks of `n` rows. -/
theorem sum_blocks {M : Type*} [AddCommMonoid M] (m n : ℕ) (g : Fin (m * n) → M) :
    ∑ t : Fin m, ∑ r : Fin n, g ⟨n * t.val + r.val, row_lt t r⟩ = ∑ i : Fin (m * n), g i := by
  rw [← Equiv.sum_comp (finProdFinEquiv : Fin m × Fin n ≃ Fin (m * n)) g, Fintype.sum_prod_type]
  refine Finset.sum_congr rfl fun t _ => Finset.sum_congr rfl fun r _ => congrArg g (Fin.ext ?_)
  show n * t.val + r.val = r.val + n * t.val
  exact Nat.add_comm _ _

/-- The same for a literal total `N = m · n` (so that `Fin N` is the index type as a program spells it). -/
theorem sum_blocks' {M : Type*} [AddCommMonoid M] (m n N : ℕ) (hN : N = m * n) (g : Fin N → M) :
    ∑ t : Fin m, ∑ r : Fin n, g ⟨n * t.val + r.val, hN ▸ row_lt t r⟩ = ∑ i : Fin N, g i := by
  subst hN
  exact sum_blocks m n g

end BlockSum
-- ==== Proof.AggRows.lean ====
/-
  The aggregate taken block by block is the aggregate taken over all rows at once: the sixteen blocks of 1024
  consecutive rows partition the 16384 rows, and on the extended reals addition is commutative and associative
  with no side condition, so regrouping the terms needs no finiteness.
-/
import proofs.«155212_j57251914056250_2_alg».proof.Proof.AggSpec
import proofs.«155212_j57251914056250_2_alg».proof.Proof.LibBlockSum

noncomputable section

namespace Cert.Gcn

open Idealize.ShloMosaic Idealize.ShloMosaic.ValueIdx

/-- Summing `adj[i, j] · h[i, d]` over the rows `i` block by block gives the sum over all rows. -/
theorem aggBlocks_eq_aggRows (D : ℕ) (adj : (⟨2, ![16384, 16384]⟩ : Shape).Idx → EReal)
    (h : (⟨2, ![16384, D]⟩ : Shape).Idx → EReal) : aggBlocks D adj h = aggRows D adj h := by
  funext o
  exact BlockSum.sum_blocks' 16 1024 16384 rfl
    (fun i : Fin 16384 => adj (ix2 i (show Fin 16384 from o 0)) * h (ix2 i (show Fin D from o 1)))

end Cert.Gcn

end
-- ==== Proof.AggRef.lean ====
/-
  The reference's neighbour product. The reference transposes the adjacency array and contracts its second axis
  against the first axis of the features, so entry `(j, d)` of the product is `∑ i, adjᵀ[j, i] · h[i, d]`, which is
  `∑ i, adj[i, j] · h[i, d]`: the aggregate over all rows. At the ideal values the contraction is this sum exactly
  (its zero accumulator adds nothing), so no finiteness is asked.
-/
import proofs.«155212_j57251914056250_2_alg».proof.Proof.AggSpec
import proofs.«155212_j57251914056250_2_alg».proof.ReferenceIdeal
import proofs.«155212_j57251914056250_2_alg».proof.Proof.Gen.ReferenceIdeal
import Idealize.ShloMosaic.PureOps.Ideal.Laws
import Idealize.ShloMosaic.Lib.ValueIdx
import Idealize.ShloMosaic.Lib.Pipeline.Value

noncomputable section

namespace Cert.Gcn

open Cert.ReferenceIdeal Cert.ReferenceIdeal.Gen
open Idealize.ShloMosaic Idealize.ShloMosaic.ValueIdx Idealize.ShloMosaic.TcCoe Idealize.SL.Sem Idealize.ShloMosaic.StableHlo

/-- The contraction's dimension numbers: left axis 1 against right axis 0, no batch axis. -/
private abbrev dd : DotDims S16384x16384 S16384x64 S16384x64 := dot_S16384x16384_S16384x64_S16384x64_1_0_0_1_n_n

/-- The left operand is read at (output row, contraction coordinate). -/
private theorem lhs_0 (i : S16384x64.Idx) (q : dd.contr.Idx) : (dd.lhsIdx i q 0).val = (i 0).val := by
  unfold DotDims.lhsIdx
  rw [dif_neg (show ¬(0 : Fin S16384x16384.rank) ∈ dd.lhsBatch by decide),
    dif_pos (show (0 : Fin S16384x16384.rank) ∈ dd.lhsNonContracting by decide)]
  rfl
private theorem lhs_1 (i : S16384x64.Idx) (q : dd.contr.Idx) :
    (dd.lhsIdx i q 1).val = (q ⟨0, by decide⟩).val := dd.lhsIdx_val_of_single rfl i q
/-- The right operand is read at (contraction coordinate, output column). -/
private theorem rhs_0 (i : S16384x64.Idx) (q : dd.contr.Idx) :
    (dd.rhsIdx i q 0).val = (q ⟨0, by decide⟩).val := dd.rhsIdx_val_of_single rfl i q
private theorem rhs_1 (i : S16384x64.Idx) (q : dd.contr.Idx) : (dd.rhsIdx i q 1).val = (i 1).val := by
  unfold DotDims.rhsIdx
  rw [dif_neg (show ¬(1 : Fin S16384x64.rank) ∈ dd.rhsBatch by decide),
    dif_pos (show (1 : Fin S16384x64.rank) ∈ dd.rhsNonContracting by decide)]
  rfl

/-- The reference's product of the transposed adjacency array with the features is the aggregate over all rows,
    whatever evidence of the shape facts the two operations carry. -/
theorem ref_agg [inst : Cert.ReferenceIdeal.Facts₀] {ht : S16384x16384.Transposes [1, 0] S16384x16384}
    (adj : FVec Ideal S16384x16384 .f32) (h : FVec Ideal S16384x64 .f32) :
    Host.dotGeneral (F := Ideal) dot_S16384x16384_S16384x64_S16384x64_1_0_0_1_n_n none
      (transpose S16384x16384 [1, 0] adj ht) h
      = aggRows 64 adj h := by
  -- the shape facts are propositions, so any two instances of their class are equal
  obtain rfl : inst = Cert.ReferenceIdeal.Gen.facts₀ := rfl
  funext o
  obtain ⟨p, q, rfl⟩ : ∃ (p : Fin 16384) (q : Fin 64), o = ix2 p q := ⟨o 0, o 1, eq_ix2 o⟩
  simp only [Host.dotGeneral]
  rw [Ideal.dotGeneral_apply, ← Equiv.sum_comp (contrEquiv1 dd 16384 rfl rfl).symm]
  show _ = ∑ i : Fin 16384, adj (ix2 i p) * h (ix2 i q)
  refine Finset.sum_congr rfl fun k _ => ?_
  have hk := contrEquiv1_symm_val dd 16384 rfl rfl k
  have el : dd.lhsIdx (ix2 p q) ((contrEquiv1 dd 16384 rfl rfl).symm k) = ix2 p k := funext fun a => Fin.ext (by
    match a with
    | ⟨0, _⟩ => exact lhs_0 _ _
    | ⟨1, _⟩ => exact (lhs_1 _ _).trans hk)
  have er : dd.rhsIdx (ix2 p q) ((contrEquiv1 dd 16384 rfl rfl).symm k) = ix2 k q := funext fun a => Fin.ext (by
    match a with
    | ⟨0, _⟩ => exact (rhs_0 _ _).trans hk
    | ⟨1, _⟩ => exact rhs_1 _ _)
  rw [el, er]
  refine congrArg (· * h (ix2 k q)) ?_
  exact transpose_apply [1, 0] adj ht (ix2 p k) (ix2 k p)
    (fun b => match b with
      | ⟨0, _⟩ => rfl
      | ⟨1, _⟩ => rfl)

end Cert.Gcn

end
-- ==== Proof.DegColumn.lean ====
/-
  The degree column. The kernel appends to the 64 feature columns one column of ones and 63 columns of zeros and
  aggregates the 128-wide array: entry `(j, d)` of the aggregate is `∑ i, adj[i, j] · aug[i, d]`. On the first 64
  columns `aug` is the features, so those columns are the features' aggregate; on column 64 it is 1, so that
  column is `∑ i, adj[i, j] · 1 = ∑ i, adj[i, j]`, the column sums of the adjacency array, which the reference takes
  as a reduction from zero (`0 + ∑ i, adj[i, j]`). Only `x · 1 = x`, `0 + x = x` and the regrouping of a sum by
  blocks are used, all of which hold on the extended reals with no finiteness asked.
-/
import proofs.«155212_j57251914056250_2_alg».proof.Proof.AggSpec
import proofs.«155212_j57251914056250_2_alg».proof.Proof.LibBlockSum
import proofs.«155212_j57251914056250_2_alg».proof.KernelIdeal
import proofs.«155212_j57251914056250_2_alg».proof.ReferenceIdeal
import Idealize.ShloMosaic.PureOps.Ideal.Laws
import Idealize.ShloMosaic.Lib.ValueIdx
import Idealize.ShloMosaic.Lib.Pipeline.Value

noncomputable section

namespace Cert.Gcn

open Cert.KernelIdeal
open Idealize.ShloMosaic Idealize.ShloMosaic.ValueIdx Idealize.ShloMosaic.TcCoe Idealize.SL.Sem Idealize.ShloMosaic.StableHlo

/-- The features with a column of ones and 63 columns of zeros appended on the right (the shape facts the three
    operations carry are propositions, taken as they come). -/
abbrev aug {hb1 : S_.BroadcastsInDim S16384x1 (![] : Fin 0 → Fin S16384x1.rank)}
    {hb63 : S_.BroadcastsInDim S16384x63 (![] : Fin 0 → Fin S16384x63.rank)}
    {hc : Shape.Concatenates [S16384x64, S16384x1, S16384x63] S16384x128 1}
    (h0 : FVec Ideal S16384x64 .f32) : FVec Ideal S16384x128 .f32 :=
  concatenate S16384x128 1 [⟨S16384x64, h0⟩,
    ⟨S16384x1, broadcastInDim S16384x1 ![] hb1 (constant (F := Ideal) S_ .f32 0x3F800000#32)⟩,
    ⟨S16384x63, broadcastInDim S16384x63 ![] hb63 (constant (F := Ideal) S_ .f32 0x00000000#32)⟩] hc

/-- Column `q < 64` of the 128 columns. -/
private abbrev colL (q : Fin 64) : Fin 128 := ⟨q.val, Nat.lt_of_lt_of_le q.isLt (by decide)⟩
/-- Column 64 of the 128 columns. -/
private abbrev col64 : Fin 128 := ⟨64, by decide⟩

section
variable {hb1 : S_.BroadcastsInDim S16384x1 (![] : Fin 0 → Fin S16384x1.rank)}
  {hb63 : S_.BroadcastsInDim S16384x63 (![] : Fin 0 → Fin S16384x63.rank)}
  {hc : Shape.Concatenates [S16384x64, S16384x1, S16384x63] S16384x128 1}

/-- On its first 64 columns the widened array is the features. -/
theorem aug_left (h0 : FVec Ideal S16384x64 .f32) (i : Fin 16384) (q : Fin 64) :
    aug (hb1 := hb1) (hb63 := hb63) (hc := hc) h0 (ix2 i (colL q)) = h0 (ix2 i q) := by
  refine concatenate_apply_piece (1 : Fin S16384x128.rank)
    [⟨S16384x64, h0⟩,
      ⟨S16384x1, broadcastInDim S16384x1 ![] hb1 (constant (F := Ideal) S_ .f32 0x3F800000#32)⟩,
      ⟨S16384x63, broadcastInDim S16384x63 ![] hb63 (constant (F := Ideal) S_ .f32 0x00000000#32)⟩]
    hc (ix2 i (colL q)) 0 (Nat.zero_lt_succ 2) S16384x64 h0 rfl rfl
    0 rfl (ix2 i q) ?_ ?_
  · intro b hb
    match b with
    | ⟨0, _⟩ => rfl
    | ⟨1, _⟩ => exact absurd rfl hb
  · exact Nat.zero_add _

/-- Column 64 of the widened array is the constant one. -/
theorem aug_one (h0 : FVec Ideal S16384x64 .f32) (i : Fin 16384) :
    aug (hb1 := hb1) (hb63 := hb63) (hc := hc) h0 (ix2 i col64) = 1 := by
  refine (concatenate_apply_piece (1 : Fin S16384x128.rank)
    [⟨S16384x64, h0⟩,
      ⟨S16384x1, broadcastInDim S16384x1 ![] hb1 (constant (F := Ideal) S_ .f32 0x3F800000#32)⟩,
      ⟨S16384x63, broadcastInDim S16384x63 ![] hb63 (constant (F := Ideal) S_ .f32 0x00000000#32)⟩]
    hc (ix2 i col64) 1 (Nat.succ_lt_succ (Nat.zero_lt_succ 1)) S16384x1
    (broadcastInDim S16384x1 ![] hb1 (constant (F := Ideal) S_ .f32 0x3F800000#32)) rfl rfl
    64 rfl (ix2 i (0 : Fin 1)) ?_ ?_).trans ?_
  · intro b hb
    match b with
    | ⟨0, _⟩ => rfl
    | ⟨1, _⟩ => exact absurd rfl hb
  · rfl
  · show Ideal.ofBits .f32 0x3F800000#32 = 1
    simp [Ideal.ofBits, Ideal.ieee, -EReal.coe_mul]; norm_num

/-- The first 64 columns of the widened array's aggregate are the features' aggregate. -/
theorem aug_cols {hs : S16384x128.Slices ![0, 0] S16384x64}
    (adj : FVec Ideal S16384x16384 .f32) (h0 : FVec Ideal S16384x64 .f32) :
    extractStridedSlice S16384x64 ![0, 0] (aggBlocks 128 adj (aug (hb1 := hb1) (hb63 := hb63) (hc := hc) h0)) hs
      = aggBlocks 64 adj h0 := by
  funext o
  obtain ⟨p, q, rfl⟩ : ∃ (p : Fin 16384) (q : Fin 64), o = ix2 p q := ⟨o 0, o 1, eq_ix2 o⟩
  rw [extractStridedSlice_apply ![0, 0] _ hs (ix2 p q) (ix2 p (colL q)) (fun a => match a with
    | ⟨0, _⟩ => (Nat.zero_add _).symm
    | ⟨1, _⟩ => (Nat.zero_add _).symm)]
  show (∑ b : Fin 16, ∑ r : Fin 1024, adj (ix2 (blockRow b r) p)
      * aug (hb1 := hb1) (hb63 := hb63) (hc := hc) h0 (ix2 (blockRow b r) (colL q)))
    = ∑ b : Fin 16, ∑ r : Fin 1024, adj (ix2 (blockRow b r) p) * h0 (ix2 (blockRow b r) q)
  refine Finset.sum_congr rfl fun b _ => Finset.sum_congr rfl fun r _ => ?_
  rw [aug_left]

/-- Column 64 of the widened array's aggregate is the column sums of the adjacency array, as the reference's
    reduction from zero over the rows gives them. -/
theorem aug_deg {hs1 : S16384x128.Slices ![0, 64] S16384x1} {hsc : S16384x1.ShapeCasts S16384}
    {hr : Cert.ReferenceIdeal.S16384x16384.ReducesTo [0] Cert.ReferenceIdeal.S16384} {hS : 0 < Cert.ReferenceIdeal.S_.numel}
    (adj : FVec Ideal S16384x16384 .f32) (h0 : FVec Ideal S16384x64 .f32) :
    shapeCast S16384 (extractStridedSlice S16384x1 ![0, 64]
        (aggBlocks 128 adj (aug (hb1 := hb1) (hb63 := hb63) (hc := hc) h0)) hs1) hsc
      = Host.reduceAdd (F := Ideal) adj (constant (F := Ideal) Cert.ReferenceIdeal.S_ .f32 0x00000000#32) hr hS := by
  funext o
  obtain ⟨p, rfl⟩ : ∃ p : Fin 16384, o = ix1 p := ⟨o 0, eq_ix1 o⟩
  -- the reference's side: zero plus the sum down column p
  have hR : Host.reduceAdd (F := Ideal) adj (constant (F := Ideal) Cert.ReferenceIdeal.S_ .f32 0x00000000#32) hr hS (ix1 p)
      = ∑ k : Fin 16384, adj (ix2 k p) := by
    simp only [Host.reduceAdd, Ideal.hostReduceAdd_def]
    rw [Ideal.hostReduceAdd_single hr (by decide)]
    have hz : (constant (F := Ideal) Cert.ReferenceIdeal.S_ .f32 0x00000000#32) (Shape.Idx.first hS) = 0 :=
      Ideal.ofBits_zero_f32
    rw [hz, zero_add]
    refine Finset.sum_congr rfl fun k _ => ?_
    exact congrArg adj (funext fun a => Fin.ext (by match a with | ⟨0, _⟩ => rfl | ⟨1, _⟩ => rfl))
  rw [hR]
  rw [shapeCast_apply _ hsc (ix1 p) (ix2 p (0 : Fin 1))
    (by rw [Shape.rowMajor_val_two, Shape.rowMajor_val_one]; show p.val * 1 + 0 = p.val; omega)]
  rw [extractStridedSlice_apply ![0, 64] _ hs1 (ix2 p (0 : Fin 1)) (ix2 p col64) (fun a => match a with
    | ⟨0, _⟩ => (Nat.zero_add _).symm
    | ⟨1, _⟩ => rfl)]
  show (∑ b : Fin 16, ∑ r : Fin 1024, adj (ix2 (blockRow b r) p)
      * aug (hb1 := hb1) (hb63 := hb63) (hc := hc) h0 (ix2 (blockRow b r) col64))
    = ∑ k : Fin 16384, adj (ix2 k p)
  rw [← BlockSum.sum_blocks' 16 1024 16384 rfl (fun i : Fin 16384 => adj (ix2 i p))]
  refine Finset.sum_congr rfl fun b _ => Finset.sum_congr rfl fun r _ => ?_
  rw [aug_one, mul_one]
  rfl

end

end Cert.Gcn

end
-- ==== Proof.Scale.lean ====
/-
  Scaling by a reciprocal against dividing. One program multiplies each row of an array by the reciprocal of that
  row's degree, `a · (1 / d)`; the other divides, `a / d`. On the extended reals the two agree whenever the
  degree `d` is a nonzero real number: then `x / d` is `x · (1 / d)` for every extended real `x` (the infinities
  included), so both sides are `a · (1 / d)`. At `d = 0` they differ (`1 / 0 = +∞`, and `0 · ∞ = 0` where
  `0 / 0` is `−∞`), which is why the degrees are asked to be nonzero.
  The array form reads both programs at an entry `(p, q)`: each broadcasts the degree vector to a column
  `[16384, 1]` and then across the 64 columns, so at `(p, q)` both read the degree of row `p`.
-/
import proofs.«155212_j57251914056250_2_alg».proof.KernelIdeal
import proofs.«155212_j57251914056250_2_alg».proof.ReferenceIdeal
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

namespace Cert.Gcn

open Idealize.ShloMosaic Idealize.ShloMosaic.ValueIdx

/-- For a nonzero real `d`, multiplying by `1 / d` is dividing by `d`, at every extended real `a`. -/
theorem mul_inv_eq_div (a : EReal) (d : ℝ) (hd : d ≠ 0) : a * Ideal.div 1 (d : EReal) = Ideal.div a (d : EReal) := by
  rw [Ideal.div_coe hd, Ideal.div_coe hd, one_mul]

/-- The f32 word 0x3F800000 denotes the number one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- A vector of 16384 entries broadcast to a column and then across 64 columns reads, at `(p, q)`, its entry `p`. -/
theorem bcast_col_apply (v : (⟨1, ![16384]⟩ : Shape).Idx → EReal)
    (h1 : (⟨1, ![16384]⟩ : Shape).BroadcastsInDim ⟨2, ![16384, 1]⟩ ![0])
    (h2 : (⟨2, ![16384, 1]⟩ : Shape).BroadcastsInDim ⟨2, ![16384, 64]⟩ ![0, 1]) (p : Fin 16384) (q : Fin 64) :
    broadcastInDim ⟨2, ![16384, 64]⟩ ![0, 1] h2 (broadcastInDim ⟨2, ![16384, 1]⟩ ![0] h1 v) (ix2 p q) = v (ix1 p) := by
  refine (broadcastInDim_apply _ h2 _ (ix2 p q) (ix2 p (0 : Fin 1)) (fun a => ?_)).trans ?_
  · match a with
    | ⟨0, _⟩ => rfl
    | ⟨1, _⟩ => rfl
  · refine broadcastInDim_apply _ h1 v (ix2 p (0 : Fin 1)) (ix1 p) (fun a => ?_)
    match a with
    | ⟨0, _⟩ => rfl

/-- The kernel's scaling — the constant one broadcast to the degrees' shape, divided by the degrees, the quotient
    broadcast to a column and across the 64 columns, and the array multiplied by it — is the reference's division of
    the array by the degrees broadcast the same way, when every degree is a nonzero real number. -/
theorem scale_eq
    {hb0 : Cert.KernelIdeal.S_.BroadcastsInDim Cert.KernelIdeal.S16384 (![] : Fin 0 → Fin Cert.KernelIdeal.S16384.rank)}
    {hb1 : Cert.KernelIdeal.S16384.BroadcastsInDim Cert.KernelIdeal.S16384x1 (![0] : Fin 1 → Fin Cert.KernelIdeal.S16384x1.rank)}
    {hb2 : Cert.KernelIdeal.S16384x1.BroadcastsInDim Cert.KernelIdeal.S16384x64 (![0, 1] : Fin 2 → Fin Cert.KernelIdeal.S16384x64.rank)}
    {hb1' : Cert.ReferenceIdeal.S16384.BroadcastsInDim Cert.ReferenceIdeal.S16384x1 (![0] : Fin 1 → Fin Cert.ReferenceIdeal.S16384x1.rank)}
    {hb2' : Cert.ReferenceIdeal.S16384x1.BroadcastsInDim Cert.ReferenceIdeal.S16384x64 (![0, 1] : Fin 2 → Fin Cert.ReferenceIdeal.S16384x64.rank)}
    (a : FVec Ideal Cert.KernelIdeal.S16384x64 .f32) (deg : FVec Ideal Cert.KernelIdeal.S16384 .f32)
    (hdeg : ∀ j, ∃ r : ℝ, r ≠ 0 ∧ deg j = (r : EReal)) :
    mulf a (broadcastInDim Cert.KernelIdeal.S16384x64 ![0, 1] hb2 (broadcastInDim Cert.KernelIdeal.S16384x1 ![0] hb1
        (Host.divf (F := Ideal) (broadcastInDim Cert.KernelIdeal.S16384 ![] hb0 (constant (F := Ideal) Cert.KernelIdeal.S_ .f32 0x3F800000#32)) deg)))
      = Host.divf (F := Ideal) a (broadcastInDim Cert.ReferenceIdeal.S16384x64 ![0, 1] hb2' (broadcastInDim Cert.ReferenceIdeal.S16384x1 ![0] hb1' deg)) := by
  funext j
  obtain ⟨p, q, rfl⟩ : ∃ (p : Fin 16384) (q : Fin 64), j = ix2 p q := ⟨j 0, j 1, eq_ix2 j⟩
  obtain ⟨r, hr, hd⟩ := hdeg (ix1 p)
  have e1 := bcast_col_apply
    (Host.divf (F := Ideal) (broadcastInDim Cert.KernelIdeal.S16384 ![] hb0 (constant (F := Ideal) Cert.KernelIdeal.S_ .f32 0x3F800000#32)) deg)
    hb1 hb2 p q
  have e2 := bcast_col_apply deg hb1' hb2' p q
  show a (ix2 p q) * _ = Ideal.div (a (ix2 p q)) _
  rw [e1, e2]
  show a (ix2 p q) * Ideal.div (Ideal.ofBits .f32 0x3F800000#32) (deg (ix1 p)) = _
  rw [hd, ofBits_one_f32]
  exact mul_inv_eq_div _ r hr

end Cert.Gcn

end
-- ==== Proof.LibFiniteReal.lean ====
/-
  FROM "EVERY ENTRY IS BELOW +∞ IN ABSOLUTE VALUE" TO "EVERY ENTRY IS A REAL NUMBER", at the ideal values
  (floats are extended reals), independent of any particular program.
  A precondition "every entry of `x` is finite" prints, per float array `x`, as: the absolute value of `x`, the
  f32 word 0x7F800000 broadcast to `x`'s shape, their elementwise ordered less-than (an array of one-bit words), and the
  reduction of that array by `and` over all axes from the constant 1. This file reads that back:
  • `real_of_abs_lt_top`: an extended real whose absolute value compares below +∞ is a real number;
  • `ofBits_inf_f32`, `broadcast_inf_apply`: the word 0x7F800000 is +∞, and so is its broadcast at every index;
  • `forall_real_of_all_abs_lt`: if the reduction is 1 then every entry of `x` is a real number, against any array that
    is +∞ everywhere; `forall_real_of_all_abs_lt_inf`: the same against the broadcast word, the form a printed
    precondition has.
  The conclusion is spelt out, `∀ i, ∃ r : ℝ, x i = (r : EReal)`: the statement that `x` is an array of real numbers.
-/
import Idealize.ShloMosaic.Lib.ReduceAll
import Idealize.ShloMosaic.PureOps.Ideal

noncomputable section

namespace FiniteReal

open Idealize.ShloMosaic

/-- An extended real whose absolute value `max x (-x)` compares (ordered less-than, as a one-bit word) below +∞ is a
    real number: at ⊥ and at ⊤ the absolute value is ⊤, and ⊤ < ⊤ is false. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- The f32 word 0x7F800000 denotes +∞. -/
theorem ofBits_inf_f32 : Ideal.ofBits .f32 0x7F800000#32 = ⊤ := by simp [Ideal.ofBits, Ideal.ieee]

/-- The word 0x7F800000 as a constant of any shape, broadcast to any shape, reads +∞ at every index. -/
theorem broadcast_inf_apply {u s : Shape} (dims : Fin u.rank → Fin s.rank) (hb : u.BroadcastsInDim s dims) (i : s.Idx) :
    broadcastInDim s dims hb (constant (F := Ideal) u .f32 0x7F800000#32) i = ⊤ := by
  unfold broadcastInDim
  exact ofBits_inf_f32

/-- If the `and` over ALL entries of "the absolute value of `x` is below `B`" is 1, and `B` is +∞ everywhere, then
    every entry of `x` is a real number. (`t` has one index: the reduction is over all axes.) -/
theorem forall_real_of_all_abs_lt {s t u : Shape} {axes : List (Fin s.rank)} [Subsingleton t.Idx]
    (x B : FVec Ideal s .f32) (hB : ∀ i, B i = ⊤) (init : u.Idx → BitVec 1) (h : s.ReducesTo axes t) (hu : 0 < u.numel)
    (j : t.Idx) (e : Host.reduce IntOp.andi (cmpf .olt (Host.absf x) B) init h hu j = 1#1) :
    ∀ i, ∃ r : ℝ, x i = (r : EReal) := fun i => by
  have hi := Host.reduce_andi_all (cmpf .olt (Host.absf x) B) init h hu j e i
  refine real_of_abs_lt_top (x i) ?_
  have : cmpf .olt (Host.absf x) B i = Ideal.cmp .olt (max (x i) (-(x i))) (B i) := rfl
  rw [this, hB i] at hi
  exact hi

/-- The printed form: against the word 0x7F800000 broadcast to `x`'s shape. -/
theorem forall_real_of_all_abs_lt_inf {s t u v : Shape} {axes : List (Fin s.rank)} [Subsingleton t.Idx]
    (x : FVec Ideal s .f32) (dims : Fin v.rank → Fin s.rank) (hb : v.BroadcastsInDim s dims)
    (init : u.Idx → BitVec 1) (h : s.ReducesTo axes t) (hu : 0 < u.numel) (j : t.Idx)
    (e : Host.reduce IntOp.andi
          (cmpf .olt (Host.absf x) (broadcastInDim s dims hb (constant (F := Ideal) v .f32 0x7F800000#32))) init h hu j = 1#1) :
    ∀ i, ∃ r : ℝ, x i = (r : EReal) :=
  forall_real_of_all_abs_lt x _ (broadcast_inf_apply dims hb) init h hu j e

end FiniteReal

end
-- ==== Proof.PreDeg.lean ====
/-
  What the precondition says of the adjacency array: every entry is a real number, and every column sum is a
  nonzero real number.
  The precondition is a conjunction of one-bit words. For each float input it asks that every entry's absolute
  value compare below +∞ (so the entry is neither infinity: it is a real number); its last conjunct asks that
  every column sum of the adjacency array — the initial value 0 plus the sum over the rows `i` of `adj[i, j]` —
  compare different from 0. A finite sum of real numbers is a real number, so each column sum is a real number,
  and by the last conjunct it is not zero. These are the degrees both programs divide by.
-/
import proofs.«155212_j57251914056250_2_alg».proof.Pre_finite_inputs
import proofs.«155212_j57251914056250_2_alg».proof.ReferenceIdeal
import proofs.«155212_j57251914056250_2_alg».proof.Proof.LibFiniteReal
import Idealize.ShloMosaic.Lib.ReduceAll
import Idealize.ShloMosaic.PureOps.Ideal
import Idealize.ShloMosaic.PureOps.Ideal.Laws
import Idealize.ShloMosaic.Lib.ValueIdx
import Idealize.ShloMosaic.Lib.IdealHost

noncomputable section

namespace Cert.Gcn

open Idealize.ShloMosaic Idealize.ShloMosaic.ValueIdx

/-- The scalar shape has one index. -/
instance subsingleton_scalar_idx : Subsingleton (⟨0, ![]⟩ : Shape).Idx := ⟨fun a b => funext fun d => d.elim0⟩

/-- A finite sum of real numbers, taken in the extended reals, is a real number. -/
theorem exists_real_sum {ι : Type} (s : Finset ι) (f : ι → EReal) (h : ∀ i, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih
    obtain ⟨t, ht⟩ := h a
    exact ⟨t + r, by rw [Finset.sum_insert ha, hr, ht, EReal.coe_add]⟩

variable [Cert.Pre_finite_inputs.Facts]

/-- The two conjuncts of the precondition that speak of the adjacency array, read back: every entry is a real
    number, and every column sum (from the initial value 0) compares different from 0. -/
theorem pre_adj (x : FVec Ideal Cert.Pre_finite_inputs.S1x16384x64 .f32) (adj : FVec Ideal Cert.Pre_finite_inputs.S16384x16384 .f32)
    (U0 : FVec Ideal Cert.Pre_finite_inputs.S64x64 .f32) (b0 : FVec Ideal Cert.Pre_finite_inputs.S64 .f32)
    (Us : FVec Ideal Cert.Pre_finite_inputs.S3x64x64 .f32) (Q : FVec Ideal Cert.Pre_finite_inputs.S64x64 .f32)
    (P' : FVec Ideal Cert.Pre_finite_inputs.S1x64 .f32)
    (hpre : Cert.Pre_finite_inputs.fn (F := Ideal) x adj U0 b0 Us Q P' = fun _ => 1#1) :
    (∀ i, ∃ r : ℝ, adj i = (r : EReal)) ∧
    (∀ j, Ideal.cmp .une
        (Host.reduceAdd (F := Ideal) adj (constant (F := Ideal) Cert.Pre_finite_inputs.S_ .f32 0x00000000#32)
          Cert.Pre_finite_inputs.Facts.reducesTo_S16384x16384_S16384_d0 Cert.Pre_finite_inputs.Facts.h_S_ j)
        (Ideal.ofBits .f32 0x00000000#32) = 1#1) := by
  have h := congrFun hpre ix0
  dsimp only [Cert.Pre_finite_inputs.fn, Cert.Pre_finite_inputs.fn_part1, Cert.Pre_finite_inputs.fn_part2] at h
  obtain ⟨h33, h37⟩ := IntOp.andi_eq_one.1 h
  obtain ⟨h28, -⟩ := IntOp.andi_eq_one.1 h33
  obtain ⟨h23, -⟩ := IntOp.andi_eq_one.1 h28
  obtain ⟨h18, -⟩ := IntOp.andi_eq_one.1 h23
  obtain ⟨h13, -⟩ := IntOp.andi_eq_one.1 h18
  obtain ⟨h8, -⟩ := IntOp.andi_eq_one.1 h13
  obtain ⟨-, h7⟩ := IntOp.andi_eq_one.1 h8
  refine ⟨FiniteReal.forall_real_of_all_abs_lt_inf adj _ _ _ _ _ _ h7, fun j => ?_⟩
  have hj := Host.reduce_andi_all _ _ _ _ ix0 h37 j
  rw [cmpf_apply, Ideal.cmpf_def, broadcastInDim_scalar_apply, constant_apply] at hj
  exact hj

/-- Under the precondition every entry of the adjacency array is a real number. -/
theorem adj_real (x : FVec Ideal Cert.Pre_finite_inputs.S1x16384x64 .f32) (adj : FVec Ideal Cert.Pre_finite_inputs.S16384x16384 .f32)
    (U0 : FVec Ideal Cert.Pre_finite_inputs.S64x64 .f32) (b0 : FVec Ideal Cert.Pre_finite_inputs.S64 .f32)
    (Us : FVec Ideal Cert.Pre_finite_inputs.S3x64x64 .f32) (Q : FVec Ideal Cert.Pre_finite_inputs.S64x64 .f32)
    (P' : FVec Ideal Cert.Pre_finite_inputs.S1x64 .f32)
    (hpre : Cert.Pre_finite_inputs.fn (F := Ideal) x adj U0 b0 Us Q P' = fun _ => 1#1) :
    ∀ i, ∃ r : ℝ, adj i = (r : EReal) :=
  (pre_adj x adj U0 b0 Us Q P' hpre).1

/-- Under the precondition every degree — the column sum of the adjacency array from the initial value 0, as the
    reference takes it — is a nonzero real number: it is 0 plus a finite sum of real numbers, and the
    precondition's last conjunct says it is not 0. -/
theorem deg_real_ne_zero
    {hr : Cert.ReferenceIdeal.S16384x16384.ReducesTo [0] Cert.ReferenceIdeal.S16384} {hS : 0 < Cert.ReferenceIdeal.S_.numel}
    (x : FVec Ideal Cert.Pre_finite_inputs.S1x16384x64 .f32) (adj : FVec Ideal Cert.Pre_finite_inputs.S16384x16384 .f32)
    (U0 : FVec Ideal Cert.Pre_finite_inputs.S64x64 .f32) (b0 : FVec Ideal Cert.Pre_finite_inputs.S64 .f32)
    (Us : FVec Ideal Cert.Pre_finite_inputs.S3x64x64 .f32) (Q : FVec Ideal Cert.Pre_finite_inputs.S64x64 .f32)
    (P' : FVec Ideal Cert.Pre_finite_inputs.S1x64 .f32)
    (hpre : Cert.Pre_finite_inputs.fn (F := Ideal) x adj U0 b0 Us Q P' = fun _ => 1#1) :
    ∀ j, ∃ r : ℝ, r ≠ 0 ∧
      Host.reduceAdd (F := Ideal) adj (constant (F := Ideal) Cert.ReferenceIdeal.S_ .f32 0x00000000#32) hr hS j = (r : EReal) := by
  intro j
  obtain ⟨hreal, hne⟩ := pre_adj x adj U0 b0 Us Q P' hpre
  have hR : Shape.Reduces Cert.ReferenceIdeal.S16384x16384 [0] Cert.ReferenceIdeal.S16384 := by decide
  obtain ⟨t, ht⟩ := exists_real_sum Finset.univ (fun k => adj (hR.lift j k)) (fun k => hreal _)
  have e : Host.reduceAdd (F := Ideal) adj (constant (F := Ideal) Cert.ReferenceIdeal.S_ .f32 0x00000000#32) hr hS j = (t : EReal) := by
    rw [hostReduceAdd_apply, constant_apply, Ideal.hostReduceAdd_single hr hR, Ideal.ofBits_zero_f32, zero_add]
    exact ht
  refine ⟨t, ?_, e⟩
  rintro rfl
  have h1 : Ideal.cmp .une
      (Host.reduceAdd (F := Ideal) adj (constant (F := Ideal) Cert.ReferenceIdeal.S_ .f32 0x00000000#32) hr hS j)
      (Ideal.ofBits .f32 0x00000000#32) = 1#1 := hne j
  rw [e, Ideal.ofBits_zero_f32] at h1
  simp [Ideal.cmp] at h1

end Cert.Gcn

end
-- ==== Proof.Bridge.lean ====
/-
  The two computations of the three-layer dense graph convolution agree. One aggregates block by block, reads the
  degrees off a column of ones carried through the first aggregation, and scales each row by the reciprocal of its
  degree; the other aggregates with one product against the transposed adjacency array, takes the degrees as column
  sums, and divides each row by its degree. Three facts join them: the sixteen block sums add up to the whole sum (no
  finiteness asked), the ones column gives the column sums (`x · 1 = x`), and `a · (1 / d) = a / d` for a degree `d`
  that is a nonzero real number, which is what the precondition says of every degree. Everything else is the same
  operation on both sides, so the proof goes layer by layer: equal inputs to a layer give equal outputs.
-/
import proofs.«155212_j57251914056250_2_alg».proof.Proof.HostRead
import proofs.«155212_j57251914056250_2_alg».proof.Proof.RefOut
import proofs.«155212_j57251914056250_2_alg».proof.Proof.AggRows
import proofs.«155212_j57251914056250_2_alg».proof.Proof.AggRef
import proofs.«155212_j57251914056250_2_alg».proof.Proof.DegColumn
import proofs.«155212_j57251914056250_2_alg».proof.Proof.Scale
import proofs.«155212_j57251914056250_2_alg».proof.Proof.PreDeg

noncomputable section

namespace Cert.Gcn

open Cert.KernelIdeal Cert.KernelIdeal.Gen Cert.KernelIdeal.HostRead
open Idealize.ShloMosaic Idealize.ShloMosaic.ValueIdx Idealize.ShloMosaic.TcCoe Idealize.ShloMosaic.StableHlo

/-- The block-by-block computation as one term of the seven arguments: the widened embedded input aggregated, the
    reciprocal degrees read off it, and three times over the previous features aggregated, scaled and put through the
    layer's weights; then the readout. -/
def kernelOut (x : FVec Ideal S1x16384x64 .f32) (adj : FVec Ideal S16384x16384 .f32) (U0 : FVec Ideal S64x64 .f32) (b0 : FVec Ideal S64 .f32)
    (Us : FVec Ideal S3x64x64 .f32) (Q : FVec Ideal S64x64 .f32) (P' : FVec Ideal S1x64 .f32) : FVec Ideal S_ .f32 :=
  readout (F := Ideal)
    (layer2 (F := Ideal)
      (aggBlocks 64 adj
        (layer1 (F := Ideal)
          (aggBlocks 64 adj (layer0 (F := Ideal) (aggBlocks 128 adj (augIn (F := Ideal) x U0 b0)) Us))
          (invDeg (F := Ideal) (aggBlocks 128 adj (augIn (F := Ideal) x U0 b0))) Us))
      (invDeg (F := Ideal) (aggBlocks 128 adj (augIn (F := Ideal) x U0 b0))) Us)
    Q P'

/-- The widened embedded input is the embedded input with the column of ones and the 63 columns of zeros appended. -/
theorem augIn_eq_aug (x : FVec Ideal S1x16384x64 .f32) (U0 : FVec Ideal S64x64 .f32) (b0 : FVec Ideal S64 .f32) :
    augIn (F := Ideal) x U0 b0
      = aug (hb1 := bcast_S_S16384x1) (hb63 := bcast_S_S16384x63) (hc := concatenates_S16384x64_S16384x1_S16384x63_S16384x128_d1)
          (refEmbed (F := Ideal) x U0 b0) := rfl

/-- One aggregation with its scaling, either way: the block-by-block aggregate times the reciprocal degrees, row by
    row, is the product with the transposed adjacency array divided by the degrees, when every degree is a nonzero real
    number. -/
theorem scaled_eq (adj : FVec Ideal S16384x16384 .f32) (h : FVec Ideal S16384x64 .f32)
    (hdeg : ∀ j, ∃ r : ℝ, r ≠ 0 ∧ refDeg (F := Ideal) adj j = (r : EReal)) :
    mulf (F := Ideal) (aggBlocks 64 adj h : FVec Ideal S16384x64 .f32)
        (broadcastInDim S16384x64 ![0, 1] bcast_S16384x1_S16384x64_0_1 (broadcastInDim S16384x1 ![0] bcast_S16384_S16384x1_0
      (Host.divf (F := Ideal) (broadcastInDim S16384 ![] bcast_S_S16384 (constant (F := Ideal) S_ .f32 0x3F800000#32))
        (refDeg (F := Ideal) adj))))
      = refScaled (F := Ideal) adj h := by
  rw [scale_eq (hb1' := Cert.ReferenceIdeal.Gen.bcast_S16384_S16384x1_0) (hb2' := Cert.ReferenceIdeal.Gen.bcast_S16384x1_S16384x64_0_1)
    (aggBlocks 64 adj h) (refDeg (F := Ideal) adj) hdeg]
  rw [aggBlocks_eq_aggRows, ← ref_agg (ht := Cert.ReferenceIdeal.Gen.transposes_S16384x16384_S16384x16384_1_0) adj h]
  rfl

section
variable (adj : FVec Ideal S16384x16384 .f32) (h : FVec Ideal S16384x64 .f32) (Us : FVec Ideal S3x64x64 .f32)
  (hdeg : ∀ j, ∃ r : ℝ, r ≠ 0 ∧ refDeg (F := Ideal) adj j = (r : EReal))
include hdeg

/-- The second layer of either computation, from the same features. -/
theorem layer1_bridge :
    layer1 (F := Ideal) (aggBlocks 64 adj h) (broadcastInDim S16384x1 ![0] bcast_S16384_S16384x1_0
      (Host.divf (F := Ideal) (broadcastInDim S16384 ![] bcast_S_S16384 (constant (F := Ideal) S_ .f32 0x3F800000#32))
        (refDeg (F := Ideal) adj))) Us = refApplyW1 (F := Ideal) (refScaled (F := Ideal) adj h) Us := by
  rw [layer1_eq, scaled_eq adj h hdeg]
  rfl

/-- The third layer of either computation, from the same features. -/
theorem layer2_bridge :
    layer2 (F := Ideal) (aggBlocks 64 adj h) (broadcastInDim S16384x1 ![0] bcast_S16384_S16384x1_0
      (Host.divf (F := Ideal) (broadcastInDim S16384 ![] bcast_S_S16384 (constant (F := Ideal) S_ .f32 0x3F800000#32))
        (refDeg (F := Ideal) adj))) Us = refApplyW2 (F := Ideal) (refScaled (F := Ideal) adj h) Us := by
  rw [layer2_eq, scaled_eq adj h hdeg]
  rfl

end

/-- Under the precondition the block-by-block computation and the reference computation give the same scalar. -/
theorem bridge [Cert.Pre_finite_inputs.Facts] (x : FVec Ideal S1x16384x64 .f32) (adj : FVec Ideal S16384x16384 .f32) (U0 : FVec Ideal S64x64 .f32) (b0 : FVec Ideal S64 .f32)
    (Us : FVec Ideal S3x64x64 .f32) (Q : FVec Ideal S64x64 .f32) (P' : FVec Ideal S1x64 .f32)
    (hpre : Cert.Pre_finite_inputs.fn (F := Ideal) x adj U0 b0 Us Q P' = fun _ => 1#1) :
    kernelOut x adj U0 b0 Us Q P' = refOut (F := Ideal) x adj U0 b0 Us Q P' := by
  have hdeg : ∀ j, ∃ r : ℝ, r ≠ 0 ∧ refDeg (F := Ideal) adj j = (r : EReal) :=
    deg_real_ne_zero (hr := Cert.ReferenceIdeal.Gen.reducesTo_S16384x16384_S16384_d0) (hS := Cert.ReferenceIdeal.Gen.h_S_) x adj U0 b0 Us Q P' hpre
  -- the reciprocal degrees read off the ones column are the reciprocals of the column sums
  have ed : invDeg (F := Ideal) (aggBlocks 128 adj (augIn (F := Ideal) x U0 b0)) = (broadcastInDim S16384x1 ![0] bcast_S16384_S16384x1_0
      (Host.divf (F := Ideal) (broadcastInDim S16384 ![] bcast_S_S16384 (constant (F := Ideal) S_ .f32 0x3F800000#32))
        (refDeg (F := Ideal) adj))) := by
    unfold invDeg
    rw [augIn_eq_aug, aug_deg (hr := Cert.ReferenceIdeal.Gen.reducesTo_S16384x16384_S16384_d0) (hS := Cert.ReferenceIdeal.Gen.h_S_) adj _]
    rfl
  -- the first layer: the first 64 columns of the widened aggregate are the embedded input's aggregate
  have e0 : layer0 (F := Ideal) (aggBlocks 128 adj (augIn (F := Ideal) x U0 b0)) Us
      = refApplyW0 (F := Ideal) (refScaled (F := Ideal) adj (refEmbed (F := Ideal) x U0 b0)) Us := by
    rw [layer0_eq, ed, augIn_eq_aug, aug_cols, scaled_eq adj _ hdeg]
    rfl
  unfold kernelOut refOut
  rw [e0, ed, layer1_bridge adj _ Us hdeg, layer2_bridge adj _ Us hdeg]
  rfl

end Cert.Gcn

end
-- ==== Proof.Final.lean ====
/-
  The claims about the three-layer dense graph convolution, assembled. The block-by-block program runs to the end
  with every buffer at a known contents; following its result buffer back through the stretches of host arithmetic
  and the three aggregation passes — each pass leaving in its result array the block-by-block aggregate of its two
  inputs, the first also a copy of the adjacency array — the result is one term of the seven arguments. That term
  equals the reference computation's under the precondition (every degree a nonzero real number), the reference
  program runs to its own term, and the two programs start from the same arguments: so they end with the same
  scalar, and both leave their arguments as they found them.
-/
import proofs.«155212_j57251914056250_2_alg».proof.Defs
import proofs.«155212_j57251914056250_2_alg».proof.Proof.AggKept
import proofs.«155212_j57251914056250_2_alg».proof.Proof.HostRead
import proofs.«155212_j57251914056250_2_alg».proof.Proof.Bridge
import proofs.«155212_j57251914056250_2_alg».proof.Proof.Gen.Pre_finite_inputs
import proofs.«155212_j57251914056250_2_alg».proof.Proof.Gen.Kernel
import proofs.«155212_j57251914056250_2_alg».proof.Proof.Gen.ReferenceIdeal.Run

noncomputable section

namespace Cert.Gcn

open Cert.KernelIdeal Cert.KernelIdeal.Gen Cert.KernelIdeal.HostRead Cert.KernelIdeal.AggRun
open Idealize.ShloMosaic Idealize.ShloMosaic.TcCoe Idealize.SL.Sem

/-! ## The block-by-block program's result as a term of its arguments -/

section KernelOut

variable (m : (ℓ : Loc nD τ sig) → Buf (Elt Ideal) ℓ) (ρ : Dev nD → PrngReg)
/- What each aggregation pass leaves in its result arrays: the first pass the aggregate of the adjacency argument
   against the widened input and a copy of the adjacency argument, the other two the aggregate of that copy against
   the previous layer. -/
variable
  (hv0 : ∀ (V : (c : Dev nD) → (b : Ref sig .tc) → Buf (Elt Ideal) ((c : Thread nD τ).loc b)) (c : Dev nD),
    (Agg0.dat V c).arrAt 2 cfg0.N = aggBlocks 128 (V c (Pipeline.arrRef spec0 0)) (V c (Pipeline.arrRef spec0 1)))
  (hc0 : ∀ (V : (c : Dev nD) → (b : Ref sig .tc) → Buf (Elt Ideal) ((c : Thread nD τ).loc b)) (c : Dev nD),
    (Agg0.dat V c).arrAt 3 cfg0.N = V c (Pipeline.arrRef spec0 0))
  (hv1 : ∀ (V : (c : Dev nD) → (b : Ref sig .tc) → Buf (Elt Ideal) ((c : Thread nD τ).loc b)) (c : Dev nD),
    (Agg1.dat V c).arrAt 2 cfg1.N = aggBlocks 64 (V c (Pipeline.arrRef spec1 0)) (V c (Pipeline.arrRef spec1 1)))
  (hv2 : ∀ (V : (c : Dev nD) → (b : Ref sig .tc) → Buf (Elt Ideal) ((c : Thread nD τ).loc b)) (c : Dev nD),
    (Agg2.dat V c).arrAt 2 cfg2.N = aggBlocks 64 (V c (Pipeline.arrRef spec2 0)) (V c (Pipeline.arrRef spec2 1)))
include hv0 hc0 hv1 hv2

/-- At the return the result buffer holds the block-by-block computation of the seven arguments. -/
theorem kernel_out (c : Dev nD) :
    W13 m ρ c (Proc.devRef .tc main_v45) = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  -- the arguments where the first stretch and the first pass read them
  have a1_1 : W1 m ρ c (Proc.devRef .tc main_arg1) = (m ((c : Thread nD τ).loc main_arg1)) := (W1_of m ρ c main_arg1 (by decide)).trans rfl
  have a4_2 : W2 m ρ c (Proc.devRef .tc main_arg4) = (m ((c : Thread nD τ).loc main_arg4)) :=
    (W2_of_ne m ρ c main_arg4 (by decide)).trans ((W1_of m ρ c main_arg4 (by decide)).trans rfl)
  -- the first pass: the widened input aggregated, and the adjacency copy
  have e7 : W1 m ρ c (Proc.devRef .tc main_v7) = augIn (F := Ideal) (m ((c : Thread nD τ).loc main_arg0)) (m ((c : Thread nD τ).loc main_arg2)) (m ((c : Thread nD τ).loc main_arg3)) :=
    read_v7 (W0 m ρ c)
  have eA0 : W2 m ρ c (Proc.devRef .tc main_v8_0) = (aggBlocks 128 (m ((c : Thread nD τ).loc main_arg1)) (augIn (F := Ideal) (m ((c : Thread nD τ).loc main_arg0)) (m ((c : Thread nD τ).loc main_arg2)) (m ((c : Thread nD τ).loc main_arg3)))) := by
    refine (W2_arr m ρ c 2).trans ((hv0 (V1 m ρ) c).trans ?_)
    show aggBlocks 128 (W1 m ρ c (Proc.devRef .tc main_arg1)) (W1 m ρ c (Proc.devRef .tc main_v7)) = _
    rw [a1_1, e7]
  have eC0 : W2 m ρ c (Proc.devRef .tc main_v8_1) = (m ((c : Thread nD τ).loc main_arg1)) :=
    (W2_arr m ρ c 3).trans ((hc0 (V1 m ρ) c).trans a1_1)
  -- the reciprocal degrees and the first layer
  have e14 : W4 m ρ c (Proc.devRef .tc main_v14) = (invDeg (F := Ideal) (aggBlocks 128 (m ((c : Thread nD τ).loc main_arg1)) (augIn (F := Ideal) (m ((c : Thread nD τ).loc main_arg0)) (m ((c : Thread nD τ).loc main_arg2)) (m ((c : Thread nD τ).loc main_arg3))))) := (read_v14 (W2 m ρ c)).trans (congrArg (invDeg (F := Ideal)) eA0)
  have e21 : W4 m ρ c (Proc.devRef .tc main_v21) = (layer0 (F := Ideal) (aggBlocks 128 (m ((c : Thread nD τ).loc main_arg1)) (augIn (F := Ideal) (m ((c : Thread nD τ).loc main_arg0)) (m ((c : Thread nD τ).loc main_arg2)) (m ((c : Thread nD τ).loc main_arg3)))) (m ((c : Thread nD τ).loc main_arg4))) := (read_v21 (W2 m ρ c)).trans (by rw [eA0, a4_2])
  have eC4 : W4 m ρ c (Proc.devRef .tc main_v8_1) = (m ((c : Thread nD τ).loc main_arg1)) :=
    (W4_of m ρ c main_v8_1 (by decide)).trans ((W3_of m ρ c main_v8_1 (by decide)).trans eC0)
  have a4_4 : W4 m ρ c (Proc.devRef .tc main_arg4) = (m ((c : Thread nD τ).loc main_arg4)) :=
    (W4_of m ρ c main_arg4 (by decide)).trans ((W3_of m ρ c main_arg4 (by decide)).trans a4_2)
  -- the second pass
  have eA1 : W5 m ρ c (Proc.devRef .tc main_v22) = (aggBlocks 64 (m ((c : Thread nD τ).loc main_arg1)) (layer0 (F := Ideal) (aggBlocks 128 (m ((c : Thread nD τ).loc main_arg1)) (augIn (F := Ideal) (m ((c : Thread nD τ).loc main_arg0)) (m ((c : Thread nD τ).loc main_arg2)) (m ((c : Thread nD τ).loc main_arg3)))) (m ((c : Thread nD τ).loc main_arg4)))) := by
    refine (W5_arr m ρ c 2).trans ((hv1 (V4 m ρ) c).trans ?_)
    show aggBlocks 64 (W4 m ρ c (Proc.devRef .tc main_v8_1)) (W4 m ρ c (Proc.devRef .tc main_v21)) = _
    rw [eC4, e21]
  have e14_5 : W5 m ρ c (Proc.devRef .tc main_v14) = (invDeg (F := Ideal) (aggBlocks 128 (m ((c : Thread nD τ).loc main_arg1)) (augIn (F := Ideal) (m ((c : Thread nD τ).loc main_arg0)) (m ((c : Thread nD τ).loc main_arg2)) (m ((c : Thread nD τ).loc main_arg3))))) := (W5_of_ne m ρ c main_v14 (by decide)).trans e14
  have a4_5 : W5 m ρ c (Proc.devRef .tc main_arg4) = (m ((c : Thread nD τ).loc main_arg4)) := (W5_of_ne m ρ c main_arg4 (by decide)).trans a4_4
  have eC5 : W5 m ρ c (Proc.devRef .tc main_v8_1) = (m ((c : Thread nD τ).loc main_arg1)) := (W5_in m ρ c 0 rfl).trans eC4
  -- the second layer
  have e29 : W7 m ρ c (Proc.devRef .tc main_v29) = (layer1 (F := Ideal) (aggBlocks 64 (m ((c : Thread nD τ).loc main_arg1)) (layer0 (F := Ideal) (aggBlocks 128 (m ((c : Thread nD τ).loc main_arg1)) (augIn (F := Ideal) (m ((c : Thread nD τ).loc main_arg0)) (m ((c : Thread nD τ).loc main_arg2)) (m ((c : Thread nD τ).loc main_arg3)))) (m ((c : Thread nD τ).loc main_arg4)))) (invDeg (F := Ideal) (aggBlocks 128 (m ((c : Thread nD τ).loc main_arg1)) (augIn (F := Ideal) (m ((c : Thread nD τ).loc main_arg0)) (m ((c : Thread nD τ).loc main_arg2)) (m ((c : Thread nD τ).loc main_arg3))))) (m ((c : Thread nD τ).loc main_arg4))) := (read_v29 (W5 m ρ c)).trans (by rw [eA1, e14_5, a4_5])
  have eC7 : W7 m ρ c (Proc.devRef .tc main_v8_1) = (m ((c : Thread nD τ).loc main_arg1)) :=
    (W7_of m ρ c main_v8_1 (by decide)).trans ((W6_of m ρ c main_v8_1 (by decide)).trans eC5)
  have e14_7 : W7 m ρ c (Proc.devRef .tc main_v14) = (invDeg (F := Ideal) (aggBlocks 128 (m ((c : Thread nD τ).loc main_arg1)) (augIn (F := Ideal) (m ((c : Thread nD τ).loc main_arg0)) (m ((c : Thread nD τ).loc main_arg2)) (m ((c : Thread nD τ).loc main_arg3))))) :=
    (W7_of m ρ c main_v14 (by decide)).trans ((W6_of m ρ c main_v14 (by decide)).trans e14_5)
  have a4_7 : W7 m ρ c (Proc.devRef .tc main_arg4) = (m ((c : Thread nD τ).loc main_arg4)) :=
    (W7_of m ρ c main_arg4 (by decide)).trans ((W6_of m ρ c main_arg4 (by decide)).trans a4_5)
  -- the third pass
  have eA2 : W8 m ρ c (Proc.devRef .tc main_v30) = (aggBlocks 64 (m ((c : Thread nD τ).loc main_arg1)) (layer1 (F := Ideal) (aggBlocks 64 (m ((c : Thread nD τ).loc main_arg1)) (layer0 (F := Ideal) (aggBlocks 128 (m ((c : Thread nD τ).loc main_arg1)) (augIn (F := Ideal) (m ((c : Thread nD τ).loc main_arg0)) (m ((c : Thread nD τ).loc main_arg2)) (m ((c : Thread nD τ).loc main_arg3)))) (m ((c : Thread nD τ).loc main_arg4)))) (invDeg (F := Ideal) (aggBlocks 128 (m ((c : Thread nD τ).loc main_arg1)) (augIn (F := Ideal) (m ((c : Thread nD τ).loc main_arg0)) (m ((c : Thread nD τ).loc main_arg2)) (m ((c : Thread nD τ).loc main_arg3))))) (m ((c : Thread nD τ).loc main_arg4)))) := by
    refine (W8_arr m ρ c 2).trans ((hv2 (V7 m ρ) c).trans ?_)
    show aggBlocks 64 (W7 m ρ c (Proc.devRef .tc main_v8_1)) (W7 m ρ c (Proc.devRef .tc main_v29)) = _
    rw [eC7, e29]
  have e14_8 : W8 m ρ c (Proc.devRef .tc main_v14) = (invDeg (F := Ideal) (aggBlocks 128 (m ((c : Thread nD τ).loc main_arg1)) (augIn (F := Ideal) (m ((c : Thread nD τ).loc main_arg0)) (m ((c : Thread nD τ).loc main_arg2)) (m ((c : Thread nD τ).loc main_arg3))))) := (W8_of_ne m ρ c main_v14 (by decide)).trans e14_7
  have a4_8 : W8 m ρ c (Proc.devRef .tc main_arg4) = (m ((c : Thread nD τ).loc main_arg4)) := (W8_of_ne m ρ c main_arg4 (by decide)).trans a4_7
  -- the third layer
  have e37 : W10 m ρ c (Proc.devRef .tc main_v37) = (layer2 (F := Ideal) (aggBlocks 64 (m ((c : Thread nD τ).loc main_arg1)) (layer1 (F := Ideal) (aggBlocks 64 (m ((c : Thread nD τ).loc main_arg1)) (layer0 (F := Ideal) (aggBlocks 128 (m ((c : Thread nD τ).loc main_arg1)) (augIn (F := Ideal) (m ((c : Thread nD τ).loc main_arg0)) (m ((c : Thread nD τ).loc main_arg2)) (m ((c : Thread nD τ).loc main_arg3)))) (m ((c : Thread nD τ).loc main_arg4)))) (invDeg (F := Ideal) (aggBlocks 128 (m ((c : Thread nD τ).loc main_arg1)) (augIn (F := Ideal) (m ((c : Thread nD τ).loc main_arg0)) (m ((c : Thread nD τ).loc main_arg2)) (m ((c : Thread nD τ).loc main_arg3))))) (m ((c : Thread nD τ).loc main_arg4)))) (invDeg (F := Ideal) (aggBlocks 128 (m ((c : Thread nD τ).loc main_arg1)) (augIn (F := Ideal) (m ((c : Thread nD τ).loc main_arg0)) (m ((c : Thread nD τ).loc main_arg2)) (m ((c : Thread nD τ).loc main_arg3))))) (m ((c : Thread nD τ).loc main_arg4))) := (read_v37 (W8 m ρ c)).trans (by rw [eA2, e14_8, a4_8])
  -- the readout matrices are arguments: what they hold at the return they held when read
  have a5_10 : W10 m ρ c (Proc.devRef .tc main_arg5) = (m ((c : Thread nD τ).loc main_arg5)) :=
    ((W13_of m ρ c main_arg5 (by decide)).trans ((W12_of m ρ c main_arg5 (by decide)).trans (W11_of m ρ c main_arg5 (by decide)))).symm.trans
      (kept_arg5 m ρ c)
  have a6_10 : W10 m ρ c (Proc.devRef .tc main_arg6) = (m ((c : Thread nD τ).loc main_arg6)) :=
    ((W13_of m ρ c main_arg6 (by decide)).trans ((W12_of m ρ c main_arg6 (by decide)).trans (W11_of m ρ c main_arg6 (by decide)))).symm.trans
      (kept_arg6 m ρ c)
  refine (read_v45 (W10 m ρ c)).trans ?_
  rw [e37, a5_10, a6_10]
  rfl

end KernelOut

/-! ## The claims -/

/-- The block-by-block program at the ideal values runs and leaves its arguments unchanged. -/
theorem frame_KernelIdeal_holds :
    Cert.frame_KernelIdeal (hKernelIdeal := Cert.KernelIdeal.Gen.facts) (hPre_finite_inputs := Cert.Pre_finite_inputs.Gen.facts) :=
  fun m g _ => frame_all (F := Ideal) m g

/-- The reference program runs and leaves its arguments unchanged. -/
theorem frame_ReferenceIdeal_holds :
    Cert.frame_ReferenceIdeal (hReferenceIdeal := Cert.ReferenceIdeal.Gen.facts) (hPre_finite_inputs := Cert.Pre_finite_inputs.Gen.facts) :=
  fun m g _ => (θ_run (Cert.ReferenceIdeal.defs (F := Ideal)) _ _).mono (fun r h c => (h c).2) (Cert.ReferenceIdeal.Value.run (F := Ideal) m g)

/-- From memories agreeing on the seven arguments, of which the precondition holds, the reference computation of the
    one memory's arguments is the block-by-block computation of the other's. -/
theorem ref_out (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    refOut (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  obtain ⟨h0, h1, h2, h3, h4, h5, h6⟩ := hagree c
  rw [h0, h1, h2, h3, h4, h5, h6]
  exact (bridge _ _ _ _ _ _ _ (hpre c)).symm

/-- The two programs, from memories agreeing on the arguments of which the precondition holds, both run, end with
    the same scalar, and leave their arguments unchanged — given what each aggregation pass leaves in its result
    arrays. -/
theorem algebraic_holds
    (hv0 : ∀ (V : (c : Dev nD) → (b : Ref sig .tc) → Buf (Elt Ideal) ((c : Thread nD τ).loc b)) (c : Dev nD),
      (Agg0.dat V c).arrAt 2 cfg0.N = aggBlocks 128 (V c (Pipeline.arrRef spec0 0)) (V c (Pipeline.arrRef spec0 1)))
    (hc0 : ∀ (V : (c : Dev nD) → (b : Ref sig .tc) → Buf (Elt Ideal) ((c : Thread nD τ).loc b)) (c : Dev nD),
      (Agg0.dat V c).arrAt 3 cfg0.N = V c (Pipeline.arrRef spec0 0))
    (hv1 : ∀ (V : (c : Dev nD) → (b : Ref sig .tc) → Buf (Elt Ideal) ((c : Thread nD τ).loc b)) (c : Dev nD),
      (Agg1.dat V c).arrAt 2 cfg1.N = aggBlocks 64 (V c (Pipeline.arrRef spec1 0)) (V c (Pipeline.arrRef spec1 1)))
    (hv2 : ∀ (V : (c : Dev nD) → (b : Ref sig .tc) → Buf (Elt Ideal) ((c : Thread nD τ).loc b)) (c : Dev nD),
      (Agg2.dat V c).arrAt 2 cfg2.N = aggBlocks 64 (V c (Pipeline.arrRef spec2 0)) (V c (Pipeline.arrRef spec2 1))) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) :=
  fun m g m' g' hpre hagree =>
    ⟨fun c => kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
      (θ_run (Cert.KernelIdeal.defs (F := Ideal)) _ _).mono (fun r h c =>
        ⟨(h c _ (mem_uc main_v45 (by decide))).trans (kernel_out m g hv0 hc0 hv1 hv2 c),
         (h c _ (mem_uc main_arg0 (by decide))).trans (kept_arg0 m g c),
         (h c _ (mem_uc main_arg1 (by decide))).trans (kept_arg1 m g c),
         (h c _ (mem_uc main_arg2 (by decide))).trans (kept_arg2 m g c),
         (h c _ (mem_uc main_arg3 (by decide))).trans (kept_arg3 m g c),
         (h c _ (mem_uc main_arg4 (by decide))).trans (kept_arg4 m g c),
         (h c _ (mem_uc main_arg5 (by decide))).trans (kept_arg5 m g c),
         (h c _ (mem_uc main_arg6 (by decide))).trans (kept_arg6 m g c)⟩) (run_all (F := Ideal) m g),
      (θ_run (Cert.ReferenceIdeal.defs (F := Ideal)) _ _).mono (fun r h c =>
        ⟨(h c).1.trans ((refOut_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).symm.trans (ref_out m m' hpre hagree c)),
         (h c).2⟩) (Cert.ReferenceIdeal.Value.run (F := Ideal) m' g')⟩

/-- Everything claimed, given what each aggregation pass leaves in its result arrays and that the program as
    compiled, at the machine's own floats, runs and leaves its arguments unchanged. -/
theorem claim_of
    (hv0 : ∀ (V : (c : Dev nD) → (b : Ref sig .tc) → Buf (Elt Ideal) ((c : Thread nD τ).loc b)) (c : Dev nD),
      (Agg0.dat V c).arrAt 2 cfg0.N = aggBlocks 128 (V c (Pipeline.arrRef spec0 0)) (V c (Pipeline.arrRef spec0 1)))
    (hc0 : ∀ (V : (c : Dev nD) → (b : Ref sig .tc) → Buf (Elt Ideal) ((c : Thread nD τ).loc b)) (c : Dev nD),
      (Agg0.dat V c).arrAt 3 cfg0.N = V c (Pipeline.arrRef spec0 0))
    (hv1 : ∀ (V : (c : Dev nD) → (b : Ref sig .tc) → Buf (Elt Ideal) ((c : Thread nD τ).loc b)) (c : Dev nD),
      (Agg1.dat V c).arrAt 2 cfg1.N = aggBlocks 64 (V c (Pipeline.arrRef spec1 0)) (V c (Pipeline.arrRef spec1 1)))
    (hv2 : ∀ (V : (c : Dev nD) → (b : Ref sig .tc) → Buf (Elt Ideal) ((c : Thread nD τ).loc b)) (c : Dev nD),
      (Agg2.dat V c).arrAt 2 cfg2.N = aggBlocks 64 (V c (Pipeline.arrRef spec2 0)) (V c (Pipeline.arrRef spec2 1)))
    (hframe : Cert.frame_Kernel (hKernel := Cert.Kernel.Gen.facts) (hPre_finite_inputs := Cert.Pre_finite_inputs.Gen.facts)) :
    Cert.Claim :=
  ⟨Cert.Kernel.Gen.facts, Cert.KernelIdeal.Gen.facts, Cert.ReferenceIdeal.Gen.facts, Cert.Pre_finite_inputs.Gen.facts,
    hframe, frame_KernelIdeal_holds, frame_ReferenceIdeal_holds, trivial, algebraic_holds hv0 hc0 hv1 hv2⟩

end Cert.Gcn

end
-- ==== Proof.Agg0Pieces.lean ====
/-
  What each case of the first aggregation pass's body leaves, as values. At a reduction step the body reads 1024 rows
  of the 128-wide features (from row `1024 · step`), the whole 1024 × 2048 adjacency block and the 2048 × 128
  accumulator; it stores the block, narrowed, into the second output's buffer, and stores into the accumulator the
  accumulator plus the product of the transposed narrowed block with those rows. At a tile's first step the
  accumulator it reads is the zero array it has just stored; at a tile's last step the aggregate's block receives a
  copy of what the accumulator then holds. So in all three cases the accumulator ends at the body's one stored value,
  a function of the rows read, the block, and the accumulator before (the zero array at a first step), and the
  narrowed block's buffer ends at the narrowing of the block.
-/
import proofs.«155212_j57251914056250_2_alg».proof.Proof.Agg0Frame
import Idealize.ShloMosaic.Lib.Pipeline.Value
import Idealize.ShloMosaic.Lib.Tactic

set_option maxRecDepth 16384

noncomputable section

namespace Cert.KernelIdeal.Agg0

open Cert.KernelIdeal Cert.KernelIdeal.Gen
open Idealize.ShloMosaic Idealize.ShloMosaic.TcCoe Idealize.ShloMosaic.Tactic
open Idealize.SL.Sem

variable {F : FTy → Type} [FloatOps F]

/-- The zero offsets of a rank-2 rectangle. -/
theorem hz : (![0, 0] : Fin 2 → Nat) = fun _ => 0 := funext fun a => by fin_cases a <;> rfl

/-- The 1024 rows of the features a step reads: from the row offset of the step, all 128 columns. -/
abbrev stepRows (i : grid0.Coords) (x1 : Vec F S16384x128 .f32) : Vec F S1024x128 .f32 :=
  View.ld x1 (Rect.unit (s := S16384x128) (k0_off1 i) S1024x128.size (k0_off1_inb i))

/-! ## The accumulator -/

/-- A tile's first step: the accumulator is cleared, read back, and takes the step's product. -/
theorem accFirst_eq (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : condFirst i) (hc1 : ¬condLast i)
    (x0 : Vec F S1024x2048 .f32) (x1 : Vec F S16384x128 .f32) :
    accFirst c i arg2 harg2 arg3 harg3 arg4 harg4 arg5 harg5 arg6 harg6 hc0 hc1 x0 x1 = k0_pay3 (stepRows i x1) x0 k0_pay1 := by
  unfold accFirst
  rw [View.read_writes_eq_canon _ _ _ (accCover_first c i arg2 harg2 arg3 harg3 arg4 harg4 arg5 harg5 arg6 harg6 hc0 hc1 x0 x1)]
  unfold runFirst
  dsimp only
  sl_unfold_words
  rw [View.canon_cons_unit_zero (S := S2048x128) hz]
  simp only [View.readAt_eq_ld, harg2.read_unread, harg3.read_unread, View.ld_unit_zero (S := S1024x2048) hz]
  rw [View.readCov_unit_zero (S := S2048x128) _ hz]
  rfl

/-- A middle step: the accumulator takes the step's product on top of what it held. -/
theorem accMiddle_eq (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : ¬condLast i)
    (x0 : Vec F S1024x2048 .f32) (x1 : Vec F S16384x128 .f32) (xs : Vec F S2048x128 .f32) :
    accMiddle c i arg2 harg2 arg3 harg3 arg4 harg4 arg5 harg5 arg6 harg6 hc0 hc1 x0 x1 xs = k0_pay3 (stepRows i x1) x0 xs := by
  unfold accMiddle
  rw [View.read_writes_eq_canon _ _ _ (accCover_middle c i arg2 harg2 arg3 harg3 arg4 harg4 arg5 harg5 arg6 harg6 hc0 hc1 x0 x1 xs)]
  unfold runMiddle
  dsimp only
  sl_unfold_words
  rw [View.canon_unit_zero (S := S2048x128) hz]
  simp only [View.readAt_eq_ld, harg2.read_unread, harg3.read_unread, harg6.read_unread,
    View.ld_unit_zero (S := S1024x2048) hz, View.ld_unit_zero (S := S2048x128) hz]
  rfl

/-- A tile's last step leaves the same in the accumulator … -/
theorem accLast_eq (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : condLast i)
    (x0 : Vec F S1024x2048 .f32) (x1 : Vec F S16384x128 .f32) (xs : Vec F S2048x128 .f32) :
    accLast c i arg2 harg2 arg3 harg3 arg4 harg4 arg5 harg5 arg6 harg6 hc0 hc1 x0 x1 xs = k0_pay3 (stepRows i x1) x0 xs := by
  unfold accLast
  rw [View.read_writes_eq_canon _ _ _ (accCover_last c i arg2 harg2 arg3 harg3 arg4 harg4 arg5 harg5 arg6 harg6 hc0 hc1 x0 x1 xs)]
  unfold runLast
  dsimp only
  sl_unfold_words
  rw [View.canon_unit_zero (S := S2048x128) hz]
  simp only [View.readAt_eq_ld, harg2.read_unread, harg3.read_unread, harg6.read_unread,
    View.ld_unit_zero (S := S1024x2048) hz, View.ld_unit_zero (S := S2048x128) hz]
  rfl

/-- … and copies it to the aggregate's block. -/
theorem outLast_eq (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : condLast i)
    (x0 : Vec F S1024x2048 .f32) (x1 : Vec F S16384x128 .f32) (xs : Vec F S2048x128 .f32) :
    outLast c i arg2 harg2 arg3 harg3 arg4 harg4 arg5 harg5 arg6 harg6 hc0 hc1 x0 x1 xs = k0_pay3 (stepRows i x1) x0 xs := by
  unfold outLast
  rw [View.read_writes_eq_canon _ _ _ (outCover_last c i arg2 harg2 arg3 harg3 arg4 harg4 arg5 harg5 arg6 harg6 hc0 hc1 x0 x1 xs)]
  unfold runLast
  dsimp only
  sl_unfold_words
  rw [View.canon_unit_zero (S := S2048x128) hz, View.readCov_unit_zero (S := S2048x128) _ hz]
  simp only [View.readAt_eq_ld, harg2.read_unread, harg3.read_unread, harg6.read_unread,
    View.ld_unit_zero (S := S1024x2048) hz, View.ld_unit_zero (S := S2048x128) hz]
  rfl

/-! ## The narrowed block -/

/-- At every step the second output's buffer ends at the narrowing of the adjacency block. -/
theorem castFirst_eq (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : condFirst i) (hc1 : ¬condLast i)
    (x0 : Vec F S1024x2048 .f32) (x1 : Vec F S16384x128 .f32) :
    castFirst c i arg2 harg2 arg3 harg3 arg4 harg4 arg5 harg5 arg6 harg6 hc0 hc1 x0 x1 = k0_pay2 x0 := by
  unfold castFirst
  rw [View.read_writes_eq_canon _ _ _ (castCover_first c i arg2 harg2 arg3 harg3 arg4 harg4 arg5 harg5 arg6 harg6 hc0 hc1 x0 x1)]
  unfold runFirst
  dsimp only
  sl_unfold_words
  rw [View.canon_unit_zero (S := S1024x2048) hz]
  simp only [View.readAt_eq_ld, harg2.read_unread, View.ld_unit_zero (S := S1024x2048) hz]

theorem castMiddle_eq (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : ¬condLast i)
    (x0 : Vec F S1024x2048 .f32) (x1 : Vec F S16384x128 .f32) (xs : Vec F S2048x128 .f32) :
    castMiddle c i arg2 harg2 arg3 harg3 arg4 harg4 arg5 harg5 arg6 harg6 hc0 hc1 x0 x1 xs = k0_pay2 x0 := by
  unfold castMiddle
  rw [View.read_writes_eq_canon _ _ _ (castCover_middle c i arg2 harg2 arg3 harg3 arg4 harg4 arg5 harg5 arg6 harg6 hc0 hc1 x0 x1 xs)]
  unfold runMiddle
  dsimp only
  sl_unfold_words
  rw [View.canon_unit_zero (S := S1024x2048) hz]
  simp only [View.readAt_eq_ld, harg2.read_unread, View.ld_unit_zero (S := S1024x2048) hz]

theorem castLast_eq (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : condLast i)
    (x0 : Vec F S1024x2048 .f32) (x1 : Vec F S16384x128 .f32) (xs : Vec F S2048x128 .f32) :
    castLast c i arg2 harg2 arg3 harg3 arg4 harg4 arg5 harg5 arg6 harg6 hc0 hc1 x0 x1 xs = k0_pay2 x0 := by
  unfold castLast
  rw [View.read_writes_eq_canon _ _ _ (castCover_last c i arg2 harg2 arg3 harg3 arg4 harg4 arg5 harg5 arg6 harg6 hc0 hc1 x0 x1 xs)]
  unfold runLast
  dsimp only
  sl_unfold_words
  rw [View.canon_unit_zero (S := S1024x2048) hz]
  simp only [View.readAt_eq_ld, harg2.read_unread, View.ld_unit_zero (S := S1024x2048) hz]

end Cert.KernelIdeal.Agg0

end
-- ==== Proof.Agg0Cast.lean ====
/-
  The narrowed adjacency array the first aggregation pass leaves. At every grid point the body stores the narrowing
  of the point's 1024 × 2048 adjacency block into the second output's buffer, and the block is written back at every
  point to the same block position of the second output's array; the 128 positions tile the 16384 × 16384 array. At
  the ideal values the narrowing is the identity, so the second output ends as the adjacency array itself.
-/
import proofs.«155212_j57251914056250_2_alg».proof.Proof.Agg0Pieces
import Idealize.ShloMosaic.Lib.Pipeline.Value
import Idealize.ShloMosaic.PureOps.Ideal
import Idealize.ShloMosaic.PureOps.Ideal.Laws

set_option maxRecDepth 16384

noncomputable section

namespace Cert.KernelIdeal.Agg0

open Cert.KernelIdeal Cert.KernelIdeal.Gen
open Idealize.ShloMosaic Idealize.ShloMosaic.TcCoe Idealize.ShloMosaic.Tactic
open Idealize.SL.Sem
open Idealize.ShloMosaic.Pipeline (Dat)

/-- The printed index maps over the grid's 128 points, point `t = 16 · tile + step`: the adjacency block and its
    narrowed copy sit at block row `step`, block column `tile`; the aggregate's block at block row `tile`. -/
theorem idx_facts : ∀ t : Fin cfg0.N, win0_0.index t (0 : Fin 2) = t.val % 16 ∧ win0_0.index t (1 : Fin 2) = t.val / 16
    ∧ win0_3.index t (0 : Fin 2) = t.val % 16 ∧ win0_3.index t (1 : Fin 2) = t.val / 16
    ∧ win0_2.index t (0 : Fin 2) = t.val / 16 ∧ win0_2.index t (1 : Fin 2) = 0
    ∧ win0_1.index t (0 : Fin 2) = 0 ∧ win0_1.index t (1 : Fin 2) = 0 :=
  (by decide +kernel : ∀ t : Fin grid0.N, _)

section
variable {F : FTy → Type} [FloatOps F]
variable (V : (c : Dev nD) → (b : Ref sig .tc) → Buf (Elt F) ((c : Thread nD τ).loc b))

/-- After the body at any point the second output's buffer holds the narrowing of the point's adjacency block. -/
theorem cast_at (c : Dev nD) (t : Fin cfg0.N) : (outsAt V c t.val t.isLt).2.1 = k0_pay2 (iblk V c 0 t) := by
  by_cases h0 : t.val % 16 = 0
  · have h1 : ¬t.val % 16 = 15 := by omega
    rw [outsAt_first V c t h0 h1]
    dsimp only
    exact castFirst_eq (F := F) c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t)
  · by_cases h1 : t.val % 16 = 15
    · rw [outsAt_last V c t h0 h1]
      dsimp only
      exact castLast_eq (F := F) c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t)
        (outsAt V c (t.val - 1) (Nat.lt_of_le_of_lt (Nat.sub_le _ _) t.isLt)).2.2
    · rw [outsAt_middle V c t h0 h1]
      dsimp only
      exact castMiddle_eq (F := F) c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk V c 0 t) (iblk V c 1 t)
        (outsAt V c (t.val - 1) (Nat.lt_of_le_of_lt (Nat.sub_le _ _) t.isLt)).2.2

end

section
variable (V : (c : Dev nD) → (b : Ref sig .tc) → Buf (Elt Ideal) ((c : Thread nD τ).loc b))

/-- The adjacency array as the region finds it, as contents of the second output's array: at the ideal values the
    two element formats have the same values. -/
abbrev adjAs3 (c : Dev nD) : Buf (Elt Ideal) ((cfg0.win 3).arr.view.loc (c.tc : Thread nD τ)) :=
  fun i => (V c (Pipeline.arrRef spec0 0) i : EReal)

/-- What point `t` writes back into the second output is block `t` of the adjacency array. -/
theorem flushed3_eq (c : Dev nD) (t : Fin cfg0.N) :
    (dat (F := Ideal) V c).flushed 3 t = ((cfg0.win 3).blk t).view.read (Elt Ideal) (adjAs3 V c) := by
  show (cfg0.win 3).cut (grid0.coords t) ((dat (F := Ideal) V c).after 3 t) = _
  rw [after_3, cast_at]
  obtain ⟨e0, e1, e2, e3, -, -, -, -⟩ := idx_facts t
  funext j
  show V c (Pipeline.arrRef spec0 0) (((cfg0.win 0).blk t).view.emb j) = V c (Pipeline.arrRef spec0 0) (((cfg0.win 3).blk t).view.emb j)
  refine congrArg (V c (Pipeline.arrRef spec0 0)) (funext fun a => Fin.ext ?_)
  match a with
  | ⟨0, _⟩ => show win0_0.index t (0 : Fin 2) * 1024 + 1 * (j 0).val = win0_3.index t (0 : Fin 2) * 1024 + 1 * (j 0).val; omega
  | ⟨1, _⟩ => show win0_0.index t (1 : Fin 2) * 2048 + 1 * (j 1).val = win0_3.index t (1 : Fin 2) * 2048 + 1 * (j 1).val; omega

/-- An index of the array is in point `t`'s block iff each coordinate is in the block's range on its axis. -/
theorem mem_blk3 (t : Fin cfg0.N) (i : S16384x16384.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v8_1).slice (win0_3.rect t)).set ↔ _
  rw [View.set_slice_whole, Rect.mem_set_unit]
  exact Iff.rfl

/-- Every entry of the second output is in the block of the point of its block row and block column. -/
theorem cover3 (i : S16384x16384.Idx) :
    ∃ t : Fin cfg0.N, (cfg0.win 3).flush t = true ∧ i ∈ ((cfg0.win 3).blk t).view.set := by
  have hi0 : (i 0).val < 16384 := (i 0).isLt
  have hi1 : (i 1).val < 16384 := (i 1).isLt
  have hN : cfg0.N = 128 := N_0
  let t : Fin cfg0.N := ⟨16 * ((i 1).val / 2048) + (i 0).val / 1024, by rw [hN]; omega⟩
  have ht : t.val = 16 * ((i 1).val / 2048) + (i 0).val / 1024 := rfl
  obtain ⟨-, -, e2, e3, -, -, -, -⟩ := idx_facts t
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

/-- THE SECOND OUTPUT after the region is the adjacency array. -/
theorem cast0_value (c : Dev nD) :
    ((dat (F := Ideal) V c).arrAt 3 cfg0.N : S16384x16384.Idx → EReal) = V c (Pipeline.arrRef spec0 0) :=
  (dat (F := Ideal) V c).arrAt_eq_of_cover 3 (adjAs3 V c) (fun t _ => flushed3_eq V c t) cover3

end

end Cert.KernelIdeal.Agg0

end
-- ==== Proof.Agg1Pay.lean ====
/-
  The arithmetic of one grid step of the aggregation kernels, read at an index. A step takes a block of 1024 rows
  of the adjacency array (2048 of its columns) and the same 1024 rows of the features, and adds to the 2048 × D
  accumulator the product of the block transposed with the features: entry `(p, q)` becomes
  `acc[p, q] + ∑ r, adj[r, p] · h[r, q]`, the sum over the block's rows. The first step writes zeros. At the ideal
  values the casts to the narrow format are the identity and the product's own zero accumulator adds nothing, so
  these are exact identities on the extended reals.
-/
import proofs.«155212_j57251914056250_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.Gcn

open Cert.KernelIdeal Cert.KernelIdeal.Gen
open Idealize.ShloMosaic Idealize.ShloMosaic.ValueIdx Idealize.ShloMosaic.TcCoe Idealize.SL.Sem

/-- The block product's dimension numbers at width 64: axis 0 of both operands is contracted, so the left operand
    enters transposed. -/
private abbrev D64 : DotDims S1024x2048 S1024x64 S2048x64 := dot_S1024x2048_S1024x64_S2048x64_0_0_1_1_n_n

private theorem l64_0 (i : S2048x64.Idx) (k : D64.contr.Idx) :
    (D64.lhsIdx i k 0).val = (k ⟨0, by decide⟩).val := D64.lhsIdx_val_of_single rfl i k
private theorem l64_1 (i : S2048x64.Idx) (k : D64.contr.Idx) : (D64.lhsIdx i k 1).val = (i 0).val := by
  unfold DotDims.lhsIdx
  rw [dif_neg (show ¬(1 : Fin S1024x2048.rank) ∈ D64.lhsBatch by decide),
    dif_pos (show (1 : Fin S1024x2048.rank) ∈ D64.lhsNonContracting by decide)]
  rfl
private theorem r64_0 (i : S2048x64.Idx) (k : D64.contr.Idx) :
    (D64.rhsIdx i k 0).val = (k ⟨0, by decide⟩).val := D64.rhsIdx_val_of_single rfl i k
private theorem r64_1 (i : S2048x64.Idx) (k : D64.contr.Idx) : (D64.rhsIdx i k 1).val = (i 1).val := by
  unfold DotDims.rhsIdx
  rw [dif_neg (show ¬(1 : Fin S1024x64.rank) ∈ D64.rhsBatch by decide),
    dif_pos (show (1 : Fin S1024x64.rank) ∈ D64.rhsNonContracting by decide)]
  rfl

/-- The block product into a zero accumulator, at an index: entry `(p, q)` is `∑ r, lhs[r, p] · rhs[r, q]`. -/
private theorem mm64 (lhs : FVec Ideal S1024x2048 .bf16) (rhs : FVec Ideal S1024x64 .bf16) (p : Fin 2048) (q : Fin 64) :
    FloatOps.matmul D64 none lhs rhs (constant (F := Ideal) S2048x64 .f32 0x00000000#32) (ix2 p q)
      = ∑ r : Fin 1024, lhs (ix2 r p) * rhs (ix2 r q) := by
  rw [Ideal.matmul_constant_zero_apply, ← Equiv.sum_comp (contrEquiv1 D64 1024 rfl rfl).symm]
  refine Finset.sum_congr rfl fun k _ => ?_
  have hk := contrEquiv1_symm_val D64 1024 rfl rfl k
  have el : D64.lhsIdx (ix2 p q) ((contrEquiv1 D64 1024 rfl rfl).symm k) = ix2 k p := funext fun a => Fin.ext (by
    match a with
    | ⟨0, _⟩ => exact (l64_0 _ _).trans hk
    | ⟨1, _⟩ => exact l64_1 _ _)
  have er : D64.rhsIdx (ix2 p q) ((contrEquiv1 D64 1024 rfl rfl).symm k) = ix2 k q := funext fun a => Fin.ext (by
    match a with
    | ⟨0, _⟩ => exact (r64_0 _ _).trans hk
    | ⟨1, _⟩ => exact r64_1 _ _)
  rw [el, er]

/-- The block product's dimension numbers at width 128: axis 0 of both operands is contracted, so the left operand
    enters transposed. -/
private abbrev D128 : DotDims S1024x2048 S1024x128 S2048x128 := dot_S1024x2048_S1024x128_S2048x128_0_0_1_1_n_n

private theorem l128_0 (i : S2048x128.Idx) (k : D128.contr.Idx) :
    (D128.lhsIdx i k 0).val = (k ⟨0, by decide⟩).val := D128.lhsIdx_val_of_single rfl i k
private theorem l128_1 (i : S2048x128.Idx) (k : D128.contr.Idx) : (D128.lhsIdx i k 1).val = (i 0).val := by
  unfold DotDims.lhsIdx
  rw [dif_neg (show ¬(1 : Fin S1024x2048.rank) ∈ D128.lhsBatch by decide),
    dif_pos (show (1 : Fin S1024x2048.rank) ∈ D128.lhsNonContracting by decide)]
  rfl
private theorem r128_0 (i : S2048x128.Idx) (k : D128.contr.Idx) :
    (D128.rhsIdx i k 0).val = (k ⟨0, by decide⟩).val := D128.rhsIdx_val_of_single rfl i k
private theorem r128_1 (i : S2048x128.Idx) (k : D128.contr.Idx) : (D128.rhsIdx i k 1).val = (i 1).val := by
  unfold DotDims.rhsIdx
  rw [dif_neg (show ¬(1 : Fin S1024x128.rank) ∈ D128.rhsBatch by decide),
    dif_pos (show (1 : Fin S1024x128.rank) ∈ D128.rhsNonContracting by decide)]
  rfl

/-- The block product into a zero accumulator, at an index: entry `(p, q)` is `∑ r, lhs[r, p] · rhs[r, q]`. -/
private theorem mm128 (lhs : FVec Ideal S1024x2048 .bf16) (rhs : FVec Ideal S1024x128 .bf16) (p : Fin 2048) (q : Fin 128) :
    FloatOps.matmul D128 none lhs rhs (constant (F := Ideal) S2048x128 .f32 0x00000000#32) (ix2 p q)
      = ∑ r : Fin 1024, lhs (ix2 r p) * rhs (ix2 r q) := by
  rw [Ideal.matmul_constant_zero_apply, ← Equiv.sum_comp (contrEquiv1 D128 1024 rfl rfl).symm]
  refine Finset.sum_congr rfl fun k _ => ?_
  have hk := contrEquiv1_symm_val D128 1024 rfl rfl k
  have el : D128.lhsIdx (ix2 p q) ((contrEquiv1 D128 1024 rfl rfl).symm k) = ix2 k p := funext fun a => Fin.ext (by
    match a with
    | ⟨0, _⟩ => exact (l128_0 _ _).trans hk
    | ⟨1, _⟩ => exact l128_1 _ _)
  have er : D128.rhsIdx (ix2 p q) ((contrEquiv1 D128 1024 rfl rfl).symm k) = ix2 k q := funext fun a => Fin.ext (by
    match a with
    | ⟨0, _⟩ => exact (r128_0 _ _).trans hk
    | ⟨1, _⟩ => exact r128_1 _ _)
  rw [el, er]

/-! ## The 64-wide kernels (layers 1 and 2) -/

/-- The block's first write: zeros. -/
theorem pay1_apply (p : Fin 2048) (q : Fin 64) : k1_pay1 (F := Ideal) (ix2 p q) = 0 := by
  unfold k1_pay1
  simp only [shapeCast_self]
  exact Ideal.ofBits_zero_f32

/-- A block's update: the accumulator plus the block's partial sums, `acc[p, q] + ∑ r, adj[r, p] · h[r, q]` (the
    casts to the narrow format are the identity at the ideal values). -/
theorem pay2_apply (v6 : Vec Ideal S1024x64 .f32) (v9 : Vec Ideal S1024x2048 .bf16) (v11 : Vec Ideal S2048x64 .f32)
    (p : Fin 2048) (q : Fin 64) :
    k1_pay2 (F := Ideal) v6 v9 v11 (ix2 p q) = v11 (ix2 p q) + ∑ r : Fin 1024, v9 (ix2 r p) * v6 (ix2 r q) := by
  unfold k1_pay2
  simp only [shapeCast_self]
  show v11 (ix2 p q) + FloatOps.matmul D64 none v9 (truncf .bf16 v6 bitsLt_bf16_f32)
    (constant (F := Ideal) S2048x64 .f32 0x00000000#32) (ix2 p q) = _
  rw [mm64]
  rfl

/-- The block's first write: zeros. -/
theorem k2_pay1_apply (p : Fin 2048) (q : Fin 64) : k2_pay1 (F := Ideal) (ix2 p q) = 0 := by
  unfold k2_pay1
  simp only [shapeCast_self]
  exact Ideal.ofBits_zero_f32

/-- A block's update: the accumulator plus the block's partial sums, `acc[p, q] + ∑ r, adj[r, p] · h[r, q]` (the
    casts to the narrow format are the identity at the ideal values). -/
theorem k2_pay2_apply (v6 : Vec Ideal S1024x64 .f32) (v9 : Vec Ideal S1024x2048 .bf16) (v11 : Vec Ideal S2048x64 .f32)
    (p : Fin 2048) (q : Fin 64) :
    k2_pay2 (F := Ideal) v6 v9 v11 (ix2 p q) = v11 (ix2 p q) + ∑ r : Fin 1024, v9 (ix2 r p) * v6 (ix2 r q) := by
  unfold k2_pay2
  simp only [shapeCast_self]
  show v11 (ix2 p q) + FloatOps.matmul D64 none v9 (truncf .bf16 v6 bitsLt_bf16_f32)
    (constant (F := Ideal) S2048x64 .f32 0x00000000#32) (ix2 p q) = _
  rw [mm64]
  rfl

/-! ## The 128-wide kernel (layer 0: the features with the ones column) -/

/-- The block's first write: zeros. -/
theorem k0_pay1_apply (p : Fin 2048) (q : Fin 128) : k0_pay1 (F := Ideal) (ix2 p q) = 0 := by
  unfold k0_pay1
  simp only [shapeCast_self]
  exact Ideal.ofBits_zero_f32

/-- The cast of the adjacency block to the narrow format is the identity at the ideal values. -/
theorem k0_pay2_eq (v8 : Vec Ideal S1024x2048 .f32) : k0_pay2 (F := Ideal) v8 = v8 := rfl

/-- A block's update: `acc[p, q] + ∑ r, adj[r, p] · h[r, q]`. -/
theorem k0_pay3_apply (v6 : Vec Ideal S1024x128 .f32) (v8 : Vec Ideal S1024x2048 .f32) (v12 : Vec Ideal S2048x128 .f32)
    (p : Fin 2048) (q : Fin 128) :
    k0_pay3 (F := Ideal) v6 v8 v12 (ix2 p q) = v12 (ix2 p q) + ∑ r : Fin 1024, v8 (ix2 r p) * v6 (ix2 r q) := by
  unfold k0_pay3
  simp only [shapeCast_self]
  show v12 (ix2 p q) + FloatOps.matmul D128 none (k0_pay2 (F := Ideal) v8) (truncf .bf16 v6 bitsLt_bf16_f32)
    (constant (F := Ideal) S2048x128 .f32 0x00000000#32) (ix2 p q) = _
  rw [mm128]
  rfl

end Cert.Gcn

end
-- ==== Proof.Agg0Value.lean ====
/-
  The aggregate the first aggregation pass leaves. Tile `j` of the aggregate (rows `2048·j … 2048·j + 2047`, all 128
  columns) is accumulated over the tile's sixteen steps: step `b` adds, at entry `(p, q)`, the sum over the 1024 rows
  `i = 1024·b + r` of `adj[i, 2048·j + p] · h[i, q]`, on top of zero at the first step. So after step `s` the
  accumulator holds the sum of the contributions of blocks `0 … s`, and at the last step, where it is copied to the
  tile's block and written back, the sum over all sixteen blocks: the aggregate taken block by block. The eight tiles
  cover the array. Only `0 + x = x` is used of the arithmetic: no finiteness is asked.
-/
import proofs.«155212_j57251914056250_2_alg».proof.Proof.Agg0Cast
import proofs.«155212_j57251914056250_2_alg».proof.Proof.Agg1Pay
import proofs.«155212_j57251914056250_2_alg».proof.Proof.AggSpec

set_option maxRecDepth 16384

noncomputable section

namespace Cert.KernelIdeal.Agg0

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.Gcn (blockRow aggBlocks)

/-- The step's row offset into the features, over the grid's 128 points: 1024 times the step. -/
theorem off_facts : ∀ t : Fin cfg0.N, k0_off1 (grid0.coords t) (0 : Fin 2) = 1024 * (t.val % 16)
    ∧ k0_off1 (grid0.coords t) (1 : Fin 2) = 0 :=
  (by decide +kernel : ∀ t : Fin grid0.N, _)

/-! ## One step, over any blocks -/

/-- The rows a step reads: row `r` of them is row `1024·s + r` of the features. -/
theorem stepRows_apply (i : grid0.Coords) (x1 : Vec Ideal S16384x128 .f32) (s : ℕ) (hs : s < 16)
    (h0 : k0_off1 i (0 : Fin 2) = 1024 * s) (h1 : k0_off1 i (1 : Fin 2) = 0) (r : Fin 1024) (q : Fin 128) :
    stepRows i x1 (ix2 r q) = x1 (ix2 (⟨1024 * s + r.val, by omega⟩ : Fin 16384) q) := by
  show x1 ((Rect.unit (s := S16384x128) (k0_off1 i) S1024x128.size (k0_off1_inb i)).emb (ix2 r q)) = _
  refine congrArg x1 (funext fun a => Fin.ext ?_)
  match a with
  | ⟨0, _⟩ => show k0_off1 i (0 : Fin 2) + 1 * r.val = 1024 * s + r.val; omega
  | ⟨1, _⟩ => show k0_off1 i (1 : Fin 2) + 1 * q.val = q.val; omega

/-- One step at an entry: the accumulator there plus the sum over the block's rows. -/
theorem step_apply (i : grid0.Coords) (x0 : Vec Ideal S1024x2048 .f32) (x1 : Vec Ideal S16384x128 .f32)
    (acc : Vec Ideal S2048x128 .f32) (s : ℕ) (hs : s < 16)
    (h0 : k0_off1 i (0 : Fin 2) = 1024 * s) (h1 : k0_off1 i (1 : Fin 2) = 0) (p : Fin 2048) (q : Fin 128) :
    k0_pay3 (F := Ideal) (stepRows i x1) x0 acc (ix2 p q)
      = acc (ix2 p q) + ∑ r : Fin 1024, x0 (ix2 r p) * x1 (ix2 (⟨1024 * s + r.val, by omega⟩ : Fin 16384) q) := by
  refine (Cert.Gcn.k0_pay3_apply (stepRows i x1) x0 acc p q).trans ?_
  refine congrArg (acc (ix2 p q) + ·) (Finset.sum_congr rfl fun r _ => ?_)
  exact congrArg (x0 (ix2 r p) * ·) (stepRows_apply i x1 s hs h0 h1 r q)

/-! ## The blocks the windows hand the body -/

section
variable (V : (c : Dev nD) → (b : Ref sig .tc) → Buf (Elt Ideal) ((c : Thread nD τ).loc b))

/-- The adjacency array and the 128-wide features as the region finds them. -/
abbrev adjA (c : Dev nD) : S16384x16384.Idx → EReal := V c (Pipeline.arrRef spec0 0)
abbrev featA (c : Dev nD) : S16384x128.Idx → EReal := V c (Pipeline.arrRef spec0 1)

/-- The adjacency block at point `t`: entry `(r, p)` is entry `(1024·step + r, 2048·tile + p)` of the array. -/
theorem iblk0_apply (c : Dev nD) (t : Fin cfg0.N) (r : Fin 1024) (p : Fin 2048) :
    (iblk V c 0 t : Vec Ideal S1024x2048 .f32) (ix2 r p)
      = adjA V c (ix2 (⟨1024 * (t.val % 16) + r.val, by omega⟩ : Fin 16384)
          (⟨2048 * (t.val / 16) + p.val, by have := Nat.lt_of_lt_of_eq t.isLt (N_0 : cfg0.N = 128); omega⟩ : Fin 16384)) := by
  obtain ⟨e0, e1, -, -, -, -, -, -⟩ := idx_facts t
  unfold iblk
  rw [View.read_apply]
  show V c (Pipeline.arrRef spec0 0) (((cfg0.win 0).blk t).view.emb (ix2 r p)) = _
  refine congrArg (V c (Pipeline.arrRef spec0 0)) (funext fun a => Fin.ext ?_)
  match a with
  | ⟨0, _⟩ => show win0_0.index t (0 : Fin 2) * 1024 + 1 * r.val = 1024 * (t.val % 16) + r.val; omega
  | ⟨1, _⟩ => show win0_0.index t (1 : Fin 2) * 2048 + 1 * p.val = 2048 * (t.val / 16) + p.val; omega

/-- The features' window holds the whole array at every point. -/
theorem iblk1_apply (c : Dev nD) (t : Fin cfg0.N) (y : S16384x128.Idx) :
    (iblk V c 1 t : Vec Ideal S16384x128 .f32) y = featA V c y := by
  obtain ⟨-, -, -, -, -, -, e6, e7⟩ := idx_facts t
  unfold iblk
  rw [View.read_apply]
  show V c (Pipeline.arrRef spec0 1) (((cfg0.win 1).blk t).view.emb y) = _
  refine congrArg (V c (Pipeline.arrRef spec0 1)) (funext fun a => Fin.ext ?_)
  match a with
  | ⟨0, _⟩ => show win0_1.index t (0 : Fin 2) * 16384 + 1 * (y 0).val = (y 0).val; omega
  | ⟨1, _⟩ => show win0_1.index t (1 : Fin 2) * 128 + 1 * (y 1).val = (y 1).val; omega

/-! ## The accumulator, point by point -/

/-- Block `b`'s contribution to entry `(p, q)` of tile `j` (zero outside the grid, where it is never asked). -/
def term (c : Dev nD) (j : ℕ) (p : Fin 2048) (q : Fin 128) (b : ℕ) : EReal :=
  if hb : b < 16 ∧ j < 8 then
    ∑ r : Fin 1024, adjA V c (ix2 (⟨1024 * b + r.val, by omega⟩ : Fin 16384) (⟨2048 * j + p.val, by omega⟩ : Fin 16384))
      * featA V c (ix2 (⟨1024 * b + r.val, by omega⟩ : Fin 16384) q)
  else 0

/-- What the body adds at point `t` is the contribution of block `t % 16` to tile `t / 16`. -/
theorem step_term (c : Dev nD) (t : Fin cfg0.N) (acc : Vec Ideal S2048x128 .f32) (p : Fin 2048) (q : Fin 128) :
    k0_pay3 (F := Ideal) (stepRows (grid0.coords t) (iblk V c 1 t)) (iblk V c 0 t) acc (ix2 p q)
      = acc (ix2 p q) + term V c (t.val / 16) p q (t.val % 16) := by
  have hN : cfg0.N = 128 := N_0
  have ht : t.val < 128 := Nat.lt_of_lt_of_eq t.isLt hN
  obtain ⟨o0, o1⟩ := off_facts t
  refine (step_apply (grid0.coords t) (iblk V c 0 t) (iblk V c 1 t) acc (t.val % 16) (by omega) o0 o1 p q).trans ?_
  refine congrArg (acc (ix2 p q) + ·) ?_
  unfold term
  rw [dif_pos (⟨by omega, by omega⟩ : t.val % 16 < 16 ∧ t.val / 16 < 8)]
  refine Finset.sum_congr rfl fun r _ => ?_
  rw [iblk0_apply V c t r p, iblk1_apply V c t]

/-- After point `n` the accumulator holds the contributions of blocks `0 … n % 16` to tile `n / 16`. -/
theorem acc_at (c : Dev nD) : ∀ (n : ℕ) (hn : n < cfg0.N) (p : Fin 2048) (q : Fin 128),
    (outsAt V c n hn).2.2 (ix2 p q) = ∑ b ∈ Finset.range (n % 16 + 1), term V c (n / 16) p q b := by
  intro n
  induction n with
  | zero =>
    intro hn p q
    let t : Fin cfg0.N := ⟨0, hn⟩
    have h0 : t.val % 16 = 0 := rfl
    have h1 : ¬t.val % 16 = 15 := fun h => absurd (show (0 : ℕ) % 16 = 15 from h) (by decide)
    show (outsAt V c t.val t.isLt).2.2 (ix2 p q) = _
    rw [outsAt_first V c t h0 h1]
    dsimp only
    rw [accFirst_eq (F := Ideal) c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t)]
    rw [step_term V c t, Cert.Gcn.k0_pay1_apply, zero_add]
    show term V c (0 / 16) p q (0 % 16) = ∑ b ∈ Finset.range (0 % 16 + 1), term V c (0 / 16) p q b
    rw [show (0 % 16 + 1 : ℕ) = 1 from rfl, Finset.sum_range_one]
  | succ m ih =>
    intro hn p q
    let t : Fin cfg0.N := ⟨m + 1, hn⟩
    have htv : t.val = m + 1 := rfl
    show (outsAt V c t.val t.isLt).2.2 (ix2 p q) = _
    by_cases h0 : t.val % 16 = 0
    · have h1 : ¬t.val % 16 = 15 := by omega
      rw [outsAt_first V c t h0 h1]
      dsimp only
      rw [accFirst_eq (F := Ideal) c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t)]
      rw [step_term V c t, Cert.Gcn.k0_pay1_apply, zero_add]
      rw [show (m + 1) % 16 + 1 = 1 from by omega, Finset.sum_range_one]
      rw [show (m + 1) % 16 = 0 from h0]
    · have ihm := ih (Nat.lt_of_succ_lt hn) p q
      have e1 : m / 16 = (m + 1) / 16 := by omega
      have e2 : m % 16 + 1 = (m + 1) % 16 := by omega
      have hprev : (outsAt V c (t.val - 1) (Nat.lt_of_le_of_lt (Nat.sub_le _ _) t.isLt)).2.2 (ix2 p q) = ∑ b ∈ Finset.range ((m + 1) % 16), term V c ((m + 1) / 16) p q b := by
        rw [← e1, ← e2]; exact ihm
      by_cases h1 : t.val % 16 = 15
      · rw [outsAt_last V c t h0 h1]
        dsimp only
        rw [accLast_eq (F := Ideal) c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2]
        rw [step_term V c t, hprev, Finset.sum_range_succ]
      · rw [outsAt_middle V c t h0 h1]
        dsimp only
        rw [accMiddle_eq (F := Ideal) c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2.2]
        rw [step_term V c t, hprev, Finset.sum_range_succ]

/-! ## The aggregate's block at a tile's last step, and the array -/

/-- The sixteen blocks' contributions to an entry of tile `j` are the aggregate there, taken block by block. -/
theorem sum_term (c : Dev nD) (j : ℕ) (hj : j < 8) (p : Fin 2048) (q : Fin 128) :
    ∑ b ∈ Finset.range 16, term V c j p q b
      = aggBlocks 128 (adjA V c) (featA V c) (ix2 (⟨2048 * j + p.val, by omega⟩ : Fin 16384) q) := by
  rw [← Fin.sum_univ_eq_sum_range (fun b => term V c j p q b) 16]
  show _ = ∑ b : Fin 16, ∑ r : Fin 1024, adjA V c (ix2 (blockRow b r) (⟨2048 * j + p.val, by omega⟩ : Fin 16384))
    * featA V c (ix2 (blockRow b r) q)
  refine Finset.sum_congr rfl fun b _ => ?_
  unfold term
  rw [dif_pos (⟨b.isLt, hj⟩ : b.val < 16 ∧ j < 8)]
  rfl

/-- At a tile's last step the aggregate's block receives the accumulator: all sixteen contributions. -/
theorem out_at (c : Dev nD) (t : Fin cfg0.N) (h1 : t.val % 16 = 15) (p : Fin 2048) (q : Fin 128) :
    (outsAt V c t.val t.isLt).1 (ix2 p q) = ∑ b ∈ Finset.range 16, term V c (t.val / 16) p q b := by
  have h0 : ¬t.val % 16 = 0 := by omega
  have hprev := acc_at V c (t.val - 1) (Nat.lt_of_le_of_lt (Nat.sub_le _ _) t.isLt) p q
  rw [show (t.val - 1) / 16 = t.val / 16 from by omega, show (t.val - 1) % 16 + 1 = 15 from by omega] at hprev
  rw [outsAt_last V c t h0 h1]
  dsimp only
  rw [outLast_eq (F := Ideal) c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2]
  rw [step_term V c t, hprev, show t.val % 16 = 15 from h1]
  exact (Finset.sum_range_succ (fun b => term V c (t.val / 16) p q b) 15).symm

/-- The same at any entry of the block, as the aggregate at the entry's place in the array. -/
theorem out_at_idx (c : Dev nD) (t : Fin cfg0.N) (h1 : t.val % 16 = 15) (y : S2048x128.Idx) :
    (outsAt V c t.val t.isLt).1 y
      = aggBlocks 128 (adjA V c) (featA V c) (ix2 (⟨2048 * (t.val / 16) + (y 0).val, by
          have ht : t.val < 128 := Nat.lt_of_lt_of_eq t.isLt (N_0 : cfg0.N = 128); have hy : (y 0).val < 2048 := (y 0).isLt; omega⟩ : Fin 16384) (y 1)) := by
  have ht : t.val < 128 := Nat.lt_of_lt_of_eq t.isLt (N_0 : cfg0.N = 128)
  obtain ⟨p, q, rfl⟩ : ∃ (p : Fin 2048) (q : Fin 128), y = ix2 p q := ⟨y 0, y 1, eq_ix2 y⟩
  exact (out_at V c t h1 p q).trans (sum_term V c (t.val / 16) (by omega) p q)

/-- The aggregate block by block over the arrays as the region finds them, as contents of the aggregate's array. -/
abbrev aggAs2 (c : Dev nD) : Buf (Elt Ideal) ((cfg0.win 2).arr.view.loc (c.tc : Thread nD τ)) :=
  fun i => (aggBlocks 128 (adjA V c) (featA V c) i : EReal)

/-- What a tile's last step writes back is the tile's block of the aggregate. -/
theorem flushed2_eq (c : Dev nD) (t : Fin cfg0.N) (hf : (cfg0.win 2).flush t = true) :
    (dat (F := Ideal) V c).flushed 2 t = ((cfg0.win 2).blk t).view.read (Elt Ideal) (aggAs2 V c) := by
  have h1 : t.val % 16 = 15 := (flush0_2 t).mp hf
  obtain ⟨-, -, -, -, e4, e5, -, -⟩ := idx_facts t
  show (cfg0.win 2).cut (grid0.coords t) ((dat (F := Ideal) V c).after 2 t) = _
  rw [after_2]
  funext j
  refine (out_at_idx V c t h1 j).trans ?_
  show _ = aggBlocks 128 (adjA V c) (featA V c) (((cfg0.win 2).blk t).view.emb j)
  refine congrArg (aggBlocks 128 (adjA V c) (featA V c)) (funext fun a => Fin.ext ?_)
  match a with
  | ⟨0, _⟩ => show 2048 * (t.val / 16) + (j 0).val = win0_2.index t (0 : Fin 2) * 2048 + 1 * (j 0).val; omega
  | ⟨1, _⟩ => show (j 1).val = win0_2.index t (1 : Fin 2) * 128 + 1 * (j 1).val; omega

/-- An index of the array is in point `t`'s block iff each coordinate is in the block's range on its axis. -/
theorem mem_blk2 (t : Fin cfg0.N) (i : S16384x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v8_0).slice (win0_2.rect t)).set ↔ _
  rw [View.set_slice_whole, Rect.mem_set_unit]
  exact Iff.rfl

/-- Every entry of the aggregate is in the block written back at the last step of its tile. -/
theorem cover2 (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have hN : cfg0.N = 128 := N_0
  let t : Fin cfg0.N := ⟨16 * ((i 0).val / 2048) + 15, by rw [hN]; omega⟩
  have ht : t.val = 16 * ((i 0).val / 2048) + 15 := rfl
  obtain ⟨-, -, -, -, e4, e5, -, -⟩ := idx_facts t
  refine ⟨t, (flush0_2 t).mpr (by omega), ?_⟩
  rw [mem_blk2]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- THE AGGREGATE after the region: the aggregate of the features over the adjacency array, block by block. -/
theorem agg0_value (c : Dev nD) :
    ((dat (F := Ideal) V c).arrAt 2 cfg0.N : S16384x128.Idx → EReal)
      = aggBlocks 128 (V c (Pipeline.arrRef spec0 0)) (V c (Pipeline.arrRef spec0 1)) :=
  (dat (F := Ideal) V c).arrAt_eq_of_cover 2 (aggAs2 V c) (flushed2_eq V c) cover2

end

end Cert.KernelIdeal.Agg0

end
-- ==== Proof.Agg1Pieces.lean ====
/-
  What each case of the aggregation pass's body leaves, as values. At a reduction step the body reads 1024 rows of
  the features (from row `1024 · step`), the whole 1024 × 2048 adjacency block and the 2048 × 64 accumulator, and
  stores into the accumulator the accumulator plus the product of the transposed block with those rows. At a tile's
  first step the accumulator it reads is the zero array it has just stored; at a tile's last step the output block
  receives a copy of what the accumulator then holds. So in all three cases the accumulator ends at the body's one
  stored value, a function of the rows read, the block, and the accumulator before (the zero array at a first step).
-/
import proofs.«155212_j57251914056250_2_alg».proof.Proof.Agg1Frame
import Idealize.ShloMosaic.Lib.Pipeline.Value
import Idealize.ShloMosaic.Lib.Tactic

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL.Sem

variable {F : FTy → Type} [FloatOps F]

/-- The zero offsets of a rank-2 rectangle. -/
theorem hz : (![0, 0] : Fin 2 → Nat) = fun _ => 0 := funext fun a => by fin_cases a <;> rfl

/-- The 1024 rows of the features a step reads: from the row offset of the step, all 64 columns. -/
abbrev stepRows (i : grid1.Coords) (x1 : Vec F S16384x64 .f32) : Vec F S1024x64 .f32 :=
  View.ld x1 (Rect.unit (s := S16384x64) (k1_off1 i) S1024x64.size (k1_off1_inb i))

/-- A tile's first step: the accumulator is cleared, read back, and takes the step's product. -/
theorem accFirst_eq (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : condFirst i) (hc1 : ¬condLast i)
    (x0 : Vec F S1024x2048 .bf16) (x1 : Vec F S16384x64 .f32) :
    accFirst c i arg2 harg2 arg3 harg3 arg4 harg4 arg5 harg5 hc0 hc1 x0 x1 = k1_pay2 (stepRows i x1) x0 k1_pay1 := by
  unfold accFirst
  rw [View.read_writes_eq_canon _ _ _ (accCover_first c i arg2 harg2 arg3 harg3 arg4 harg4 arg5 harg5 hc0 hc1 x0 x1)]
  unfold runFirst
  dsimp only
  sl_unfold_words
  rw [View.canon_cons_unit_zero (S := S2048x64) hz]
  simp only [View.readAt_eq_ld, harg2.read_unread, harg3.read_unread, View.ld_unit_zero (S := S1024x2048) hz]
  rw [View.readCov_unit_zero (S := S2048x64) _ hz]
  rfl

/-- A middle step: the accumulator takes the step's product on top of what it held. -/
theorem accMiddle_eq (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : ¬condLast i)
    (x0 : Vec F S1024x2048 .bf16) (x1 : Vec F S16384x64 .f32) (xs : Vec F S2048x64 .f32) :
    accMiddle c i arg2 harg2 arg3 harg3 arg4 harg4 arg5 harg5 hc0 hc1 x0 x1 xs = k1_pay2 (stepRows i x1) x0 xs := by
  unfold accMiddle
  rw [View.read_writes_eq_canon _ _ _ (accCover_middle c i arg2 harg2 arg3 harg3 arg4 harg4 arg5 harg5 hc0 hc1 x0 x1 xs)]
  unfold runMiddle
  dsimp only
  sl_unfold_words
  rw [View.canon_unit_zero (S := S2048x64) hz]
  simp only [View.readAt_eq_ld, harg2.read_unread, harg3.read_unread, harg5.read_unread,
    View.ld_unit_zero (S := S1024x2048) hz, View.ld_unit_zero (S := S2048x64) hz]
  rfl

/-- A tile's last step leaves the same in the accumulator … -/
theorem accLast_eq (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) :
    accLast c i arg2 harg2 arg3 harg3 arg4 harg4 arg5 harg5 hc0 hc1 x0 x1 xs = k1_pay2 (stepRows i x1) x0 xs := by
  unfold accLast
  rw [View.read_writes_eq_canon _ _ _ (accCover_last c i arg2 harg2 arg3 harg3 arg4 harg4 arg5 harg5 hc0 hc1 x0 x1 xs)]
  unfold runLast
  dsimp only
  sl_unfold_words
  rw [View.canon_unit_zero (S := S2048x64) hz]
  simp only [View.readAt_eq_ld, harg2.read_unread, harg3.read_unread, harg5.read_unread,
    View.ld_unit_zero (S := S1024x2048) hz, View.ld_unit_zero (S := S2048x64) hz]
  rfl

/-- … and copies it to the output block. -/
theorem outLast_eq (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) :
    outLast c i arg2 harg2 arg3 harg3 arg4 harg4 arg5 harg5 hc0 hc1 x0 x1 xs = k1_pay2 (stepRows i x1) x0 xs := by
  unfold outLast
  rw [View.read_writes_eq_canon _ _ _ (outCover_last c i arg2 harg2 arg3 harg3 arg4 harg4 arg5 harg5 hc0 hc1 x0 x1 xs)]
  unfold runLast
  dsimp only
  sl_unfold_words
  rw [View.canon_unit_zero (S := S2048x64) hz, View.readCov_unit_zero (S := S2048x64) _ hz]
  simp only [View.readAt_eq_ld, harg2.read_unread, harg3.read_unread, harg5.read_unread,
    View.ld_unit_zero (S := S1024x2048) hz, View.ld_unit_zero (S := S2048x64) hz]
  rfl

end Cert.KernelIdeal.Agg1

end
-- ==== Proof.Agg1Value.lean ====
/-
  The value of the second aggregation pass: its output array ends holding the neighbour aggregate of the adjacency
  array and the features as the pass finds them, taken block by block over the rows.
  The pass runs over 8 output tiles of 2048 columns × 16 reduction steps; point `t` is step `t % 16` of tile `t / 16`.
  At that point the body is called with block `(t % 16, t / 16)` of the adjacency array (1024 rows × 2048 columns)
  and with the whole feature array, of which it reads rows `1024 · (t % 16) …`; it adds to the accumulator the
  product of the transposed block with those rows. So after point `t` the accumulator at `(p, q)` is the sum over the
  row blocks `b ≤ t % 16` of `∑ r, adj[1024 b + r, 2048 (t / 16) + p] · h[1024 b + r, q]` (by induction on the point:
  a tile's first step starts from zero, a later step adds its block's part to what the step before left). At a tile's
  last step all sixteen blocks are in, the accumulator is copied to the tile's output block and written back; the
  eight tiles' blocks cover the output array, row `r` lying in tile `r / 2048`'s.
-/
import proofs.«155212_j57251914056250_2_alg».proof.Proof.Agg1Pieces
import proofs.«155212_j57251914056250_2_alg».proof.Proof.Agg1Pay
import proofs.«155212_j57251914056250_2_alg».proof.Proof.AggSpec
import Idealize.ShloMosaic.Lib.Pipeline.Value
import Idealize.ShloMosaic.Lib.Tactic

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx

variable {F : FTy → Type} [FloatOps F]

/-! ## The blocks a point's body is called with, read at an index -/

/-- The windows' block indices and the step coordinate at point `t`, decided over the grid: the adjacency window is at block
    `(t % 16, t / 16)`, the features' window at the whole array, the output window at tile `t / 16`. -/
theorem idx_facts : ∀ t : Fin cfg1.N,
    win1_0.index t (0 : Fin 2) = t.val % 16 ∧ win1_0.index t (1 : Fin 2) = t.val / 16
  ∧ win1_1.index t (0 : Fin 2) = 0 ∧ win1_1.index t (1 : Fin 2) = 0
  ∧ win1_2.index t (0 : Fin 2) = t.val / 16 ∧ win1_2.index t (1 : Fin 2) = 0
  ∧ ((grid1.coords t) 1).val = t.val % 16 :=
  (by decide +kernel : ∀ t : Fin grid1.N, _)

section
variable (V : (c : Dev nD) → (b : Ref sig .tc) → Buf (Elt F) ((c : Thread nD τ).loc b))

/-- The adjacency block of point `t` at `(r, p)` is the array at row `1024 · (t % 16) + r`, column `2048 · (t / 16) + p`. -/
theorem iblk0_apply (c : Dev nD) (t : Fin cfg1.N) (r : Fin 1024) (p : Fin 2048) :
    (iblk V c 0 t : Vec F S1024x2048 .bf16) (ix2 r p)
      = (V c (Pipeline.arrRef spec1 0) : S16384x16384.Idx → Elt F .bf16)
          (ix2 (⟨1024 * (t.val % 16) + r.val, by omega⟩ : Fin 16384) (⟨2048 * (t.val / 16) + p.val, by have := t.isLt; have : cfg1.N = 128 := N_1; omega⟩ : Fin 16384)) := by
  obtain ⟨e00, e01, -, -, -, -, -⟩ := idx_facts t
  unfold iblk
  rw [View.read_apply]
  refine congrArg (V c (Pipeline.arrRef spec1 0)) (funext fun a => Fin.ext ?_)
  match a with
  | ⟨0, _⟩ => show win1_0.index t 0 * 1024 + 1 * r.val = 1024 * (t.val % 16) + r.val; rw [e00]; omega
  | ⟨1, _⟩ => show win1_0.index t 1 * 2048 + 1 * p.val = 2048 * (t.val / 16) + p.val; rw [e01]; omega

/-- The features' block of every point is the whole array. -/
theorem iblk1_apply (c : Dev nD) (t : Fin cfg1.N) (i : Fin 16384) (q : Fin 64) :
    (iblk V c 1 t : Vec F S16384x64 .f32) (ix2 i q)
      = (V c (Pipeline.arrRef spec1 1) : S16384x64.Idx → Elt F .f32) (ix2 i q) := by
  obtain ⟨-, -, e10, e11, -, -, -⟩ := idx_facts t
  unfold iblk
  rw [View.read_apply]
  refine congrArg (V c (Pipeline.arrRef spec1 1)) (funext fun a => Fin.ext ?_)
  match a with
  | ⟨0, _⟩ => show win1_1.index t 0 * 16384 + 1 * i.val = i.val; rw [e10]; omega
  | ⟨1, _⟩ => show win1_1.index t 1 * 64 + 1 * q.val = q.val; rw [e11]; omega

/-- The rows a step reads: row `r` of them is row `1024 · (t % 16) + r` of the array. -/
theorem stepRows_apply (t : Fin cfg1.N) (X : Vec F S16384x64 .f32) (r : Fin 1024) (q : Fin 64) :
    stepRows (grid1.coords t) X (ix2 r q) = X (ix2 (⟨1024 * (t.val % 16) + r.val, by omega⟩ : Fin 16384) q) := by
  obtain ⟨-, -, -, -, -, -, eg⟩ := idx_facts t
  show X _ = X _
  refine congrArg X (funext fun a => Fin.ext ?_)
  match a with
  | ⟨0, _⟩ => show k1_off1 (grid1.coords t) 0 + 1 * r.val = 1024 * (t.val % 16) + r.val; rw [k1_off1_eq]; show 1024 * ((grid1.coords t) 1).val + 1 * r.val = _; rw [eg]; omega
  | ⟨1, _⟩ => show k1_off1 (grid1.coords t) 1 + 1 * q.val = q.val; rw [k1_off1_eq]; show 0 + 1 * q.val = _; omega

end

/-! ## Sums over the row blocks up to a step -/

/-- The sum of `f` over the blocks up to block 0 is `f 0`. -/
theorem prefix_sum_zero {n : ℕ} (f : Fin (n + 1) → EReal) : (∑ b : Fin (n + 1), if b.val ≤ 0 then f b else 0) = f 0 := by
  rw [Finset.sum_eq_single (0 : Fin (n + 1))]
  · exact if_pos (le_of_eq (Fin.val_zero (n + 1)))
  · intro b _ hb
    rw [if_neg]
    intro h
    exact hb (Fin.ext (Nat.le_zero.mp h))
  · intro h; exact absurd (Finset.mem_univ _) h

/-- The sum up to block `s + 1` is the sum up to block `s` plus block `s + 1`'s term. -/
theorem prefix_sum_succ {n : ℕ} (f : Fin n → EReal) (s : ℕ) (hs : s + 1 < n) :
    (∑ b : Fin n, if b.val ≤ s + 1 then f b else 0) = (∑ b : Fin n, if b.val ≤ s then f b else 0) + f ⟨s + 1, hs⟩ := by
  have e : ∀ b : Fin n, (if b.val ≤ s + 1 then f b else 0)
      = (if b.val ≤ s then f b else 0) + (if b = ⟨s + 1, hs⟩ then f b else 0) := by
    intro b
    by_cases h1 : b.val ≤ s
    · have hb : b ≠ ⟨s + 1, hs⟩ := fun e => by rw [e] at h1; exact absurd h1 (by simp)
      rw [if_pos (by omega), if_pos h1, if_neg hb, add_zero]
    · by_cases h2 : b.val = s + 1
      · have hb : b = ⟨s + 1, hs⟩ := Fin.ext h2
        rw [if_pos (by omega), if_neg h1, if_pos hb, zero_add]
      · have hb : b ≠ ⟨s + 1, hs⟩ := fun e => h2 (by rw [e])
        rw [if_neg (by omega), if_neg h1, if_neg hb, add_zero]
  rw [Finset.sum_congr rfl (fun b _ => e b), Finset.sum_add_distrib, Finset.sum_ite_eq', if_pos (Finset.mem_univ _)]

/-- Up to the last block it is the whole sum. -/
theorem prefix_sum_last {n : ℕ} (f : Fin (n + 1) → EReal) : (∑ b : Fin (n + 1), if b.val ≤ n then f b else 0) = ∑ b : Fin (n + 1), f b :=
  Finset.sum_congr rfl fun b _ => if_pos (Nat.lt_succ_iff.mp b.isLt)

/-! ## The accumulator point by point, on the extended reals -/

/-- Row block `b`'s part of entry `(col, q)` of the aggregate: the sum over the block's 1024 rows. -/
def blockTerm (A : (⟨2, ![16384, 16384]⟩ : Shape).Idx → EReal) (H : (⟨2, ![16384, 64]⟩ : Shape).Idx → EReal)
    (col : Fin 16384) (q : Fin 64) (b : Fin 16) : EReal :=
  ∑ r : Fin 1024, A (ix2 (Cert.Gcn.blockRow b r) col) * H (ix2 (Cert.Gcn.blockRow b r) q)

/-- Column `p` of the output tile of point `n` (tile `n / 16`), as a column of the whole array. -/
abbrev tileCol (n : ℕ) (hn : n < cfg1.N) (p : Fin 2048) : Fin 16384 :=
  ⟨2048 * (n / 16) + p.val, by have : cfg1.N = 128 := N_1; omega⟩

/-- The product a step adds at `(p, q)` is its row block's part of the aggregate's entry: the step's adjacency block
    `x0` is block `(t % 16, t / 16)` of the array `A`, and the rows it reads of `x1`, the whole of `H`, are rows
    `1024 · (t % 16) …`. -/
theorem step_term (A : (⟨2, ![16384, 16384]⟩ : Shape).Idx → EReal) (H : (⟨2, ![16384, 64]⟩ : Shape).Idx → EReal)
    (t : Fin cfg1.N) (x0 : Vec Ideal S1024x2048 .bf16) (x1 : Vec Ideal S16384x64 .f32)
    (hx0 : ∀ (r : Fin 1024) (p : Fin 2048), x0 (ix2 r p)
      = A (ix2 (⟨1024 * (t.val % 16) + r.val, by omega⟩ : Fin 16384) (⟨2048 * (t.val / 16) + p.val, by have := t.isLt; have : cfg1.N = 128 := N_1; omega⟩ : Fin 16384)))
    (hx1 : ∀ (i : Fin 16384) (q : Fin 64), x1 (ix2 i q) = H (ix2 i q)) (p : Fin 2048) (q : Fin 64) :
    (∑ r : Fin 1024, x0 (ix2 r p) * stepRows (grid1.coords t) x1 (ix2 r q))
      = blockTerm A H (tileCol t.val t.isLt p) q ⟨t.val % 16, Nat.mod_lt _ (by decide)⟩ := by
  unfold blockTerm
  refine Finset.sum_congr rfl fun r _ => ?_
  rw [hx0, stepRows_apply, hx1]
  rfl

section
variable (V : (c : Dev nD) → (b : Ref sig .tc) → Buf (Elt Ideal) ((c : Thread nD τ).loc b))

/-- The adjacency array and the features as the region finds them. -/
abbrev adjOf (c : Dev nD) : (⟨2, ![16384, 16384]⟩ : Shape).Idx → EReal := V c (Pipeline.arrRef spec1 0)
abbrev featOf (c : Dev nD) : (⟨2, ![16384, 64]⟩ : Shape).Idx → EReal := V c (Pipeline.arrRef spec1 1)

/-- At a tile's first step the accumulator holds the first row block's part. -/
theorem acc_first (c : Dev nD) (t : Fin cfg1.N) (h0 : t.val % 16 = 0) (p : Fin 2048) (q : Fin 64) :
    ((outsAt V c t.val t.isLt).2 : Vec Ideal S2048x64 .f32) (ix2 p q)
      = ∑ b : Fin 16, if b.val ≤ t.val % 16 then blockTerm (adjOf V c) (featOf V c) (tileCol t.val t.isLt p) q b else 0 := by
  have h1 : ¬t.val % 16 = 15 := by omega
  rw [outsAt_first V c t h0 h1]
  dsimp only
  rw [accFirst_eq, Cert.Gcn.pay2_apply, Cert.Gcn.pay1_apply, zero_add]
  refine (step_term (adjOf V c) (featOf V c) t (iblk V c 0 t) (iblk V c 1 t) (iblk0_apply V c t) (iblk1_apply V c t) p q).trans ?_
  have hb : (⟨t.val % 16, Nat.mod_lt _ (by decide)⟩ : Fin 16) = 0 := Fin.ext h0
  rw [hb, h0]
  exact (prefix_sum_zero _).symm

end

/-- The value a later step of a tile leaves at `(p, q)`: what the accumulator held — the parts of the row blocks up to
    the step before — plus the step's product is the parts of the row blocks up to the step's. -/
theorem later_value (A : (⟨2, ![16384, 16384]⟩ : Shape).Idx → EReal) (H : (⟨2, ![16384, 64]⟩ : Shape).Idx → EReal)
    (t : Fin cfg1.N) (h0 : ¬t.val % 16 = 0) (x0 : Vec Ideal S1024x2048 .bf16) (x1 : Vec Ideal S16384x64 .f32)
    (hx0 : ∀ (r : Fin 1024) (p : Fin 2048), x0 (ix2 r p)
      = A (ix2 (⟨1024 * (t.val % 16) + r.val, by omega⟩ : Fin 16384) (⟨2048 * (t.val / 16) + p.val, by have := t.isLt; have : cfg1.N = 128 := N_1; omega⟩ : Fin 16384)))
    (hx1 : ∀ (i : Fin 16384) (q : Fin 64), x1 (ix2 i q) = H (ix2 i q))
    (xs : Vec Ideal S2048x64 .f32) (p : Fin 2048) (q : Fin 64)
    (ih : xs (ix2 p q) = ∑ b : Fin 16, if b.val ≤ (t.val - 1) % 16
            then blockTerm A H (tileCol (t.val - 1) (Nat.lt_of_le_of_lt (Nat.sub_le _ _) t.isLt) p) q b else 0) :
    xs (ix2 p q) + (∑ r : Fin 1024, x0 (ix2 r p) * stepRows (grid1.coords t) x1 (ix2 r q))
      = ∑ b : Fin 16, if b.val ≤ t.val % 16 then blockTerm A H (tileCol t.val t.isLt p) q b else 0 := by
  obtain ⟨s, hs⟩ : ∃ s, t.val % 16 = s + 1 := Nat.exists_eq_succ_of_ne_zero h0
  have hs' : (t.val - 1) % 16 = s := by omega
  have hlt : s + 1 < 16 := by have := Nat.mod_lt t.val (by decide : 0 < 16); omega
  have hcol : tileCol (t.val - 1) (Nat.lt_of_le_of_lt (Nat.sub_le _ _) t.isLt) p = tileCol t.val t.isLt p :=
    Fin.ext (by show 2048 * ((t.val - 1) / 16) + p.val = 2048 * (t.val / 16) + p.val; omega)
  have hb : (⟨t.val % 16, Nat.mod_lt _ (by decide)⟩ : Fin 16) = ⟨s + 1, hlt⟩ := Fin.ext hs
  rw [ih, hs', hcol, step_term A H t x0 x1 hx0 hx1 p q, hb, hs]
  exact (prefix_sum_succ _ s hlt).symm

section
variable (V : (c : Dev nD) → (b : Ref sig .tc) → Buf (Elt Ideal) ((c : Thread nD τ).loc b))

/-- At a later step of a tile the accumulator holds the parts of the row blocks up to the step's, given that after the
    point before it held those up to the step before. -/
theorem acc_later (c : Dev nD) (t : Fin cfg1.N) (h0 : ¬t.val % 16 = 0)
    (ih : ∀ (p : Fin 2048) (q : Fin 64),
      ((outsAt V c (t.val - 1) (Nat.lt_of_le_of_lt (Nat.sub_le _ _) t.isLt)).2 : Vec Ideal S2048x64 .f32) (ix2 p q)
        = ∑ b : Fin 16, if b.val ≤ (t.val - 1) % 16
            then blockTerm (adjOf V c) (featOf V c) (tileCol (t.val - 1) (Nat.lt_of_le_of_lt (Nat.sub_le _ _) t.isLt) p) q b else 0)
    (p : Fin 2048) (q : Fin 64) :
    ((outsAt V c t.val t.isLt).2 : Vec Ideal S2048x64 .f32) (ix2 p q)
      = ∑ b : Fin 16, if b.val ≤ t.val % 16 then blockTerm (adjOf V c) (featOf V c) (tileCol t.val t.isLt p) q b else 0 := by
  by_cases h1 : t.val % 16 = 15
  · rw [outsAt_last V c t h0 h1]
    dsimp only
    rw [accLast_eq, Cert.Gcn.pay2_apply]
    exact later_value (adjOf V c) (featOf V c) t h0 (iblk V c 0 t) (iblk V c 1 t) (iblk0_apply V c t) (iblk1_apply V c t) _ p q (ih p q)
  · rw [outsAt_middle V c t h0 h1]
    dsimp only
    rw [accMiddle_eq, Cert.Gcn.pay2_apply]
    exact later_value (adjOf V c) (featOf V c) t h0 (iblk V c 0 t) (iblk V c 1 t) (iblk0_apply V c t) (iblk1_apply V c t) _ p q (ih p q)

/-- After point `n` (tile `n / 16`, step `n % 16`) the accumulator at `(p, q)` is the sum, over the row blocks up to the
    step's, of the blocks' parts of the aggregate's entry `(2048 · (n / 16) + p, q)`. -/
theorem acc_inv (c : Dev nD) : ∀ (n : ℕ) (hn : n < cfg1.N) (p : Fin 2048) (q : Fin 64),
    ((outsAt V c n hn).2 : Vec Ideal S2048x64 .f32) (ix2 p q)
      = ∑ b : Fin 16, if b.val ≤ n % 16 then blockTerm (adjOf V c) (featOf V c) (tileCol n hn p) q b else 0
  | 0, hn, p, q => acc_first V c ⟨0, hn⟩ rfl p q
  | n + 1, hn, p, q => by
    by_cases h0 : (n + 1) % 16 = 0
    · exact acc_first V c ⟨n + 1, hn⟩ h0 p q
    · exact acc_later V c ⟨n + 1, hn⟩ h0 (fun p q => acc_inv c n (Nat.lt_of_succ_lt hn) p q) p q

/-! ## From the output blocks to the array -/

/-- An index of the array is in the output block of point `t` iff each coordinate is in the block's range. -/
theorem mem_blk2 (t : Fin cfg1.N) (i : S16384x64.Idx) :
    i ∈ ((cfg1.win 2).blk t).view.set ↔ ∀ a : Fin 2, win1_2.index t a * S2048x64.size a ≤ (i a).val
      ∧ (i a).val < win1_2.index t a * S2048x64.size a + S2048x64.size a := by
  show i ∈ ((View.whole main_v22).slice (win1_2.rect t)).set ↔ _
  rw [View.set_slice_whole, Rect.mem_set_unit]
  exact Iff.rfl

/-- What a tile's last point writes back is the tile's block of the aggregate taken block by block over the rows. -/
theorem flushed_eq (c : Dev nD) (t : Fin cfg1.N) (hf : (cfg1.win 2).flush t = true) :
    (dat V c).flushed 2 t
      = ((cfg1.win 2).blk t).view.read (Elt Ideal) (Cert.Gcn.aggBlocks 64 (adjOf V c) (featOf V c)) := by
  have h15 : t.val % 16 = 15 := (flush1_2 t).mp hf
  have h0 : ¬t.val % 16 = 0 := by omega
  obtain ⟨-, -, -, -, e20, e21, -⟩ := idx_facts t
  have e12 : (outsAt V c t.val t.isLt).1 = (outsAt V c t.val t.isLt).2 := by
    rw [outsAt_last V c t h0 h15]; dsimp only; rw [outLast_eq, accLast_eq]
  show (cfg1.win 2).cut (grid1.coords t) ((dat V c).after 2 t) = _
  rw [after_2, e12]
  funext j
  obtain ⟨p, q, rfl⟩ : ∃ (p : Fin 2048) (q : Fin 64), j = ix2 p q := ⟨j 0, j 1, eq_ix2 j⟩
  rw [View.read_apply]
  have hemb : ((cfg1.win 2).blk t).view.emb (ix2 p q) = (ix2 (tileCol t.val t.isLt p) q : S16384x64.Idx) :=
    funext fun a => Fin.ext (by
      match a with
      | ⟨0, _⟩ => show win1_2.index t 0 * 2048 + 1 * p.val = 2048 * (t.val / 16) + p.val; rw [e20]; omega
      | ⟨1, _⟩ => show win1_2.index t 1 * 64 + 1 * q.val = q.val; rw [e21]; omega)
  rw [hemb]
  show ((outsAt V c t.val t.isLt).2 : Vec Ideal S2048x64 .f32) (ix2 p q)
    = Cert.Gcn.aggBlocks 64 (adjOf V c) (featOf V c) (ix2 (tileCol t.val t.isLt p) q)
  rw [acc_inv V c t.val t.isLt p q, h15]
  exact prefix_sum_last (n := 15) _

/-- Every index of the output array is in the block some tile's last point writes back: row `r` in tile `r / 2048`'s. -/
theorem cover (i : S16384x64.Idx) :
    ∃ t : Fin cfg1.N, (cfg1.win 2).flush t = true ∧ i ∈ ((cfg1.win 2).blk t).view.set := by
  have hN : cfg1.N = 128 := N_1
  have hi0 : (i 0).val < 16384 := (i 0).isLt
  have hi1 : (i 1).val < 64 := (i 1).isLt
  have ht : 16 * ((i 0).val / 2048) + 15 < cfg1.N := by omega
  obtain ⟨-, -, -, -, e20, e21, -⟩ := idx_facts ⟨16 * ((i 0).val / 2048) + 15, ht⟩
  refine ⟨⟨16 * ((i 0).val / 2048) + 15, ht⟩, (flush1_2 _).mpr (by show (16 * ((i 0).val / 2048) + 15) % 16 = 15; omega), ?_⟩
  rw [mem_blk2]
  intro a
  match a with
  | ⟨0, _⟩ =>
    show win1_2.index ⟨16 * ((i 0).val / 2048) + 15, ht⟩ 0 * 2048 ≤ (i 0).val
      ∧ (i 0).val < win1_2.index ⟨16 * ((i 0).val / 2048) + 15, ht⟩ 0 * 2048 + 2048
    rw [e20]
    show (16 * ((i 0).val / 2048) + 15) / 16 * 2048 ≤ (i 0).val ∧ (i 0).val < (16 * ((i 0).val / 2048) + 15) / 16 * 2048 + 2048
    omega
  | ⟨1, _⟩ =>
    show win1_2.index ⟨16 * ((i 0).val / 2048) + 15, ht⟩ 1 * 64 ≤ (i 1).val
      ∧ (i 1).val < win1_2.index ⟨16 * ((i 0).val / 2048) + 15, ht⟩ 1 * 64 + 64
    rw [e21]
    omega

/-- The output array of the pass ends holding the aggregate of the adjacency array and the features as the pass finds
    them, taken block by block over the rows. -/
theorem agg1_value (c : Dev nD) :
    ((dat V c).arrAt 2 cfg1.N : S16384x64.Idx → EReal)
      = Cert.Gcn.aggBlocks 64 (V c (Pipeline.arrRef spec1 0)) (V c (Pipeline.arrRef spec1 1)) :=
  (dat V c).arrAt_eq_of_cover 2 (Cert.Gcn.aggBlocks 64 (adjOf V c) (featOf V c)) (flushed_eq V c) cover

end

end Cert.KernelIdeal.Agg1

end
-- ==== Proof.Agg2Pieces.lean ====
/-
  What each case of the aggregation pass's body leaves, as values. At a reduction step the body reads 1024 rows of
  the features (from row `1024 · step`), the whole 1024 × 2048 adjacency block and the 2048 × 64 accumulator, and
  stores into the accumulator the accumulator plus the product of the transposed block with those rows. At a tile's
  first step the accumulator it reads is the zero array it has just stored; at a tile's last step the output block
  receives a copy of what the accumulator then holds. So in all three cases the accumulator ends at the body's one
  stored value, a function of the rows read, the block, and the accumulator before (the zero array at a first step).
-/
import proofs.«155212_j57251914056250_2_alg».proof.Proof.Agg2Frame
import Idealize.ShloMosaic.Lib.Pipeline.Value
import Idealize.ShloMosaic.Lib.Tactic

set_option maxRecDepth 16384

noncomputable section

namespace Cert.KernelIdeal.Agg2

open Cert.KernelIdeal Cert.KernelIdeal.Gen
open Idealize.ShloMosaic Idealize.ShloMosaic.TcCoe Idealize.ShloMosaic.Tactic
open Idealize.SL.Sem

variable {F : FTy → Type} [FloatOps F]

/-- The zero offsets of a rank-2 rectangle. -/
theorem hz : (![0, 0] : Fin 2 → Nat) = fun _ => 0 := funext fun a => by fin_cases a <;> rfl

/-- The 1024 rows of the features a step reads: from the row offset of the step, all 64 columns. -/
abbrev stepRows (i : grid2.Coords) (x1 : Vec F S16384x64 .f32) : Vec F S1024x64 .f32 :=
  View.ld x1 (Rect.unit (s := S16384x64) (k2_off1 i) S1024x64.size (k2_off1_inb i))

/-- A tile's first step: the accumulator is cleared, read back, and takes the step's product. -/
theorem accFirst_eq (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : condFirst i) (hc1 : ¬condLast i)
    (x0 : Vec F S1024x2048 .bf16) (x1 : Vec F S16384x64 .f32) :
    accFirst c i arg2 harg2 arg3 harg3 arg4 harg4 arg5 harg5 hc0 hc1 x0 x1 = k2_pay2 (stepRows i x1) x0 k2_pay1 := by
  unfold accFirst
  rw [View.read_writes_eq_canon _ _ _ (accCover_first c i arg2 harg2 arg3 harg3 arg4 harg4 arg5 harg5 hc0 hc1 x0 x1)]
  unfold runFirst
  dsimp only
  sl_unfold_words
  rw [View.canon_cons_unit_zero (S := S2048x64) hz]
  simp only [View.readAt_eq_ld, harg2.read_unread, harg3.read_unread, View.ld_unit_zero (S := S1024x2048) hz]
  rw [View.readCov_unit_zero (S := S2048x64) _ hz]
  rfl

/-- A middle step: the accumulator takes the step's product on top of what it held. -/
theorem accMiddle_eq (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : ¬condLast i)
    (x0 : Vec F S1024x2048 .bf16) (x1 : Vec F S16384x64 .f32) (xs : Vec F S2048x64 .f32) :
    accMiddle c i arg2 harg2 arg3 harg3 arg4 harg4 arg5 harg5 hc0 hc1 x0 x1 xs = k2_pay2 (stepRows i x1) x0 xs := by
  unfold accMiddle
  rw [View.read_writes_eq_canon _ _ _ (accCover_middle c i arg2 harg2 arg3 harg3 arg4 harg4 arg5 harg5 hc0 hc1 x0 x1 xs)]
  unfold runMiddle
  dsimp only
  sl_unfold_words
  rw [View.canon_unit_zero (S := S2048x64) hz]
  simp only [View.readAt_eq_ld, harg2.read_unread, harg3.read_unread, harg5.read_unread,
    View.ld_unit_zero (S := S1024x2048) hz, View.ld_unit_zero (S := S2048x64) hz]
  rfl

/-- A tile's last step leaves the same in the accumulator … -/
theorem accLast_eq (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) :
    accLast c i arg2 harg2 arg3 harg3 arg4 harg4 arg5 harg5 hc0 hc1 x0 x1 xs = k2_pay2 (stepRows i x1) x0 xs := by
  unfold accLast
  rw [View.read_writes_eq_canon _ _ _ (accCover_last c i arg2 harg2 arg3 harg3 arg4 harg4 arg5 harg5 hc0 hc1 x0 x1 xs)]
  unfold runLast
  dsimp only
  sl_unfold_words
  rw [View.canon_unit_zero (S := S2048x64) hz]
  simp only [View.readAt_eq_ld, harg2.read_unread, harg3.read_unread, harg5.read_unread,
    View.ld_unit_zero (S := S1024x2048) hz, View.ld_unit_zero (S := S2048x64) hz]
  rfl

/-- … and copies it to the output block. -/
theorem outLast_eq (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) :
    outLast c i arg2 harg2 arg3 harg3 arg4 harg4 arg5 harg5 hc0 hc1 x0 x1 xs = k2_pay2 (stepRows i x1) x0 xs := by
  unfold outLast
  rw [View.read_writes_eq_canon _ _ _ (outCover_last c i arg2 harg2 arg3 harg3 arg4 harg4 arg5 harg5 hc0 hc1 x0 x1 xs)]
  unfold runLast
  dsimp only
  sl_unfold_words
  rw [View.canon_unit_zero (S := S2048x64) hz, View.readCov_unit_zero (S := S2048x64) _ hz]
  simp only [View.readAt_eq_ld, harg2.read_unread, harg3.read_unread, harg5.read_unread,
    View.ld_unit_zero (S := S1024x2048) hz, View.ld_unit_zero (S := S2048x64) hz]
  rfl

end Cert.KernelIdeal.Agg2

end
-- ==== Proof.Agg2Value.lean ====
/-
  The value of the third aggregation pass: its output array ends holding the neighbour aggregate of the adjacency
  array and the features as the pass finds them, taken block by block over the rows.
  The pass runs over 8 output tiles of 2048 columns × 16 reduction steps; point `t` is step `t % 16` of tile `t / 16`.
  At that point the body is called with block `(t % 16, t / 16)` of the adjacency array (1024 rows × 2048 columns)
  and with the whole feature array, of which it reads rows `1024 · (t % 16) …`; it adds to the accumulator the
  product of the transposed block with those rows. So after point `t` the accumulator at `(p, q)` is the sum over the
  row blocks `b ≤ t % 16` of `∑ r, adj[1024 b + r, 2048 (t / 16) + p] · h[1024 b + r, q]` (by induction on the point:
  a tile's first step starts from zero, a later step adds its block's part to what the step before left). At a tile's
  last step all sixteen blocks are in, the accumulator is copied to the tile's output block and written back; the
  eight tiles' blocks cover the output array, row `r` lying in tile `r / 2048`'s.
-/
import proofs.«155212_j57251914056250_2_alg».proof.Proof.Agg2Pieces
import proofs.«155212_j57251914056250_2_alg».proof.Proof.Agg1Pay
import proofs.«155212_j57251914056250_2_alg».proof.Proof.AggSpec
import Idealize.ShloMosaic.Lib.Pipeline.Value
import Idealize.ShloMosaic.Lib.Tactic

set_option maxRecDepth 16384

noncomputable section

namespace Cert.KernelIdeal.Agg2

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx

variable {F : FTy → Type} [FloatOps F]

/-! ## The blocks a point's body is called with, read at an index -/

/-- The windows' block indices and the step coordinate at point `t`, decided over the grid: the adjacency window is at block
    `(t % 16, t / 16)`, the features' window at the whole array, the output window at tile `t / 16`. -/
theorem idx_facts : ∀ t : Fin cfg2.N,
    win2_0.index t (0 : Fin 2) = t.val % 16 ∧ win2_0.index t (1 : Fin 2) = t.val / 16
  ∧ win2_1.index t (0 : Fin 2) = 0 ∧ win2_1.index t (1 : Fin 2) = 0
  ∧ win2_2.index t (0 : Fin 2) = t.val / 16 ∧ win2_2.index t (1 : Fin 2) = 0
  ∧ ((grid2.coords t) 1).val = t.val % 16 :=
  (by decide +kernel : ∀ t : Fin grid2.N, _)

section
variable (V : (c : Dev nD) → (b : Ref sig .tc) → Buf (Elt F) ((c : Thread nD τ).loc b))

/-- The adjacency block of point `t` at `(r, p)` is the array at row `1024 · (t % 16) + r`, column `2048 · (t / 16) + p`. -/
theorem iblk0_apply (c : Dev nD) (t : Fin cfg2.N) (r : Fin 1024) (p : Fin 2048) :
    (iblk V c 0 t : Vec F S1024x2048 .bf16) (ix2 r p)
      = (V c (Pipeline.arrRef spec2 0) : S16384x16384.Idx → Elt F .bf16)
          (ix2 (⟨1024 * (t.val % 16) + r.val, by omega⟩ : Fin 16384) (⟨2048 * (t.val / 16) + p.val, by have := t.isLt; have : cfg2.N = 128 := N_2; omega⟩ : Fin 16384)) := by
  obtain ⟨e00, e01, -, -, -, -, -⟩ := idx_facts t
  unfold iblk
  rw [View.read_apply]
  refine congrArg (V c (Pipeline.arrRef spec2 0)) (funext fun a => Fin.ext ?_)
  match a with
  | ⟨0, _⟩ => show win2_0.index t 0 * 1024 + 1 * r.val = 1024 * (t.val % 16) + r.val; rw [e00]; omega
  | ⟨1, _⟩ => show win2_0.index t 1 * 2048 + 1 * p.val = 2048 * (t.val / 16) + p.val; rw [e01]; omega

/-- The features' block of every point is the whole array. -/
theorem iblk1_apply (c : Dev nD) (t : Fin cfg2.N) (i : Fin 16384) (q : Fin 64) :
    (iblk V c 1 t : Vec F S16384x64 .f32) (ix2 i q)
      = (V c (Pipeline.arrRef spec2 1) : S16384x64.Idx → Elt F .f32) (ix2 i q) := by
  obtain ⟨-, -, e10, e11, -, -, -⟩ := idx_facts t
  unfold iblk
  rw [View.read_apply]
  refine congrArg (V c (Pipeline.arrRef spec2 1)) (funext fun a => Fin.ext ?_)
  match a with
  | ⟨0, _⟩ => show win2_1.index t 0 * 16384 + 1 * i.val = i.val; rw [e10]; omega
  | ⟨1, _⟩ => show win2_1.index t 1 * 64 + 1 * q.val = q.val; rw [e11]; omega

/-- The rows a step reads: row `r` of them is row `1024 · (t % 16) + r` of the array. -/
theorem stepRows_apply (t : Fin cfg2.N) (X : Vec F S16384x64 .f32) (r : Fin 1024) (q : Fin 64) :
    stepRows (grid2.coords t) X (ix2 r q) = X (ix2 (⟨1024 * (t.val % 16) + r.val, by omega⟩ : Fin 16384) q) := by
  obtain ⟨-, -, -, -, -, -, eg⟩ := idx_facts t
  show X _ = X _
  refine congrArg X (funext fun a => Fin.ext ?_)
  match a with
  | ⟨0, _⟩ => show k2_off1 (grid2.coords t) 0 + 1 * r.val = 1024 * (t.val % 16) + r.val; rw [k2_off1_eq]; show 1024 * ((grid2.coords t) 1).val + 1 * r.val = _; rw [eg]; omega
  | ⟨1, _⟩ => show k2_off1 (grid2.coords t) 1 + 1 * q.val = q.val; rw [k2_off1_eq]; show 0 + 1 * q.val = _; omega

end

/-! ## Sums over the row blocks up to a step -/

/-- The sum of `f` over the blocks up to block 0 is `f 0`. -/
theorem prefix_sum_zero {n : ℕ} (f : Fin (n + 1) → EReal) : (∑ b : Fin (n + 1), if b.val ≤ 0 then f b else 0) = f 0 := by
  rw [Finset.sum_eq_single (0 : Fin (n + 1))]
  · exact if_pos (le_of_eq (Fin.val_zero (n + 1)))
  · intro b _ hb
    rw [if_neg]
    intro h
    exact hb (Fin.ext (Nat.le_zero.mp h))
  · intro h; exact absurd (Finset.mem_univ _) h

/-- The sum up to block `s + 1` is the sum up to block `s` plus block `s + 1`'s term. -/
theorem prefix_sum_succ {n : ℕ} (f : Fin n → EReal) (s : ℕ) (hs : s + 1 < n) :
    (∑ b : Fin n, if b.val ≤ s + 1 then f b else 0) = (∑ b : Fin n, if b.val ≤ s then f b else 0) + f ⟨s + 1, hs⟩ := by
  have e : ∀ b : Fin n, (if b.val ≤ s + 1 then f b else 0)
      = (if b.val ≤ s then f b else 0) + (if b = ⟨s + 1, hs⟩ then f b else 0) := by
    intro b
    by_cases h1 : b.val ≤ s
    · have hb : b ≠ ⟨s + 1, hs⟩ := fun e => by rw [e] at h1; exact absurd h1 (by simp)
      rw [if_pos (by omega), if_pos h1, if_neg hb, add_zero]
    · by_cases h2 : b.val = s + 1
      · have hb : b = ⟨s + 1, hs⟩ := Fin.ext h2
        rw [if_pos (by omega), if_neg h1, if_pos hb, zero_add]
      · have hb : b ≠ ⟨s + 1, hs⟩ := fun e => h2 (by rw [e])
        rw [if_neg (by omega), if_neg h1, if_neg hb, add_zero]
  rw [Finset.sum_congr rfl (fun b _ => e b), Finset.sum_add_distrib, Finset.sum_ite_eq', if_pos (Finset.mem_univ _)]

/-- Up to the last block it is the whole sum. -/
theorem prefix_sum_last {n : ℕ} (f : Fin (n + 1) → EReal) : (∑ b : Fin (n + 1), if b.val ≤ n then f b else 0) = ∑ b : Fin (n + 1), f b :=
  Finset.sum_congr rfl fun b _ => if_pos (Nat.lt_succ_iff.mp b.isLt)

/-! ## The accumulator point by point, on the extended reals -/

/-- Row block `b`'s part of entry `(col, q)` of the aggregate: the sum over the block's 1024 rows. -/
def blockTerm (A : (⟨2, ![16384, 16384]⟩ : Shape).Idx → EReal) (H : (⟨2, ![16384, 64]⟩ : Shape).Idx → EReal)
    (col : Fin 16384) (q : Fin 64) (b : Fin 16) : EReal :=
  ∑ r : Fin 1024, A (ix2 (Cert.Gcn.blockRow b r) col) * H (ix2 (Cert.Gcn.blockRow b r) q)

/-- Column `p` of the output tile of point `n` (tile `n / 16`), as a column of the whole array. -/
abbrev tileCol (n : ℕ) (hn : n < cfg2.N) (p : Fin 2048) : Fin 16384 :=
  ⟨2048 * (n / 16) + p.val, by have : cfg2.N = 128 := N_2; omega⟩

/-- The product a step adds at `(p, q)` is its row block's part of the aggregate's entry: the step's adjacency block
    `x0` is block `(t % 16, t / 16)` of the array `A`, and the rows it reads of `x1`, the whole of `H`, are rows
    `1024 · (t % 16) …`. -/
theorem step_term (A : (⟨2, ![16384, 16384]⟩ : Shape).Idx → EReal) (H : (⟨2, ![16384, 64]⟩ : Shape).Idx → EReal)
    (t : Fin cfg2.N) (x0 : Vec Ideal S1024x2048 .bf16) (x1 : Vec Ideal S16384x64 .f32)
    (hx0 : ∀ (r : Fin 1024) (p : Fin 2048), x0 (ix2 r p)
      = A (ix2 (⟨1024 * (t.val % 16) + r.val, by omega⟩ : Fin 16384) (⟨2048 * (t.val / 16) + p.val, by have := t.isLt; have : cfg2.N = 128 := N_2; omega⟩ : Fin 16384)))
    (hx1 : ∀ (i : Fin 16384) (q : Fin 64), x1 (ix2 i q) = H (ix2 i q)) (p : Fin 2048) (q : Fin 64) :
    (∑ r : Fin 1024, x0 (ix2 r p) * stepRows (grid2.coords t) x1 (ix2 r q))
      = blockTerm A H (tileCol t.val t.isLt p) q ⟨t.val % 16, Nat.mod_lt _ (by decide)⟩ := by
  unfold blockTerm
  refine Finset.sum_congr rfl fun r _ => ?_
  rw [hx0, stepRows_apply, hx1]
  rfl

section
variable (V : (c : Dev nD) → (b : Ref sig .tc) → Buf (Elt Ideal) ((c : Thread nD τ).loc b))

/-- The adjacency array and the features as the region finds them. -/
abbrev adjOf (c : Dev nD) : (⟨2, ![16384, 16384]⟩ : Shape).Idx → EReal := V c (Pipeline.arrRef spec2 0)
abbrev featOf (c : Dev nD) : (⟨2, ![16384, 64]⟩ : Shape).Idx → EReal := V c (Pipeline.arrRef spec2 1)

/-- At a tile's first step the accumulator holds the first row block's part. -/
theorem acc_first (c : Dev nD) (t : Fin cfg2.N) (h0 : t.val % 16 = 0) (p : Fin 2048) (q : Fin 64) :
    ((outsAt V c t.val t.isLt).2 : Vec Ideal S2048x64 .f32) (ix2 p q)
      = ∑ b : Fin 16, if b.val ≤ t.val % 16 then blockTerm (adjOf V c) (featOf V c) (tileCol t.val t.isLt p) q b else 0 := by
  have h1 : ¬t.val % 16 = 15 := by omega
  rw [outsAt_first V c t h0 h1]
  dsimp only
  rw [accFirst_eq, Cert.Gcn.k2_pay2_apply, Cert.Gcn.k2_pay1_apply, zero_add]
  refine (step_term (adjOf V c) (featOf V c) t (iblk V c 0 t) (iblk V c 1 t) (iblk0_apply V c t) (iblk1_apply V c t) p q).trans ?_
  have hb : (⟨t.val % 16, Nat.mod_lt _ (by decide)⟩ : Fin 16) = 0 := Fin.ext h0
  rw [hb, h0]
  exact (prefix_sum_zero _).symm

end

/-- The value a later step of a tile leaves at `(p, q)`: what the accumulator held — the parts of the row blocks up to
    the step before — plus the step's product is the parts of the row blocks up to the step's. -/
theorem later_value (A : (⟨2, ![16384, 16384]⟩ : Shape).Idx → EReal) (H : (⟨2, ![16384, 64]⟩ : Shape).Idx → EReal)
    (t : Fin cfg2.N) (h0 : ¬t.val % 16 = 0) (x0 : Vec Ideal S1024x2048 .bf16) (x1 : Vec Ideal S16384x64 .f32)
    (hx0 : ∀ (r : Fin 1024) (p : Fin 2048), x0 (ix2 r p)
      = A (ix2 (⟨1024 * (t.val % 16) + r.val, by omega⟩ : Fin 16384) (⟨2048 * (t.val / 16) + p.val, by have := t.isLt; have : cfg2.N = 128 := N_2; omega⟩ : Fin 16384)))
    (hx1 : ∀ (i : Fin 16384) (q : Fin 64), x1 (ix2 i q) = H (ix2 i q))
    (xs : Vec Ideal S2048x64 .f32) (p : Fin 2048) (q : Fin 64)
    (ih : xs (ix2 p q) = ∑ b : Fin 16, if b.val ≤ (t.val - 1) % 16
            then blockTerm A H (tileCol (t.val - 1) (Nat.lt_of_le_of_lt (Nat.sub_le _ _) t.isLt) p) q b else 0) :
    xs (ix2 p q) + (∑ r : Fin 1024, x0 (ix2 r p) * stepRows (grid2.coords t) x1 (ix2 r q))
      = ∑ b : Fin 16, if b.val ≤ t.val % 16 then blockTerm A H (tileCol t.val t.isLt p) q b else 0 := by
  obtain ⟨s, hs⟩ : ∃ s, t.val % 16 = s + 1 := Nat.exists_eq_succ_of_ne_zero h0
  have hs' : (t.val - 1) % 16 = s := by omega
  have hlt : s + 1 < 16 := by have := Nat.mod_lt t.val (by decide : 0 < 16); omega
  have hcol : tileCol (t.val - 1) (Nat.lt_of_le_of_lt (Nat.sub_le _ _) t.isLt) p = tileCol t.val t.isLt p :=
    Fin.ext (by show 2048 * ((t.val - 1) / 16) + p.val = 2048 * (t.val / 16) + p.val; omega)
  have hb : (⟨t.val % 16, Nat.mod_lt _ (by decide)⟩ : Fin 16) = ⟨s + 1, hlt⟩ := Fin.ext hs
  rw [ih, hs', hcol, step_term A H t x0 x1 hx0 hx1 p q, hb, hs]
  exact (prefix_sum_succ _ s hlt).symm

section
variable (V : (c : Dev nD) → (b : Ref sig .tc) → Buf (Elt Ideal) ((c : Thread nD τ).loc b))

/-- At a later step of a tile the accumulator holds the parts of the row blocks up to the step's, given that after the
    point before it held those up to the step before. -/
theorem acc_later (c : Dev nD) (t : Fin cfg2.N) (h0 : ¬t.val % 16 = 0)
    (ih : ∀ (p : Fin 2048) (q : Fin 64),
      ((outsAt V c (t.val - 1) (Nat.lt_of_le_of_lt (Nat.sub_le _ _) t.isLt)).2 : Vec Ideal S2048x64 .f32) (ix2 p q)
        = ∑ b : Fin 16, if b.val ≤ (t.val - 1) % 16
            then blockTerm (adjOf V c) (featOf V c) (tileCol (t.val - 1) (Nat.lt_of_le_of_lt (Nat.sub_le _ _) t.isLt) p) q b else 0)
    (p : Fin 2048) (q : Fin 64) :
    ((outsAt V c t.val t.isLt).2 : Vec Ideal S2048x64 .f32) (ix2 p q)
      = ∑ b : Fin 16, if b.val ≤ t.val % 16 then blockTerm (adjOf V c) (featOf V c) (tileCol t.val t.isLt p) q b else 0 := by
  by_cases h1 : t.val % 16 = 15
  · rw [outsAt_last V c t h0 h1]
    dsimp only
    rw [accLast_eq, Cert.Gcn.k2_pay2_apply]
    exact later_value (adjOf V c) (featOf V c) t h0 (iblk V c 0 t) (iblk V c 1 t) (iblk0_apply V c t) (iblk1_apply V c t) _ p q (ih p q)
  · rw [outsAt_middle V c t h0 h1]
    dsimp only
    rw [accMiddle_eq, Cert.Gcn.k2_pay2_apply]
    exact later_value (adjOf V c) (featOf V c) t h0 (iblk V c 0 t) (iblk V c 1 t) (iblk0_apply V c t) (iblk1_apply V c t) _ p q (ih p q)

/-- After point `n` (tile `n / 16`, step `n % 16`) the accumulator at `(p, q)` is the sum, over the row blocks up to the
    step's, of the blocks' parts of the aggregate's entry `(2048 · (n / 16) + p, q)`. -/
theorem acc_inv (c : Dev nD) : ∀ (n : ℕ) (hn : n < cfg2.N) (p : Fin 2048) (q : Fin 64),
    ((outsAt V c n hn).2 : Vec Ideal S2048x64 .f32) (ix2 p q)
      = ∑ b : Fin 16, if b.val ≤ n % 16 then blockTerm (adjOf V c) (featOf V c) (tileCol n hn p) q b else 0
  | 0, hn, p, q => acc_first V c ⟨0, hn⟩ rfl p q
  | n + 1, hn, p, q => by
    by_cases h0 : (n + 1) % 16 = 0
    · exact acc_first V c ⟨n + 1, hn⟩ h0 p q
    · exact acc_later V c ⟨n + 1, hn⟩ h0 (fun p q => acc_inv c n (Nat.lt_of_succ_lt hn) p q) p q

/-! ## From the output blocks to the array -/

/-- An index of the array is in the output block of point `t` iff each coordinate is in the block's range. -/
theorem mem_blk2 (t : Fin cfg2.N) (i : S16384x64.Idx) :
    i ∈ ((cfg2.win 2).blk t).view.set ↔ ∀ a : Fin 2, win2_2.index t a * S2048x64.size a ≤ (i a).val
      ∧ (i a).val < win2_2.index t a * S2048x64.size a + S2048x64.size a := by
  show i ∈ ((View.whole main_v30).slice (win2_2.rect t)).set ↔ _
  rw [View.set_slice_whole, Rect.mem_set_unit]
  exact Iff.rfl

/-- What a tile's last point writes back is the tile's block of the aggregate taken block by block over the rows. -/
theorem flushed_eq (c : Dev nD) (t : Fin cfg2.N) (hf : (cfg2.win 2).flush t = true) :
    (dat V c).flushed 2 t
      = ((cfg2.win 2).blk t).view.read (Elt Ideal) (Cert.Gcn.aggBlocks 64 (adjOf V c) (featOf V c)) := by
  have h15 : t.val % 16 = 15 := (flush1_2 t).mp hf
  have h0 : ¬t.val % 16 = 0 := by omega
  obtain ⟨-, -, -, -, e20, e21, -⟩ := idx_facts t
  have e12 : (outsAt V c t.val t.isLt).1 = (outsAt V c t.val t.isLt).2 := by
    rw [outsAt_last V c t h0 h15]; dsimp only; rw [outLast_eq, accLast_eq]
  show (cfg2.win 2).cut (grid2.coords t) ((dat V c).after 2 t) = _
  rw [after_2, e12]
  funext j
  obtain ⟨p, q, rfl⟩ : ∃ (p : Fin 2048) (q : Fin 64), j = ix2 p q := ⟨j 0, j 1, eq_ix2 j⟩
  rw [View.read_apply]
  have hemb : ((cfg2.win 2).blk t).view.emb (ix2 p q) = (ix2 (tileCol t.val t.isLt p) q : S16384x64.Idx) :=
    funext fun a => Fin.ext (by
      match a with
      | ⟨0, _⟩ => show win2_2.index t 0 * 2048 + 1 * p.val = 2048 * (t.val / 16) + p.val; rw [e20]; omega
      | ⟨1, _⟩ => show win2_2.index t 1 * 64 + 1 * q.val = q.val; rw [e21]; omega)
  rw [hemb]
  show ((outsAt V c t.val t.isLt).2 : Vec Ideal S2048x64 .f32) (ix2 p q)
    = Cert.Gcn.aggBlocks 64 (adjOf V c) (featOf V c) (ix2 (tileCol t.val t.isLt p) q)
  rw [acc_inv V c t.val t.isLt p q, h15]
  exact prefix_sum_last (n := 15) _

/-- Every index of the output array is in the block some tile's last point writes back: row `r` in tile `r / 2048`'s. -/
theorem cover (i : S16384x64.Idx) :
    ∃ t : Fin cfg2.N, (cfg2.win 2).flush t = true ∧ i ∈ ((cfg2.win 2).blk t).view.set := by
  have hN : cfg2.N = 128 := N_2
  have hi0 : (i 0).val < 16384 := (i 0).isLt
  have hi1 : (i 1).val < 64 := (i 1).isLt
  have ht : 16 * ((i 0).val / 2048) + 15 < cfg2.N := by omega
  obtain ⟨-, -, -, -, e20, e21, -⟩ := idx_facts ⟨16 * ((i 0).val / 2048) + 15, ht⟩
  refine ⟨⟨16 * ((i 0).val / 2048) + 15, ht⟩, (flush1_2 _).mpr (by show (16 * ((i 0).val / 2048) + 15) % 16 = 15; omega), ?_⟩
  rw [mem_blk2]
  intro a
  match a with
  | ⟨0, _⟩ =>
    show win2_2.index ⟨16 * ((i 0).val / 2048) + 15, ht⟩ 0 * 2048 ≤ (i 0).val
      ∧ (i 0).val < win2_2.index ⟨16 * ((i 0).val / 2048) + 15, ht⟩ 0 * 2048 + 2048
    rw [e20]
    show (16 * ((i 0).val / 2048) + 15) / 16 * 2048 ≤ (i 0).val ∧ (i 0).val < (16 * ((i 0).val / 2048) + 15) / 16 * 2048 + 2048
    omega
  | ⟨1, _⟩ =>
    show win2_2.index ⟨16 * ((i 0).val / 2048) + 15, ht⟩ 1 * 64 ≤ (i 1).val
      ∧ (i 1).val < win2_2.index ⟨16 * ((i 0).val / 2048) + 15, ht⟩ 1 * 64 + 64
    rw [e21]
    omega

/-- The output array of the pass ends holding the aggregate of the adjacency array and the features as the pass finds
    them, taken block by block over the rows. -/
theorem agg2_value (c : Dev nD) :
    ((dat V c).arrAt 2 cfg2.N : S16384x64.Idx → EReal)
      = Cert.Gcn.aggBlocks 64 (V c (Pipeline.arrRef spec2 0)) (V c (Pipeline.arrRef spec2 1)) :=
  (dat V c).arrAt_eq_of_cover 2 (Cert.Gcn.aggBlocks 64 (adjOf V c) (featOf V c)) (flushed_eq V c) cover

end

end Cert.KernelIdeal.Agg2

end
-- ==== Proof.WordAgg0Defs.lean ====
/-
  The first aggregation pass, one grid of 8 output tiles × 16 reduction steps over the adjacency in its wide format: at step
  `i` of tile `j` the body narrows the 1024 × 2048 adjacency block `(i, j)` and stores the narrowed block as a second output
  (written back at every point), and adds to a 2048 × 128 accumulator the product of the transposed narrowed block with rows
  `1024·i … 1024·i + 1023` of the 128-wide features (the 64 feature columns, a column of ones, 63 columns of zeros); the
  accumulator is cleared at the tile's first step and copied to the tile's output block at its last.
  This module fixes what the three cases of that body are stated over: the two conditions as facts about the point's
  number, where the aggregate's window is idle and where it is written back, the buffers the body is called with, and the
  region's invariant with the accumulator pulled out of the scoped rest.
-/
import proofs.«155212_j57251914056250_2_alg».proof.Proof.Gen.Kernel.Launch
import proofs.«155212_j57251914056250_2_alg».proof.Proof.Gen.Kernel.Skeleton
import proofs.«155212_j57251914056250_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Agg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body -/

/-- The reduction step is the tile's first: the accumulator is cleared. -/
abbrev condFirst (i : grid0.Coords) : Prop :=
  (Scalar.cmpi .ne (Scalar.extui (Scalar.cmpi .eq (BitVec.ofNat 32 (i 1).val) 0#32)) 0#32) = 1#1
/-- It is so at the points whose number is a multiple of 16. -/
theorem hcondFirst : ∀ t : Fin cfg0.N, condFirst (grid0.coords t) ↔ t.val % 16 = 0 :=
  (by decide +kernel : ∀ t : Fin grid0.N, condFirst (grid0.coords t) ↔ t.val % 16 = 0)

/-- The reduction step is the tile's last: the accumulator is copied to the aggregate's block. -/
abbrev condLast (i : grid0.Coords) : Prop := k0_cond2 i = 1#1
/-- It is so at the points whose number is 15 modulo 16. -/
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Away from a tile's last step the aggregate's window is idle: nothing is stored into it … -/
theorem idle_2 : ∀ t : Fin cfg0.N, ¬condLast (grid0.coords t) → cfg0.idle 2 (grid0.coords t) = true := by decide +kernel
/-- … and it is not written back there. -/
theorem noFlush_2 : ∀ t : Fin cfg0.N, ¬condLast (grid0.coords t) → (cfg0.win 2).flush t = false := by decide +kernel
/-- At a tile's last step it is live. -/
theorem live_2 : ∀ t : Fin cfg0.N, condLast (grid0.coords t) → cfg0.idle 2 (grid0.coords t) = false := by decide +kernel
/-- The narrowed block's window is stored at every point. -/
theorem live_3 : ∀ t : Fin cfg0.N, cfg0.idle 3 (grid0.coords t) = false := by decide +kernel

/-! ## The buffers the body is called with -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16384x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .bf16 := win0_3.stage (cfg0.slots t 3)
abbrev hs3 (t : Fin cfg0.N) : (ms3 t).IsWhole := hstage0_3 ((cfg0.slots t 3).cast nbuf0_3)
/-- The accumulator: a scoped buffer of the kernel's own, carried from point to point. -/
abbrev accM : Memref sig .tc .vmem S2048x128 .f32 := Memref.whole cc0_scratch0
/-- The accumulator and one staging buffer of each output window as views: contents are stated through them. -/
abbrev accV : View sig .tc .vmem S2048x128 .f32 := accM.view
abbrev outV : View sig .tc .vmem S2048x128 .f32 := (Memref.whole cc0_stg2_0 : Memref sig .tc .vmem S2048x128 .f32).view
abbrev castV : View sig .tc .vmem S1024x2048 .bf16 := (Memref.whole cc0_stg3_0 : Memref sig .tc .vmem S1024x2048 .bf16).view

/-- The scoped buffers of the core other than this pass's staging buffers and its accumulator (the other passes'
    staging buffers and accumulators), each whole at some contents: they ride through this pass untouched. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_scratch0), ((c : Thread nD τ).loc cc2_scratch0) ↦{fullShare} f))

/-- The class's invariant (every scoped buffer that is no staging buffer of this pass at some contents, and the generator
    register at some state) gives the accumulator at some contents beside the other buffers … -/
theorem PhiA_split (c : Dev nD) : (Pipeline.ΦA spec0 c : sProp 𝕄) ⊢ iprop((∃ d, owns (c : Thread nD τ) accM fullShare d) ∗ others (F := F) c ∗ (∃ r, prngReg c r)) := by
  unfold Pipeline.ΦA others; rw [scopedRest0_eq]; simp only [accM, owns_whole]
  iintro ⟨⟨H1, H2, H3, H4, H5, H6, H7, H8, H9, H10, H11, H12, H13⟩, Hp⟩
  isplitl [H1]; · iexact H1
  isplitr [Hp]
  swap; · iexact Hp
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- … and is given back by them: separating conjunction is commutative and associative. -/
theorem PhiA_join (c : Dev nD) : iprop((∃ d, owns (c : Thread nD τ) accM fullShare d) ∗ others (F := F) c ∗ (∃ r, prngReg c r)) ⊢ (Pipeline.ΦA spec0 c : sProp 𝕄) := by
  unfold Pipeline.ΦA others; rw [scopedRest0_eq]; simp only [accM, owns_whole]
  iintro ⟨H1, ⟨H2, H3, H4, H5, H6, H7, H8, H9, H10, H11, H12, H13⟩, Hp⟩
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The two are one assertion. -/
theorem PhiA_eq (c : Dev nD) : (Pipeline.ΦA spec0 c : sProp 𝕄) = iprop((∃ d, owns (c : Thread nD τ) accM fullShare d) ∗ others (F := F) c ∗ (∃ r, prngReg c r)) :=
  Idealize.SL.BI.Entails.antisymm (PhiA_split c) (PhiA_join c)

end Cert.Kernel.Agg0

end
-- ==== Proof.WordAgg0Runs.lean ====
/-
  The body of the first aggregation pass run symbolically, once per case of its two conditions: first step of a tile (the
  accumulator, at anything, is cleared and then takes the step's product), a middle step (the accumulator takes the step's
  product on top of what the step before left), last step (the same, and the accumulator is copied into the aggregate's
  block). In every case the narrowed adjacency block is stored whole into the second output's buffer. Each run is a
  subtype: the lists of pieces the stores leave in each buffer, found by the run itself, with the proof that the body
  runs from the buffers at their contents to the continuation holding them so.
-/
import proofs.«155212_j57251914056250_2_alg».proof.Proof.WordAgg0Defs

set_option maxRecDepth 16384

noncomputable section

namespace Cert.Kernel.Agg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First step of a tile: adjacency block `x0`, features `x1`, the idle aggregate block `xi2` handed back untouched, the narrowed block's buffer and the accumulator at anything on entry. -/
noncomputable def runFirst (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole)
    (hc0 : condFirst i) (hc1 : ¬condLast i)
    (x0 : Vec F S1024x2048 .f32) (x1 : Vec F S16384x128 .f32) :
    Σ' (L3 : List (View.Piece (Elt F) S1024x2048 .bf16)), { LS : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel_layer0 i arg2 harg2 arg3 harg3 arg4 harg4 arg5 harg5 arg6 harg6) K } := by
  refine ⟨?_, ?_, fun xi2 E K => ?run⟩
  case run =>
    simp only [cc0__agg_kernel_layer0_eq_skeleton]; unfold cc0__agg_kernel_layer0_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

set_option maxHeartbeats 1000000 in
/-- A middle step: as above, the accumulator at what the step before left, `xs`. -/
noncomputable def runMiddle (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole)
    (hc0 : ¬condFirst i) (hc1 : ¬condLast i)
    (x0 : Vec F S1024x2048 .f32) (x1 : Vec F S16384x128 .f32) (xs : Vec F S2048x128 .f32) :
    Σ' (L3 : List (View.Piece (Elt F) S1024x2048 .bf16)), { LS : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel_layer0 i arg2 harg2 arg3 harg3 arg4 harg4 arg5 harg5 arg6 harg6) K } := by
  refine ⟨?_, ?_, fun xi2 E K => ?run⟩
  case run =>
    simp only [cc0__agg_kernel_layer0_eq_skeleton]; unfold cc0__agg_kernel_layer0_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

set_option maxHeartbeats 1000000 in
/-- Last step of a tile: the aggregate's block, at anything on entry, ends with the pieces `L2` written. -/
noncomputable def runLast (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole)
    (hc0 : ¬condFirst i) (hc1 : condLast i)
    (x0 : Vec F S1024x2048 .f32) (x1 : Vec F S16384x128 .f32) (xs : Vec F S2048x128 .f32) :
    Σ' (L2 : List (View.Piece (Elt F) S2048x128 .f32)), Σ' (L3 : List (View.Piece (Elt F) S1024x2048 .bf16)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel_layer0 i arg2 harg2 arg3 harg3 arg4 harg4 arg5 harg5 arg6 harg6) K } := by
  refine ⟨?_, ?_, ?_, fun E K => ?run⟩
  case run =>
    simp only [cc0__agg_kernel_layer0_eq_skeleton]; unfold cc0__agg_kernel_layer0_skel
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.Kernel.Agg0

end
-- ==== Proof.WordAgg0Frame.lean ====
/-
  The first aggregation pass point by point. After the body at point `t` (tile `t / 16`, reduction step `t % 16`) the
  accumulator holds: at a tile's first step, zero plus the step's product; at a later step, what the step before left
  plus the step's product. The aggregate's block is stored at the tile's last step only, as a copy of the accumulator; at
  the other steps its window is idle and its buffer is handed back untouched. The narrowed adjacency block is stored at
  every point. From this: the pipeline's proof data, the region's invariant (the accumulator at the contents the point
  before left, every other scoped buffer and the generator register at anything), and the body's obligation at a generic
  point, by cases on `t % 16`.
-/
import proofs.«155212_j57251914056250_2_alg».proof.Proof.WordAgg0Runs

set_option maxRecDepth 16384

noncomputable section

namespace Cert.Kernel.Agg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current staging buffer holds its block at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The features' window (the whole array, fetched once) holds the array at every point, fetched there or not. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end

/-! ## What each case leaves -/

theorem accCover_first (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : condFirst i) (hc1 : ¬condLast i)
    (x0 : Vec F S1024x2048 .f32) (x1 : Vec F S16384x128 .f32) (y : S2048x128.Idx) :
    ∃ pc ∈ (runFirst c i arg2 harg2 arg3 harg3 arg4 harg4 arg5 harg5 arg6 harg6 hc0 hc1 x0 x1).2.1, y ∈ pc.1.set :=
  View.cover_of_tiledL (runFirst c i arg2 harg2 arg3 harg3 arg4 harg4 arg5 harg5 arg6 harg6 hc0 hc1 x0 x1).2.1 S2048x128.size (by sl_kernel_rfl) y
/-- What this step leaves in the accumulator. -/
def accFirst (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : condFirst i) (hc1 : ¬condLast i)
    (x0 : Vec F S1024x2048 .f32) (x1 : Vec F S16384x128 .f32) : Vec F S2048x128 .f32 :=
  accV.read (Elt F) (accV.writes (Elt F) accV.junk (runFirst c i arg2 harg2 arg3 harg3 arg4 harg4 arg5 harg5 arg6 harg6 hc0 hc1 x0 x1).2.1)

theorem castCover_first (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : condFirst i) (hc1 : ¬condLast i)
    (x0 : Vec F S1024x2048 .f32) (x1 : Vec F S16384x128 .f32) (y : S1024x2048.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1024x2048.size (by sl_kernel_rfl) y
/-- What this step leaves in the narrowed block's buffer. -/
def castFirst (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : condFirst i) (hc1 : ¬condLast i)
    (x0 : Vec F S1024x2048 .f32) (x1 : Vec F S16384x128 .f32) : Vec F S1024x2048 .bf16 :=
  castV.read (Elt F) (castV.writes (Elt F) castV.junk (runFirst c i arg2 harg2 arg3 harg3 arg4 harg4 arg5 harg5 arg6 harg6 hc0 hc1 x0 x1).1)

theorem accCover_middle (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : ¬condLast i)
    (x0 : Vec F S1024x2048 .f32) (x1 : Vec F S16384x128 .f32) (xs : Vec F S2048x128 .f32) (y : S2048x128.Idx) :
    ∃ pc ∈ (runMiddle c i arg2 harg2 arg3 harg3 arg4 harg4 arg5 harg5 arg6 harg6 hc0 hc1 x0 x1 xs).2.1, y ∈ pc.1.set :=
  View.cover_of_tiledL (runMiddle c i arg2 harg2 arg3 harg3 arg4 harg4 arg5 harg5 arg6 harg6 hc0 hc1 x0 x1 xs).2.1 S2048x128.size (by sl_kernel_rfl) y
/-- What this step leaves in the accumulator. -/
def accMiddle (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : ¬condLast i)
    (x0 : Vec F S1024x2048 .f32) (x1 : Vec F S16384x128 .f32) (xs : Vec F S2048x128 .f32) : Vec F S2048x128 .f32 :=
  accV.read (Elt F) (accV.writes (Elt F) accV.junk (runMiddle c i arg2 harg2 arg3 harg3 arg4 harg4 arg5 harg5 arg6 harg6 hc0 hc1 x0 x1 xs).2.1)

theorem castCover_middle (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : ¬condLast i)
    (x0 : Vec F S1024x2048 .f32) (x1 : Vec F S16384x128 .f32) (xs : Vec F S2048x128 .f32) (y : S1024x2048.Idx) :
    ∃ pc ∈ (runMiddle c i arg2 harg2 arg3 harg3 arg4 harg4 arg5 harg5 arg6 harg6 hc0 hc1 x0 x1 xs).1, y ∈ pc.1.set :=
  View.cover_of_tiledL (runMiddle c i arg2 harg2 arg3 harg3 arg4 harg4 arg5 harg5 arg6 harg6 hc0 hc1 x0 x1 xs).1 S1024x2048.size (by sl_kernel_rfl) y
/-- What this step leaves in the narrowed block's buffer. -/
def castMiddle (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : ¬condLast i)
    (x0 : Vec F S1024x2048 .f32) (x1 : Vec F S16384x128 .f32) (xs : Vec F S2048x128 .f32) : Vec F S1024x2048 .bf16 :=
  castV.read (Elt F) (castV.writes (Elt F) castV.junk (runMiddle c i arg2 harg2 arg3 harg3 arg4 harg4 arg5 harg5 arg6 harg6 hc0 hc1 x0 x1 xs).1)

theorem accCover_last (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : condLast i)
    (x0 : Vec F S1024x2048 .f32) (x1 : Vec F S16384x128 .f32) (xs : Vec F S2048x128 .f32) (y : S2048x128.Idx) :
    ∃ pc ∈ (runLast c i arg2 harg2 arg3 harg3 arg4 harg4 arg5 harg5 arg6 harg6 hc0 hc1 x0 x1 xs).2.2.1, y ∈ pc.1.set :=
  View.cover_of_tiledL (runLast c i arg2 harg2 arg3 harg3 arg4 harg4 arg5 harg5 arg6 harg6 hc0 hc1 x0 x1 xs).2.2.1 S2048x128.size (by sl_kernel_rfl) y
/-- What this step leaves in the accumulator. -/
def accLast (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : condLast i)
    (x0 : Vec F S1024x2048 .f32) (x1 : Vec F S16384x128 .f32) (xs : Vec F S2048x128 .f32) : Vec F S2048x128 .f32 :=
  accV.read (Elt F) (accV.writes (Elt F) accV.junk (runLast c i arg2 harg2 arg3 harg3 arg4 harg4 arg5 harg5 arg6 harg6 hc0 hc1 x0 x1 xs).2.2.1)

theorem castCover_last (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : condLast i)
    (x0 : Vec F S1024x2048 .f32) (x1 : Vec F S16384x128 .f32) (xs : Vec F S2048x128 .f32) (y : S1024x2048.Idx) :
    ∃ pc ∈ (runLast c i arg2 harg2 arg3 harg3 arg4 harg4 arg5 harg5 arg6 harg6 hc0 hc1 x0 x1 xs).2.1, y ∈ pc.1.set :=
  View.cover_of_tiledL (runLast c i arg2 harg2 arg3 harg3 arg4 harg4 arg5 harg5 arg6 harg6 hc0 hc1 x0 x1 xs).2.1 S1024x2048.size (by sl_kernel_rfl) y
/-- What this step leaves in the narrowed block's buffer. -/
def castLast (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : condLast i)
    (x0 : Vec F S1024x2048 .f32) (x1 : Vec F S16384x128 .f32) (xs : Vec F S2048x128 .f32) : Vec F S1024x2048 .bf16 :=
  castV.read (Elt F) (castV.writes (Elt F) castV.junk (runLast c i arg2 harg2 arg3 harg3 arg4 harg4 arg5 harg5 arg6 harg6 hc0 hc1 x0 x1 xs).2.1)

theorem outCover_last (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : condLast i)
    (x0 : Vec F S1024x2048 .f32) (x1 : Vec F S16384x128 .f32) (xs : Vec F S2048x128 .f32) (y : S2048x128.Idx) :
    ∃ pc ∈ (runLast c i arg2 harg2 arg3 harg3 arg4 harg4 arg5 harg5 arg6 harg6 hc0 hc1 x0 x1 xs).1, y ∈ pc.1.set :=
  View.cover_of_tiledL (runLast c i arg2 harg2 arg3 harg3 arg4 harg4 arg5 harg5 arg6 harg6 hc0 hc1 x0 x1 xs).1 S2048x128.size (by sl_kernel_rfl) y
/-- What the last step leaves in the aggregate's block. -/
def outLast (c : Dev nD) (i : grid0.Coords) (arg2 : Memref sig .tc .vmem S1024x2048 .f32) (harg2 : arg2.IsWhole)
    (arg3 : Memref sig .tc .vmem S16384x128 .f32) (harg3 : arg3.IsWhole)
    (arg4 : Memref sig .tc .vmem S2048x128 .f32) (harg4 : arg4.IsWhole)
    (arg5 : Memref sig .tc .vmem S1024x2048 .bf16) (harg5 : arg5.IsWhole)
    (arg6 : Memref sig .tc .vmem S2048x128 .f32) (harg6 : arg6.IsWhole) (hc0 : ¬condFirst i) (hc1 : condLast i)
    (x0 : Vec F S1024x2048 .f32) (x1 : Vec F S16384x128 .f32) (xs : Vec F S2048x128 .f32) : Vec F S2048x128 .f32 :=
  outV.read (Elt F) (outV.writes (Elt F) outV.junk (runLast c i arg2 harg2 arg3 harg3 arg4 harg4 arg5 harg5 arg6 harg6 hc0 hc1 x0 x1 xs).1)

/-- At a step that is not a tile's last the aggregate's window is idle: a placeholder nothing consults. -/
def outIdle : Vec F S2048x128 .f32 := outV.read (Elt F) (outV.writes (Elt F) outV.junk [])

section
variable (V : (c : Dev nD) → (b : Ref sig .tc) → Buf (Elt F) ((c : Thread nD τ).loc b))

/-! ## The accumulation -/

/-- What the two output windows' staging buffers and the accumulator hold after the body at position `n`: the case the
    position's number selects, run at the point's buffers and blocks, over what position `n - 1` left in the accumulator. -/
def outsAt (c : Dev nD) : (n : ℕ) → n < cfg0.N → Vec F S2048x128 .f32 × Vec F S1024x2048 .bf16 × Vec F S2048x128 .f32
  | 0, hn => (outIdle, castFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩), accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩))
  | n + 1, hn =>
    if h0 : (n + 1) % 16 = 0 then
      if h1 : (n + 1) % 16 = 15 then
        False.elim (by omega)
      else
        (outIdle, castFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩), accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩))
    else
      if h1 : (n + 1) % 16 = 15 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2.2, castLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2.2, accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2.2)
      else
        (outIdle, castMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (outsAt c n (Nat.lt_of_succ_lt hn)).2.2, accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (outsAt c n (Nat.lt_of_succ_lt hn)).2.2)

/-- At a tile's first step. -/
theorem outsAt_first (c : Dev nD) (t : Fin cfg0.N) (h0 : t.val % 16 = 0) (h1 : ¬t.val % 16 = 15) :
    outsAt V c t.val t.isLt = (outIdle, castFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t), accFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t)) := by
  obtain ⟨n, hn⟩ := t
  cases n with
  | zero => exact rfl
  | succ n => exact (dif_pos h0).trans ((dif_neg h1).trans rfl)

/-- At a middle step: over what the point before left. -/
theorem outsAt_middle (c : Dev nD) (t : Fin cfg0.N) (h0 : ¬t.val % 16 = 0) (h1 : ¬t.val % 16 = 15) :
    outsAt V c t.val t.isLt = (outIdle, castMiddle c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2.2, accMiddle c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a tile's last step: over what the point before left. -/
theorem outsAt_last (c : Dev nD) (t : Fin cfg0.N) (h0 : ¬t.val % 16 = 0) (h1 : t.val % 16 = 15) :
    outsAt V c t.val t.isLt = (outLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2, castLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2, accLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point the class's invariant; afterwards the accumulator at what the point before
    left, the other buffers and the generator register at anything. -/
def PhiS (c : Dev nD) : (n : ℕ) → n ≤ cfg0.N → sProp 𝕄
  | 0, _ => Pipeline.ΦA spec0 c
  | n + 1, hn => iprop(owns (c : Thread nD τ) accM fullShare ((outsAt V c n hn).2.2) ∗ others (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) accM fullShare ((outsAt V c n hn).2.2) ∗ others (F := F) c ∗ (∃ r, prngReg c r)) := rfl

theorem PhiS_pos (c : Dev nD) (n : ℕ) (h : n ≤ cfg0.N) (hz : n ≠ 0) :
    PhiS V c n h = iprop(owns (c : Thread nD τ) accM fullShare ((outsAt V c (n - 1) (by omega)).2.2) ∗ others (F := F) c ∗ (∃ r, prngReg c r)) := by
  cases n with
  | zero => exact absurd rfl hz
  | succ n => rfl

/-! ## The pipeline's proof data -/

/-- The arrays as the region finds them; after the body each input's buffer at its block, the outputs' and the
    accumulator at `outsAt`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
    | ⟨3, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]
theorem after_3 (c : Dev nD) (t : Fin cfg0.N) : (dat V c).after 3 t = (outsAt V c t.val t.isLt).2.1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

/-- What the body is called with at point `t`: the invariant, the core owing nothing, each window's current staging buffer. -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the point's number modulo 16 says which case it is in;
    the invariant hands the body the accumulator at what the point before left (at anything at the very first point, and
    at a tile's first step the body does not use it) and takes it back at this point's contents; the aggregate's window is
    handed back untouched away from a tile's last step and holds the copy of the accumulator at it; the narrowed block's
    buffer, at anything on entry, holds the narrowed block; nothing is owed. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg0.N = 128 from N_0)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 3 t = owns (c : Thread nD τ) (ms3 t) fullShare ((dat V c).after 3 t) from by
    unfold Dat.leavesExact; rw [live_3 t], after_3]
  by_cases h0 : t.val % 16 = 0
  · have h1 : ¬t.val % 16 = 15 := by omega
    rw [Dat.leavesExact_idle (dat V c) 2 t (idle_2 t (fun h => h1 ((hcondLast t).mp h))) (noFlush_2 t (fun h => h1 ((hcondLast t).mp h)))]
    rw [outsAt_first V c t h0 h1]
    unfold accFirst castFirst; (try dsimp only)
    by_cases hz : t.val = 0
    · rw [PhiS_castSucc V c t, PhiS_zero V c _ _ hz, PhiA_eq]
      iintro ⟨⟨HS, Hoth, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t)).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS]
        · unfold owns; iexists _; isplitr
          swap; · iexact HS
          ipureintro; exact View.read_writes_of_cover _ _ _ _ _ (accCover_first c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t))
        isplitl [Hoth]; · iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (castCover_first c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t))
    · rw [PhiS_castSucc V c t, PhiS_pos V c _ _ hz]
      iintro ⟨⟨HS, Hoth, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t)).2.2 _ Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hoth Hg]
      · isplitl [HS]
        · unfold owns; iexists _; isplitr
          swap; · iexact HS
          ipureintro; exact View.read_writes_of_cover _ _ _ _ _ (accCover_first c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t))
        isplitl [Hoth]; · iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (castCover_first c (grid0.coords t) (ms0 t) (hs0 t) (ms1 t) (hs1 t) (ms2 t) (hs2 t) (ms3 t) (hs3 t) accM (Memref.isWhole_whole _) ((hcondFirst t).mpr h0) (fun h => h1 ((hcondLast t).mp h)) (iblk V c 0 t) (iblk V c 1 t))
  · have hz : t.val ≠ 0 := fun h => h0 (by rw [h])
    by_cases h1 : t.val % 16 = 15
    · rw [show (dat V c).leavesExact 2 t = owns (c : Thread nD τ) (ms2 t) fullShare ((dat V c).after 2 t) from by
        unfold Dat.leavesExact; rw [live_2 t ((hcondLast t).mpr h1)], after_2]
      rw [outsAt_last V c t h0 h1]
      unfold outLast accLast castLast; (try dsimp only)
      rw [PhiS_castSucc V c t, PhiS_pos V c _ _ hz]
      iintro ⟨⟨HS, Hoth, Hg⟩, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hoth Hg]
      · isplitl [HS]
        · unfold owns; iexists _; isplitr
          swap; · iexact HS
          ipureintro; exact View.read_writes_of_cover _ _ _ _ _ (accCover_last c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2)
        isplitl [Hoth]; · iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (outCover_last c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2)
      unfold owns; iexists _; isplitr
      swap; · iexact H3
      ipureintro; exact View.read_writes_of_cover _ _ _ _ _ (castCover_last c (grid0.coords t) (ms0 t) (hs0 t) (ms1 t) (hs1 t) (ms2 t) (hs2 t) (ms3 t) (hs3 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2.2)
    · rw [Dat.leavesExact_idle (dat V c) 2 t (idle_2 t (fun h => h1 ((hcondLast t).mp h))) (noFlush_2 t (fun h => h1 ((hcondLast t).mp h)))]
      rw [outsAt_middle V c t h0 h1]
      unfold accMiddle castMiddle; (try dsimp only)
      rw [PhiS_castSucc V c t, PhiS_pos V c _ _ hz]
      iintro ⟨⟨HS, Hoth, Hg⟩, Ho, ⟨%d0, H0⟩, ⟨%d1, H1⟩, ⟨%d2, H2⟩, ⟨%d3, H3⟩⟩
      iapply ((runMiddle c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2.2).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS]
        · unfold owns; iexists _; isplitr
          swap; · iexact HS
          ipureintro; exact View.read_writes_of_cover _ _ _ _ _ (accCover_middle c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2.2)
        isplitl [Hoth]; · iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (castCover_middle c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2.2)

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem Phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem Phi_out (c : Dev nD) : (dat V c).Φ (Fin.last cfg0.N) ⊢ Pipeline.ΦA spec0 c := by
  have e : (dat V c).Φ (Fin.last cfg0.N) = PhiS V c (Fin.last cfg0.N).val (Nat.le_of_lt_succ (Fin.last cfg0.N).isLt) := by
    dsimp only [dat]
  rw [e, PhiS_pos V c _ _ (by rw [Fin.val_last]; have : cfg0.N = 128 := N_0; omega), PhiA_eq]
  iintro ⟨HS, Hoth, Hg⟩
  isplitl [HS]; · iexists _; iexact HS
  isplitl [Hoth]; · iexact Hoth
  iexact Hg

end

end Cert.Kernel.Agg0

end
-- ==== Proof.WordAgg1Defs.lean ====
/-
  The second aggregation pass (the first of the two that read the adjacency in its narrow format), one grid of
  8 output tiles × 16 reduction steps: at step `i` of tile `j` the body adds to a 2048 × 64 accumulator the product
  of the transposed 1024 × 2048 adjacency block `(i, j)` with rows `1024·i … 1024·i + 1023` of the features; the
  accumulator is cleared at the tile's first step and copied to the tile's output block at its last.
  This module fixes what the three cases of that body are stated over: the two conditions as facts about the
  point's number (`t % 16 = 0`, `t % 16 = 15`), where the output window is idle and where it is written back, the
  buffers the body is called with, and the region's invariant with the accumulator pulled out of the scoped rest.
-/
import proofs.«155212_j57251914056250_2_alg».proof.Proof.Gen.Kernel.Launch
import proofs.«155212_j57251914056250_2_alg».proof.Proof.Gen.Kernel.Skeleton
import proofs.«155212_j57251914056250_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Agg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body -/

/-- The reduction step is the tile's first: the accumulator is cleared. -/
abbrev condFirst (i : grid1.Coords) : Prop :=
  (Scalar.cmpi .ne (Scalar.extui (Scalar.cmpi .eq (BitVec.ofNat 32 (i 1).val) 0#32)) 0#32) = 1#1
/-- It is so at the points whose number is a multiple of 16. -/
theorem hcondFirst : ∀ t : Fin cfg1.N, condFirst (grid1.coords t) ↔ t.val % 16 = 0 :=
  (by decide +kernel : ∀ t : Fin grid1.N, condFirst (grid1.coords t) ↔ t.val % 16 = 0)

/-- The reduction step is the tile's last: the accumulator is copied to the output block. -/
abbrev condLast (i : grid1.Coords) : Prop := k1_cond2 i = 1#1
/-- It is so at the points whose number is 15 modulo 16. -/
theorem hcondLast : ∀ t : Fin cfg1.N, condLast (grid1.coords t) ↔ t.val % 16 = 15 :=
  (by decide +kernel : ∀ t : Fin grid1.N, condLast (grid1.coords t) ↔ t.val % 16 = 15)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
/-- Away from a tile's last step the output window is idle: nothing is stored into it … -/
theorem idle_2 : ∀ t : Fin cfg1.N, ¬condLast (grid1.coords t) → cfg1.idle 2 (grid1.coords t) = true := by decide +kernel
/-- … and it is not written back there. -/
theorem noFlush_2 : ∀ t : Fin cfg1.N, ¬condLast (grid1.coords t) → (cfg1.win 2).flush t = false := by decide +kernel
/-- At a tile's last step it is live. -/
theorem live_2 : ∀ t : Fin cfg1.N, condLast (grid1.coords t) → cfg1.idle 2 (grid1.coords t) = false := by decide +kernel

/-! ## The buffers the body is called with -/

abbrev ms0 (t : Fin cfg1.N) : Memref sig .tc .vmem S1024x2048 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S16384x64 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S2048x64 .f32 := win1_2.stage (cfg1.slots t 2)
abbrev hs2 (t : Fin cfg1.N) : (ms2 t).IsWhole := hstage1_2 ((cfg1.slots t 2).cast nbuf1_2)
/-- The accumulator: a scoped buffer of the kernel's own, carried from point to point. -/
abbrev accM : Memref sig .tc .vmem S2048x64 .f32 := Memref.whole cc1_scratch0
/-- The accumulator and one staging buffer of the output window as views: contents are stated through them. -/
abbrev accV : View sig .tc .vmem S2048x64 .f32 := accM.view
abbrev outV : View sig .tc .vmem S2048x64 .f32 := (Memref.whole cc1_stg2_0 : Memref sig .tc .vmem S2048x64 .f32).view

/-- The scoped buffers of the core other than this pass's staging buffers and its accumulator (the other passes'
    staging buffers and accumulators), each whole at some contents: they ride through this pass untouched. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_scratch0), ((c : Thread nD τ).loc cc2_scratch0) ↦{fullShare} f))

/-- The class's invariant (every scoped buffer that is no staging buffer of this pass at some contents, and the generator
    register at some state) gives the accumulator at some contents beside the other buffers … -/
theorem PhiA_split (c : Dev nD) : (Pipeline.ΦA spec1 c : sProp 𝕄) ⊢ iprop((∃ d, owns (c : Thread nD τ) accM fullShare d) ∗ others (F := F) c ∗ (∃ r, prngReg c r)) := by
  unfold Pipeline.ΦA others; rw [scopedRest1_eq]; simp only [accM, owns_whole]
  iintro ⟨⟨H1, H2, H3, H4, H5, H6, H7, H8, H9, H10, H11, H12, H13, H14, H15⟩, Hp⟩
  isplitl [H9]; · iexact H9
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  iexact H15

/-- … and is given back by them: separating conjunction is commutative and associative. -/
theorem PhiA_join (c : Dev nD) : iprop((∃ d, owns (c : Thread nD τ) accM fullShare d) ∗ others (F := F) c ∗ (∃ r, prngReg c r)) ⊢ (Pipeline.ΦA spec1 c : sProp 𝕄) := by
  unfold Pipeline.ΦA others; rw [scopedRest1_eq]; simp only [accM, owns_whole]
  iintro ⟨H9, ⟨H1, H2, H3, H4, H5, H6, H7, H8, H10, H11, H12, H13, H14, H15⟩, Hp⟩
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The two are one assertion. -/
theorem PhiA_eq (c : Dev nD) : (Pipeline.ΦA spec1 c : sProp 𝕄) = iprop((∃ d, owns (c : Thread nD τ) accM fullShare d) ∗ others (F := F) c ∗ (∃ r, prngReg c r)) :=
  Idealize.SL.BI.Entails.antisymm (PhiA_split c) (PhiA_join c)

end Cert.Kernel.Agg1

end
-- ==== Proof.WordAgg1Runs.lean ====
/-
  The body of the second aggregation pass run symbolically, once per case of its two conditions:
  first step of a tile (the accumulator, at anything, is cleared and then takes the step's product), a middle step (the
  accumulator takes the step's product on top of what the step before left), last step (the same, and the accumulator is
  copied into the output block). Each run is a subtype: the list of pieces the stores leave in each buffer, found by the
  run itself, with the proof that the body runs from the buffers at their contents to the continuation holding them so.
-/
import proofs.«155212_j57251914056250_2_alg».proof.Proof.WordAgg1Defs

set_option maxRecDepth 16384

noncomputable section

namespace Cert.Kernel.Agg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First step of a tile: adjacency block `x0`, features `x1`, the idle output block `xi2` handed back untouched, the
    accumulator at anything on entry. -/
noncomputable def runFirst (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole)
    (hc0 : condFirst i) (hc1 : ¬condLast i)
    (x0 : Vec F S1024x2048 .bf16) (x1 : Vec F S16384x64 .f32) :
    { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel_bf16 i arg2 harg2 arg3 harg3 arg4 harg4 arg5 harg5) K } := by
  refine ⟨?_, fun xi2 E K => ?run⟩
  case run =>
    simp only [cc1__agg_kernel_bf16_eq_skeleton]; unfold cc1__agg_kernel_bf16_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A middle step: as above, the accumulator at what the step before left, `xs`. -/
noncomputable def runMiddle (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole)
    (hc0 : ¬condFirst i) (hc1 : ¬condLast i)
    (x0 : Vec F S1024x2048 .bf16) (x1 : Vec F S16384x64 .f32) (xs : Vec F S2048x64 .f32) :
    { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel_bf16 i arg2 harg2 arg3 harg3 arg4 harg4 arg5 harg5) K } := by
  refine ⟨?_, fun xi2 E K => ?run⟩
  case run =>
    simp only [cc1__agg_kernel_bf16_eq_skeleton]; unfold cc1__agg_kernel_bf16_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Last step of a tile: the output block, at anything on entry, ends with the pieces `L2` written. -/
noncomputable def runLast (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole)
    (hc0 : ¬condFirst i) (hc1 : condLast i)
    (x0 : Vec F S1024x2048 .bf16) (x1 : Vec F S16384x64 .f32) (xs : Vec F S2048x64 .f32) :
    Σ' (L2 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel_bf16 i arg2 harg2 arg3 harg3 arg4 harg4 arg5 harg5) K } := by
  refine ⟨?_, ?_, fun E K => ?run⟩
  case run =>
    simp only [cc1__agg_kernel_bf16_eq_skeleton]; unfold cc1__agg_kernel_bf16_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Agg1

end
-- ==== Proof.WordAgg1Frame.lean ====
/-
  The second aggregation pass point by point. After the body at point `t` (tile `t / 16`, reduction step `t % 16`) the
  accumulator holds: at a tile's first step, zero plus the step's product; at a later step, what the step before left
  plus the step's product. The tile's output block is stored at the last step only, as a copy of the accumulator;
  at the other steps the output window is idle and its buffer is handed back untouched. From this: the pipeline's proof
  data (what every staging buffer holds after the body at every point), the region's invariant (the accumulator at the
  contents the point before left, every other scoped buffer and the generator register at anything), and the body's
  obligation at a generic point, by cases on `t % 16`.
-/
import proofs.«155212_j57251914056250_2_alg».proof.Proof.WordAgg1Runs

set_option maxRecDepth 16384

noncomputable section

namespace Cert.Kernel.Agg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's current staging buffer holds its block at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The features' window (the whole array, fetched once) holds the array at every point, fetched there or not. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end

/-! ## What each case leaves -/

/-- The pieces the first step's two stores leave in the accumulator cover it. -/
theorem accCover_first (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : condFirst i) (hc1 : ¬condLast i)
    (x0 : Vec F S1024x2048 .bf16) (x1 : Vec F S16384x64 .f32) (y : S2048x64.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S2048x64.size (by sl_kernel_rfl) y
/-- What the first step leaves in the accumulator. -/
def accFirst (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : condFirst i) (hc1 : ¬condLast i)
    (x0 : Vec F S1024x2048 .bf16) (x1 : Vec F S16384x64 .f32) : Vec F S2048x64 .f32 :=
  accV.read (Elt F) (accV.writes (Elt F) accV.junk (runFirst c i arg2 harg2 arg3 harg3 arg4 harg4 arg5 harg5 hc0 hc1 x0 x1).1)

theorem accCover_middle (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : ¬condLast i)
    (x0 : Vec F S1024x2048 .bf16) (x1 : Vec F S16384x64 .f32) (xs : Vec F S2048x64 .f32) (y : S2048x64.Idx) :
    ∃ pc ∈ (runMiddle c i arg2 harg2 arg3 harg3 arg4 harg4 arg5 harg5 hc0 hc1 x0 x1 xs).1, y ∈ pc.1.set :=
  View.cover_of_tiledL (runMiddle c i arg2 harg2 arg3 harg3 arg4 harg4 arg5 harg5 hc0 hc1 x0 x1 xs).1 S2048x64.size (by sl_kernel_rfl) y
/-- What a middle step leaves in the accumulator, over what the step before left (`xs`). -/
def accMiddle (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : ¬condLast i)
    (x0 : Vec F S1024x2048 .bf16) (x1 : Vec F S16384x64 .f32) (xs : Vec F S2048x64 .f32) : Vec F S2048x64 .f32 :=
  accV.read (Elt F) (accV.writes (Elt F) accV.junk (runMiddle c i arg2 harg2 arg3 harg3 arg4 harg4 arg5 harg5 hc0 hc1 x0 x1 xs).1)

theorem accCover_last (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) (y : S2048x64.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S2048x64.size (by sl_kernel_rfl) y
/-- What the last step leaves in the accumulator. -/
def accLast (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) : Vec F S2048x64 .f32 :=
  accV.read (Elt F) (accV.writes (Elt F) accV.junk (runLast c i arg2 harg2 arg3 harg3 arg4 harg4 arg5 harg5 hc0 hc1 x0 x1 xs).2.1)

theorem outCover_last (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) (y : S2048x64.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S2048x64.size (by sl_kernel_rfl) y
/-- What the last step leaves in the output block. -/
def outLast (c : Dev nD) (i : grid1.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) : Vec F S2048x64 .f32 :=
  outV.read (Elt F) (outV.writes (Elt F) outV.junk (runLast c i arg2 harg2 arg3 harg3 arg4 harg4 arg5 harg5 hc0 hc1 x0 x1 xs).1)

/-- At a step that is not a tile's last the output window is idle: a placeholder nothing consults. -/
def outIdle : Vec F S2048x64 .f32 := outV.read (Elt F) (outV.writes (Elt F) outV.junk [])

section
variable (V : (c : Dev nD) → (b : Ref sig .tc) → Buf (Elt F) ((c : Thread nD τ).loc b))

/-! ## The accumulation -/

/-- What the output window's staging buffer and the accumulator hold after the body at position `n`: the case the
    position's number selects, run at the point's buffers and blocks, over what position `n - 1` left in the accumulator. -/
def outsAt (c : Dev nD) : (n : ℕ) → n < cfg1.N → Vec F S2048x64 .f32 × Vec F S2048x64 .f32
  | 0, hn => (outIdle, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩))
  | n + 1, hn =>
    if h0 : (n + 1) % 16 = 0 then
      if h1 : (n + 1) % 16 = 15 then
        False.elim (by omega)
      else
        (outIdle, accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩))
    else
      if h1 : (n + 1) % 16 = 15 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2,
         accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2)
      else
        (outIdle, accMiddle c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (outsAt c n (Nat.lt_of_succ_lt hn)).2)

/-- At a tile's first step. -/
theorem outsAt_first (c : Dev nD) (t : Fin cfg1.N) (h0 : t.val % 16 = 0) (h1 : ¬t.val % 16 = 15) :
    outsAt V c t.val t.isLt = (outIdle, accFirst c (grid1.coords t) (ms0 t) (hs0 t) (ms1 t) (hs1 t) (ms2 t) (hs2 t) accM (Memref.isWhole_whole _) ((hcondFirst t).mpr h0) (fun h => h1 ((hcondLast t).mp h)) (iblk V c 0 t) (iblk V c 1 t)) := by
  obtain ⟨n, hn⟩ := t
  cases n with
  | zero => exact rfl
  | succ n => exact (dif_pos h0).trans ((dif_neg h1).trans rfl)

/-- At a middle step: over what the point before left. -/
theorem outsAt_middle (c : Dev nD) (t : Fin cfg1.N) (h0 : ¬t.val % 16 = 0) (h1 : ¬t.val % 16 = 15) :
    outsAt V c t.val t.isLt = (outIdle, accMiddle c (grid1.coords t) (ms0 t) (hs0 t) (ms1 t) (hs1 t) (ms2 t) (hs2 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a tile's last step: over what the point before left. -/
theorem outsAt_last (c : Dev nD) (t : Fin cfg1.N) (h0 : ¬t.val % 16 = 0) (h1 : t.val % 16 = 15) :
    outsAt V c t.val t.isLt = (outLast c (grid1.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2,
      accLast c (grid1.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point the class's invariant (every scoped buffer of the core that is no staging buffer
    of this pass at anything); afterwards the accumulator at what the point before left, the other buffers and the
    generator register at anything. -/
def PhiS (c : Dev nD) : (n : ℕ) → n ≤ cfg1.N → sProp 𝕄
  | 0, _ => Pipeline.ΦA spec1 c
  | n + 1, hn => iprop(owns (c : Thread nD τ) accM fullShare ((outsAt V c n hn).2) ∗ others (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) accM fullShare ((outsAt V c n hn).2) ∗ others (F := F) c ∗ (∃ r, prngReg c r)) := rfl

theorem PhiS_pos (c : Dev nD) (n : ℕ) (h : n ≤ cfg1.N) (hz : n ≠ 0) :
    PhiS V c n h = iprop(owns (c : Thread nD τ) accM fullShare ((outsAt V c (n - 1) (by omega)).2) ∗ others (F := F) c ∗ (∃ r, prngReg c r)) := by
  cases n with
  | zero => exact absurd rfl hz
  | succ n => rfl

/-! ## The pipeline's proof data -/

/-- The arrays as the region finds them; after the body each input's buffer at its block, the output's and the
    accumulator at `outsAt`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

end

section
variable (V : (c : Dev nD) → (b : Ref sig .tc) → Buf (Elt F) ((c : Thread nD τ).loc b))

/-! ## The body obligation, at a generic point -/

/-- What the body is called with at point `t`: the invariant, the core owing nothing, each window's current staging buffer. -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's number modulo 16 says which case it is in;
    the invariant hands the body the accumulator at what the point before left (at anything at the very first point, and
    at a tile's first step the body does not use it) and takes it back at this point's contents; the output window is
    handed back untouched away from a tile's last step and holds the copy of the accumulator at it; nothing is owed. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg1.N = 128 from N_1)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  by_cases h0 : t.val % 16 = 0
  · have h1 : ¬t.val % 16 = 15 := by omega
    rw [Dat.leavesExact_idle (dat V c) 2 t (idle_2 t (fun h => h1 ((hcondLast t).mp h))) (noFlush_2 t (fun h => h1 ((hcondLast t).mp h)))]
    rw [outsAt_first V c t h0 h1]
    unfold accFirst; (try dsimp only)
    by_cases hz : t.val = 0
    · rw [PhiS_castSucc V c t, PhiS_zero V c _ _ hz, PhiA_eq]
      iintro ⟨⟨HS, Hoth, Hg⟩, Ho, ⟨%d0, H0⟩, ⟨%d1, H1⟩, ⟨%d2, H2⟩⟩
      iapply ((runFirst c (grid1.coords t) (ms0 t) (hs0 t) (ms1 t) (hs1 t) (ms2 t) (hs2 t) accM (Memref.isWhole_whole _) ((hcondFirst t).mpr h0) (fun h => h1 ((hcondLast t).mp h)) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (accCover_first c (grid1.coords t) (ms0 t) (hs0 t) (ms1 t) (hs1 t) (ms2 t) (hs2 t) accM (Memref.isWhole_whole _) ((hcondFirst t).mpr h0) (fun h => h1 ((hcondLast t).mp h)) (iblk V c 0 t) (iblk V c 1 t))
        isplitl [Hoth]; · iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨HS, Hoth, Hg⟩, Ho, ⟨%d0, H0⟩, ⟨%d1, H1⟩, ⟨%d2, H2⟩⟩
      iapply ((runFirst c (grid1.coords t) (ms0 t) (hs0 t) (ms1 t) (hs1 t) (ms2 t) (hs2 t) accM (Memref.isWhole_whole _) ((hcondFirst t).mpr h0) (fun h => h1 ((hcondLast t).mp h)) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (accCover_first c (grid1.coords t) (ms0 t) (hs0 t) (ms1 t) (hs1 t) (ms2 t) (hs2 t) accM (Memref.isWhole_whole _) ((hcondFirst t).mpr h0) (fun h => h1 ((hcondLast t).mp h)) (iblk V c 0 t) (iblk V c 1 t))
        isplitl [Hoth]; · iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat V c).leavesExact 2 t = owns (c : Thread nD τ) (ms2 t) fullShare ((dat V c).after 2 t) from by
        unfold Dat.leavesExact; rw [live_2 t ((hcondLast t).mpr h1)], after_2]
      rw [outsAt_last V c t h0 h1]
      unfold outLast accLast; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runLast c (grid1.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS]
        · unfold owns; iexists _; isplitr
          swap; · iexact HS
          ipureintro; exact View.read_writes_of_cover _ _ _ _ _ (accCover_last c (grid1.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (outCover_last c (grid1.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2)
    · rw [Dat.leavesExact_idle (dat V c) 2 t (idle_2 t (fun h => h1 ((hcondLast t).mp h))) (noFlush_2 t (fun h => h1 ((hcondLast t).mp h)))]
      rw [outsAt_middle V c t h0 h1]
      unfold accMiddle; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runMiddle c (grid1.coords t) (ms0 t) (hs0 t) (ms1 t) (hs1 t) (ms2 t) (hs2 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (accCover_middle c (grid1.coords t) (ms0 t) (hs0 t) (ms1 t) (hs1 t) (ms2 t) (hs2 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2)
        isplitl [Hoth]; · iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem Phi_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA_eq]
  iintro ⟨HS, Hoth, Hg⟩
  isplitl [HS]; · iexists _; iexact HS
  isplitl [Hoth]; · iexact Hoth
  iexact Hg

end

end Cert.Kernel.Agg1

end
-- ==== Proof.WordAgg2Defs.lean ====
/-
  The third aggregation pass (the second of the two that read the adjacency in its narrow format), one grid of
  8 output tiles × 16 reduction steps: at step `i` of tile `j` the body adds to a 2048 × 64 accumulator the product
  of the transposed 1024 × 2048 adjacency block `(i, j)` with rows `1024·i … 1024·i + 1023` of the features; the
  accumulator is cleared at the tile's first step and copied to the tile's output block at its last.
  This module fixes what the three cases of that body are stated over: the two conditions as facts about the
  point's number (`t % 16 = 0`, `t % 16 = 15`), where the output window is idle and where it is written back, the
  buffers the body is called with, and the region's invariant with the accumulator pulled out of the scoped rest.
-/
import proofs.«155212_j57251914056250_2_alg».proof.Proof.Gen.Kernel.Launch
import proofs.«155212_j57251914056250_2_alg».proof.Proof.Gen.Kernel.Skeleton
import proofs.«155212_j57251914056250_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Agg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body -/

/-- The reduction step is the tile's first: the accumulator is cleared. -/
abbrev condFirst (i : grid2.Coords) : Prop :=
  (Scalar.cmpi .ne (Scalar.extui (Scalar.cmpi .eq (BitVec.ofNat 32 (i 1).val) 0#32)) 0#32) = 1#1
/-- It is so at the points whose number is a multiple of 16. -/
theorem hcondFirst : ∀ t : Fin cfg2.N, condFirst (grid2.coords t) ↔ t.val % 16 = 0 :=
  (by decide +kernel : ∀ t : Fin grid2.N, condFirst (grid2.coords t) ↔ t.val % 16 = 0)

/-- The reduction step is the tile's last: the accumulator is copied to the output block. -/
abbrev condLast (i : grid2.Coords) : Prop := k2_cond2 i = 1#1
/-- It is so at the points whose number is 15 modulo 16. -/
theorem hcondLast : ∀ t : Fin cfg2.N, condLast (grid2.coords t) ↔ t.val % 16 = 15 :=
  (by decide +kernel : ∀ t : Fin grid2.N, condLast (grid2.coords t) ↔ t.val % 16 = 15)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
/-- Away from a tile's last step the output window is idle: nothing is stored into it … -/
theorem idle_2 : ∀ t : Fin cfg2.N, ¬condLast (grid2.coords t) → cfg2.idle 2 (grid2.coords t) = true := by decide +kernel
/-- … and it is not written back there. -/
theorem noFlush_2 : ∀ t : Fin cfg2.N, ¬condLast (grid2.coords t) → (cfg2.win 2).flush t = false := by decide +kernel
/-- At a tile's last step it is live. -/
theorem live_2 : ∀ t : Fin cfg2.N, condLast (grid2.coords t) → cfg2.idle 2 (grid2.coords t) = false := by decide +kernel

/-! ## The buffers the body is called with -/

abbrev ms0 (t : Fin cfg2.N) : Memref sig .tc .vmem S1024x2048 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S16384x64 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S2048x64 .f32 := win2_2.stage (cfg2.slots t 2)
abbrev hs2 (t : Fin cfg2.N) : (ms2 t).IsWhole := hstage2_2 ((cfg2.slots t 2).cast nbuf2_2)
/-- The accumulator: a scoped buffer of the kernel's own, carried from point to point. -/
abbrev accM : Memref sig .tc .vmem S2048x64 .f32 := Memref.whole cc2_scratch0
/-- The accumulator and one staging buffer of the output window as views: contents are stated through them. -/
abbrev accV : View sig .tc .vmem S2048x64 .f32 := accM.view
abbrev outV : View sig .tc .vmem S2048x64 .f32 := (Memref.whole cc2_stg2_0 : Memref sig .tc .vmem S2048x64 .f32).view

/-- The scoped buffers of the core other than this pass's staging buffers and its accumulator (the other passes'
    staging buffers and accumulators), each whole at some contents: they ride through this pass untouched. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The class's invariant (every scoped buffer that is no staging buffer of this pass at some contents, and the generator
    register at some state) gives the accumulator at some contents beside the other buffers … -/
theorem PhiA_split (c : Dev nD) : (Pipeline.ΦA spec2 c : sProp 𝕄) ⊢ iprop((∃ d, owns (c : Thread nD τ) accM fullShare d) ∗ others (F := F) c ∗ (∃ r, prngReg c r)) := by
  unfold Pipeline.ΦA others; rw [scopedRest2_eq]; simp only [accM, owns_whole]
  iintro ⟨⟨H1, H2, H3, H4, H5, H6, H7, H8, H9, H10, H11, H12, H13, H14, H15⟩, Hp⟩
  isplitl [H15]; · iexact H15
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- … and is given back by them: separating conjunction is commutative and associative. -/
theorem PhiA_join (c : Dev nD) : iprop((∃ d, owns (c : Thread nD τ) accM fullShare d) ∗ others (F := F) c ∗ (∃ r, prngReg c r)) ⊢ (Pipeline.ΦA spec2 c : sProp 𝕄) := by
  unfold Pipeline.ΦA others; rw [scopedRest2_eq]; simp only [accM, owns_whole]
  iintro ⟨H15, ⟨H1, H2, H3, H4, H5, H6, H7, H8, H9, H10, H11, H12, H13, H14⟩, Hp⟩
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The two are one assertion. -/
theorem PhiA_eq (c : Dev nD) : (Pipeline.ΦA spec2 c : sProp 𝕄) = iprop((∃ d, owns (c : Thread nD τ) accM fullShare d) ∗ others (F := F) c ∗ (∃ r, prngReg c r)) :=
  Idealize.SL.BI.Entails.antisymm (PhiA_split c) (PhiA_join c)

end Cert.Kernel.Agg2

end
-- ==== Proof.WordAgg2Runs.lean ====
/-
  The body of the third aggregation pass run symbolically, once per case of its two conditions:
  first step of a tile (the accumulator, at anything, is cleared and then takes the step's product), a middle step (the
  accumulator takes the step's product on top of what the step before left), last step (the same, and the accumulator is
  copied into the output block). Each run is a subtype: the list of pieces the stores leave in each buffer, found by the
  run itself, with the proof that the body runs from the buffers at their contents to the continuation holding them so.
-/
import proofs.«155212_j57251914056250_2_alg».proof.Proof.WordAgg2Defs

set_option maxRecDepth 16384

noncomputable section

namespace Cert.Kernel.Agg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First step of a tile: adjacency block `x0`, features `x1`, the idle output block `xi2` handed back untouched, the
    accumulator at anything on entry. -/
noncomputable def runFirst (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole)
    (hc0 : condFirst i) (hc1 : ¬condLast i)
    (x0 : Vec F S1024x2048 .bf16) (x1 : Vec F S16384x64 .f32) :
    { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc2__agg_kernel_bf16 i arg2 harg2 arg3 harg3 arg4 harg4 arg5 harg5) K } := by
  refine ⟨?_, fun xi2 E K => ?run⟩
  case run =>
    simp only [cc2__agg_kernel_bf16_eq_skeleton]; unfold cc2__agg_kernel_bf16_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A middle step: as above, the accumulator at what the step before left, `xs`. -/
noncomputable def runMiddle (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole)
    (hc0 : ¬condFirst i) (hc1 : ¬condLast i)
    (x0 : Vec F S1024x2048 .bf16) (x1 : Vec F S16384x64 .f32) (xs : Vec F S2048x64 .f32) :
    { LS : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc2__agg_kernel_bf16 i arg2 harg2 arg3 harg3 arg4 harg4 arg5 harg5) K } := by
  refine ⟨?_, fun xi2 E K => ?run⟩
  case run =>
    simp only [cc2__agg_kernel_bf16_eq_skeleton]; unfold cc2__agg_kernel_bf16_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Last step of a tile: the output block, at anything on entry, ends with the pieces `L2` written. -/
noncomputable def runLast (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole)
    (hc0 : ¬condFirst i) (hc1 : condLast i)
    (x0 : Vec F S1024x2048 .bf16) (x1 : Vec F S16384x64 .f32) (xs : Vec F S2048x64 .f32) :
    Σ' (L2 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc2__agg_kernel_bf16 i arg2 harg2 arg3 harg3 arg4 harg4 arg5 harg5) K } := by
  refine ⟨?_, ?_, fun E K => ?run⟩
  case run =>
    simp only [cc2__agg_kernel_bf16_eq_skeleton]; unfold cc2__agg_kernel_bf16_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Agg2

end
-- ==== Proof.WordAgg2Frame.lean ====
/-
  The third aggregation pass point by point. After the body at point `t` (tile `t / 16`, reduction step `t % 16`) the
  accumulator holds: at a tile's first step, zero plus the step's product; at a later step, what the step before left
  plus the step's product. The tile's output block is stored at the last step only, as a copy of the accumulator;
  at the other steps the output window is idle and its buffer is handed back untouched. From this: the pipeline's proof
  data (what every staging buffer holds after the body at every point), the region's invariant (the accumulator at the
  contents the point before left, every other scoped buffer and the generator register at anything), and the body's
  obligation at a generic point, by cases on `t % 16`.
-/
import proofs.«155212_j57251914056250_2_alg».proof.Proof.WordAgg2Runs

set_option maxRecDepth 16384

noncomputable section

namespace Cert.Kernel.Agg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency window's current staging buffer holds its block at every point. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The features' window (the whole array, fetched once) holds the array at every point, fetched there or not. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end

/-! ## What each case leaves -/

/-- The pieces the first step's two stores leave in the accumulator cover it. -/
theorem accCover_first (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : condFirst i) (hc1 : ¬condLast i)
    (x0 : Vec F S1024x2048 .bf16) (x1 : Vec F S16384x64 .f32) (y : S2048x64.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S2048x64.size (by sl_kernel_rfl) y
/-- What the first step leaves in the accumulator. -/
def accFirst (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : condFirst i) (hc1 : ¬condLast i)
    (x0 : Vec F S1024x2048 .bf16) (x1 : Vec F S16384x64 .f32) : Vec F S2048x64 .f32 :=
  accV.read (Elt F) (accV.writes (Elt F) accV.junk (runFirst c i arg2 harg2 arg3 harg3 arg4 harg4 arg5 harg5 hc0 hc1 x0 x1).1)

theorem accCover_middle (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : ¬condLast i)
    (x0 : Vec F S1024x2048 .bf16) (x1 : Vec F S16384x64 .f32) (xs : Vec F S2048x64 .f32) (y : S2048x64.Idx) :
    ∃ pc ∈ (runMiddle c i arg2 harg2 arg3 harg3 arg4 harg4 arg5 harg5 hc0 hc1 x0 x1 xs).1, y ∈ pc.1.set :=
  View.cover_of_tiledL (runMiddle c i arg2 harg2 arg3 harg3 arg4 harg4 arg5 harg5 hc0 hc1 x0 x1 xs).1 S2048x64.size (by sl_kernel_rfl) y
/-- What a middle step leaves in the accumulator, over what the step before left (`xs`). -/
def accMiddle (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : ¬condLast i)
    (x0 : Vec F S1024x2048 .bf16) (x1 : Vec F S16384x64 .f32) (xs : Vec F S2048x64 .f32) : Vec F S2048x64 .f32 :=
  accV.read (Elt F) (accV.writes (Elt F) accV.junk (runMiddle c i arg2 harg2 arg3 harg3 arg4 harg4 arg5 harg5 hc0 hc1 x0 x1 xs).1)

theorem accCover_last (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) (y : S2048x64.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S2048x64.size (by sl_kernel_rfl) y
/-- What the last step leaves in the accumulator. -/
def accLast (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) : Vec F S2048x64 .f32 :=
  accV.read (Elt F) (accV.writes (Elt F) accV.junk (runLast c i arg2 harg2 arg3 harg3 arg4 harg4 arg5 harg5 hc0 hc1 x0 x1 xs).2.1)

theorem outCover_last (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) (y : S2048x64.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S2048x64.size (by sl_kernel_rfl) y
/-- What the last step leaves in the output block. -/
def outLast (c : Dev nD) (i : grid2.Coords) (arg2 : Memref sig .tc .vmem S1024x2048 .bf16) (harg2 : arg2.IsWhole)
    (arg3 : Memref sig .tc .vmem S16384x64 .f32) (harg3 : arg3.IsWhole)
    (arg4 : Memref sig .tc .vmem S2048x64 .f32) (harg4 : arg4.IsWhole)
    (arg5 : Memref sig .tc .vmem S2048x64 .f32) (harg5 : arg5.IsWhole) (hc0 : ¬condFirst i) (hc1 : condLast i)
    (x0 : Vec F S1024x2048 .bf16) (x1 : Vec F S16384x64 .f32) (xs : Vec F S2048x64 .f32) : Vec F S2048x64 .f32 :=
  outV.read (Elt F) (outV.writes (Elt F) outV.junk (runLast c i arg2 harg2 arg3 harg3 arg4 harg4 arg5 harg5 hc0 hc1 x0 x1 xs).1)

/-- At a step that is not a tile's last the output window is idle: a placeholder nothing consults. -/
def outIdle : Vec F S2048x64 .f32 := outV.read (Elt F) (outV.writes (Elt F) outV.junk [])

section
variable (V : (c : Dev nD) → (b : Ref sig .tc) → Buf (Elt F) ((c : Thread nD τ).loc b))

/-! ## The accumulation -/

/-- What the output window's staging buffer and the accumulator hold after the body at position `n`: the case the
    position's number selects, run at the point's buffers and blocks, over what position `n - 1` left in the accumulator. -/
def outsAt (c : Dev nD) : (n : ℕ) → n < cfg2.N → Vec F S2048x64 .f32 × Vec F S2048x64 .f32
  | 0, hn => (outIdle, accFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩))
  | n + 1, hn =>
    if h0 : (n + 1) % 16 = 0 then
      if h1 : (n + 1) % 16 = 15 then
        False.elim (by omega)
      else
        (outIdle, accFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩))
    else
      if h1 : (n + 1) % 16 = 15 then
        (outLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2,
         accLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2)
      else
        (outIdle, accMiddle c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (outsAt c n (Nat.lt_of_succ_lt hn)).2)

/-- At a tile's first step. -/
theorem outsAt_first (c : Dev nD) (t : Fin cfg2.N) (h0 : t.val % 16 = 0) (h1 : ¬t.val % 16 = 15) :
    outsAt V c t.val t.isLt = (outIdle, accFirst c (grid2.coords t) (ms0 t) (hs0 t) (ms1 t) (hs1 t) (ms2 t) (hs2 t) accM (Memref.isWhole_whole _) ((hcondFirst t).mpr h0) (fun h => h1 ((hcondLast t).mp h)) (iblk V c 0 t) (iblk V c 1 t)) := by
  obtain ⟨n, hn⟩ := t
  cases n with
  | zero => exact rfl
  | succ n => exact (dif_pos h0).trans ((dif_neg h1).trans rfl)

/-- At a middle step: over what the point before left. -/
theorem outsAt_middle (c : Dev nD) (t : Fin cfg2.N) (h0 : ¬t.val % 16 = 0) (h1 : ¬t.val % 16 = 15) :
    outsAt V c t.val t.isLt = (outIdle, accMiddle c (grid2.coords t) (ms0 t) (hs0 t) (ms1 t) (hs1 t) (ms2 t) (hs2 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a tile's last step: over what the point before left. -/
theorem outsAt_last (c : Dev nD) (t : Fin cfg2.N) (h0 : ¬t.val % 16 = 0) (h1 : t.val % 16 = 15) :
    outsAt V c t.val t.isLt = (outLast c (grid2.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2,
      accLast c (grid2.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point the class's invariant (every scoped buffer of the core that is no staging buffer
    of this pass at anything); afterwards the accumulator at what the point before left, the other buffers and the
    generator register at anything. -/
def PhiS (c : Dev nD) : (n : ℕ) → n ≤ cfg2.N → sProp 𝕄
  | 0, _ => Pipeline.ΦA spec2 c
  | n + 1, hn => iprop(owns (c : Thread nD τ) accM fullShare ((outsAt V c n hn).2) ∗ others (F := F) c ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(owns (c : Thread nD τ) accM fullShare ((outsAt V c n hn).2) ∗ others (F := F) c ∗ (∃ r, prngReg c r)) := rfl

theorem PhiS_pos (c : Dev nD) (n : ℕ) (h : n ≤ cfg2.N) (hz : n ≠ 0) :
    PhiS V c n h = iprop(owns (c : Thread nD τ) accM fullShare ((outsAt V c (n - 1) (by omega)).2) ∗ others (F := F) c ∗ (∃ r, prngReg c r)) := by
  cases n with
  | zero => exact absurd rfl hz
  | succ n => rfl

/-! ## The pipeline's proof data -/

/-- The arrays as the region finds them; after the body each input's buffer at its block, the output's and the
    accumulator at `outsAt`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

end

section
variable (V : (c : Dev nD) → (b : Ref sig .tc) → Buf (Elt F) ((c : Thread nD τ).loc b))

/-! ## The body obligation, at a generic point -/

/-- What the body is called with at point `t`: the invariant, the core owing nothing, each window's current staging buffer. -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's number modulo 16 says which case it is in;
    the invariant hands the body the accumulator at what the point before left (at anything at the very first point, and
    at a tile's first step the body does not use it) and takes it back at this point's contents; the output window is
    handed back untouched away from a tile's last step and holds the copy of the accumulator at it; nothing is owed. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg2.N = 128 from N_2)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  by_cases h0 : t.val % 16 = 0
  · have h1 : ¬t.val % 16 = 15 := by omega
    rw [Dat.leavesExact_idle (dat V c) 2 t (idle_2 t (fun h => h1 ((hcondLast t).mp h))) (noFlush_2 t (fun h => h1 ((hcondLast t).mp h)))]
    rw [outsAt_first V c t h0 h1]
    unfold accFirst; (try dsimp only)
    by_cases hz : t.val = 0
    · rw [PhiS_castSucc V c t, PhiS_zero V c _ _ hz, PhiA_eq]
      iintro ⟨⟨HS, Hoth, Hg⟩, Ho, ⟨%d0, H0⟩, ⟨%d1, H1⟩, ⟨%d2, H2⟩⟩
      iapply ((runFirst c (grid2.coords t) (ms0 t) (hs0 t) (ms1 t) (hs1 t) (ms2 t) (hs2 t) accM (Memref.isWhole_whole _) ((hcondFirst t).mpr h0) (fun h => h1 ((hcondLast t).mp h)) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (accCover_first c (grid2.coords t) (ms0 t) (hs0 t) (ms1 t) (hs1 t) (ms2 t) (hs2 t) accM (Memref.isWhole_whole _) ((hcondFirst t).mpr h0) (fun h => h1 ((hcondLast t).mp h)) (iblk V c 0 t) (iblk V c 1 t))
        isplitl [Hoth]; · iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨HS, Hoth, Hg⟩, Ho, ⟨%d0, H0⟩, ⟨%d1, H1⟩, ⟨%d2, H2⟩⟩
      iapply ((runFirst c (grid2.coords t) (ms0 t) (hs0 t) (ms1 t) (hs1 t) (ms2 t) (hs2 t) accM (Memref.isWhole_whole _) ((hcondFirst t).mpr h0) (fun h => h1 ((hcondLast t).mp h)) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (accCover_first c (grid2.coords t) (ms0 t) (hs0 t) (ms1 t) (hs1 t) (ms2 t) (hs2 t) accM (Memref.isWhole_whole _) ((hcondFirst t).mpr h0) (fun h => h1 ((hcondLast t).mp h)) (iblk V c 0 t) (iblk V c 1 t))
        isplitl [Hoth]; · iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat V c).leavesExact 2 t = owns (c : Thread nD τ) (ms2 t) fullShare ((dat V c).after 2 t) from by
        unfold Dat.leavesExact; rw [live_2 t ((hcondLast t).mpr h1)], after_2]
      rw [outsAt_last V c t h0 h1]
      unfold outLast accLast; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runLast c (grid2.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS]
        · unfold owns; iexists _; isplitr
          swap; · iexact HS
          ipureintro; exact View.read_writes_of_cover _ _ _ _ _ (accCover_last c (grid2.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (outCover_last c (grid2.coords t) (ms0 t) (hs0 t) (ms1 t) (hs1 t) (ms2 t) (hs2 t) accM (Memref.isWhole_whole _) (fun h => h0 ((hcondFirst t).mp h)) ((hcondLast t).mpr h1) (iblk V c 0 t) (iblk V c 1 t) (outsAt V c (t.val - 1) (Nat.lt_of_le_of_lt (Nat.sub_le _ _) t.isLt)).2)
    · rw [Dat.leavesExact_idle (dat V c) 2 t (idle_2 t (fun h => h1 ((hcondLast t).mp h))) (noFlush_2 t (fun h => h1 ((hcondLast t).mp h)))]
      rw [outsAt_middle V c t h0 h1]
      unfold accMiddle; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runMiddle c (grid2.coords t) (ms0 t) (hs0 t) (ms1 t) (hs1 t) (ms2 t) (hs2 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (accCover_middle c (grid2.coords t) (ms0 t) (hs0 t) (ms1 t) (hs1 t) (ms2 t) (hs2 t) accM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2)
        isplitl [Hoth]; · iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem Phi_in (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem Phi_out (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 128 := N_2; omega), PhiA_eq]
  iintro ⟨HS, Hoth, Hg⟩
  isplitl [HS]; · iexists _; iexact HS
  isplitl [Hoth]; · iexact Hoth
  iexact Hg

end

end Cert.Kernel.Agg2

end
-- ==== Proof.WordAggRun.lean ====
/-
  The whole program's run. @main is thirteen segments: a stretch of host operations, the first aggregation pass, two
  stretches, the second pass, two stretches, the third pass, five stretches. Between two segments every unscoped buffer of
  the core holds a named contents: the launch memory, then the host operations' results folded in one stretch at a time,
  then — after a pass — that pass's arrays at what its pipeline leaves (an input as entered, an output with its
  write-backs folded) and every other buffer as entered. Each pass is a segment record over its proof data; the run is the
  library's launch over the list, and its post says every unscoped buffer ends at the last of these contents.
-/
import proofs.«155212_j57251914056250_2_alg».proof.Proof.WordAgg0Frame
import proofs.«155212_j57251914056250_2_alg».proof.Proof.WordAgg1Frame
import proofs.«155212_j57251914056250_2_alg».proof.Proof.WordAgg2Frame
import proofs.«155212_j57251914056250_2_alg».proof.Proof.Gen.Kernel.Regions

set_option maxRecDepth 16384

noncomputable section

namespace Cert.Kernel.AggRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch of host operations (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At pass 0's exit: its arrays at what the pipeline leaves (the inputs as entered, each output's write-backs folded),
    every other buffer as entered. -/
def W2 (c : Dev nD) : Valuation τ sig (Elt F) :=
  Pipeline.withArrays spec0 c (W1 m ρ c) fun w => (Agg0.dat (V1 m ρ) c).arrAt w cfg0.N
theorem W2_arr (c : Dev nD) (w : Fin cfg0.W) :
    W2 m ρ c (Proc.devRef .tc (Pipeline.arrRef spec0 w)) = (Agg0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Agg0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
/-- The second pass's entry. -/
abbrev W4 : Dev nD → Valuation τ sig (Elt F) := fun c => StableHlo.after hostOps1_1 (W3 m ρ c)
abbrev V4 : (c : Dev nD) → (b : Ref sig .tc) → Buf (Elt F) ((c : Thread nD τ).loc b) := fun c b => W4 m ρ c b

/-- At pass 1's exit: its arrays at what the pipeline leaves (the inputs as entered, each output's write-backs folded),
    every other buffer as entered. -/
def W5 (c : Dev nD) : Valuation τ sig (Elt F) :=
  Pipeline.withArrays spec1 c (W4 m ρ c) fun w => (Agg1.dat (V4 m ρ) c).arrAt w cfg1.N
theorem W5_arr (c : Dev nD) (w : Fin cfg1.W) :
    W5 m ρ c (Proc.devRef .tc (Pipeline.arrRef spec1 w)) = (Agg1.dat (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (Agg1.dat (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after hostOps2 (W5 m ρ c)
/-- The third pass's entry. -/
abbrev W7 : Dev nD → Valuation τ sig (Elt F) := fun c => StableHlo.after hostOps2_1 (W6 m ρ c)
abbrev V7 : (c : Dev nD) → (b : Ref sig .tc) → Buf (Elt F) ((c : Thread nD τ).loc b) := fun c b => W7 m ρ c b

/-- At pass 2's exit: its arrays at what the pipeline leaves (the inputs as entered, each output's write-backs folded),
    every other buffer as entered. -/
def W8 (c : Dev nD) : Valuation τ sig (Elt F) :=
  Pipeline.withArrays spec2 c (W7 m ρ c) fun w => (Agg2.dat (V7 m ρ) c).arrAt w cfg2.N
theorem W8_arr (c : Dev nD) (w : Fin cfg2.W) :
    W8 m ρ c (Proc.devRef .tc (Pipeline.arrRef spec2 w)) = (Agg2.dat (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (Agg2.dat (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps3 (W8 m ρ c)
abbrev W10 : Dev nD → Valuation τ sig (Elt F) := fun c => StableHlo.after hostOps3_1 (W9 m ρ c)
abbrev W11 : Dev nD → Valuation τ sig (Elt F) := fun c => StableHlo.after hostOps3_2 (W10 m ρ c)
abbrev W12 : Dev nD → Valuation τ sig (Elt F) := fun c => StableHlo.after hostOps3_3 (W11 m ρ c)
/-- At the return. -/
abbrev W13 : Dev nD → Valuation τ sig (Elt F) := fun c => StableHlo.after hostOps3_4 (W12 m ρ c)

/-! ## The proof data family and the thread state -/

/-- Every pass's proof data, each at its region's entry contents. -/
def pdats : (p : Fin 3) → (c : Dev nD) → Dat τ (Elt F) Unit ℕ (UR sig nD τ) ℕ (Pipeline.pin (pcfgs (F := F)) adm p) c
  | ⟨0, _⟩ => fun c => Agg0.dat (V1 m ρ) c
  | ⟨1, _⟩ => fun c => Agg1.dat (V4 m ρ) c
  | ⟨2, _⟩ => fun c => Agg2.dat (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W13 m ρ c) ∗ ∃ r, prngReg c r)

/-! ## The passes as segments -/

set_option backward.isDefEq.respectTransparency.types false in
/-- Pass 0 over the thread state: entered from every unscoped buffer at `W1`, left at `W2`. Its arrays are split out
    of the unscoped buffers and put back at the exit contents; the generator register and the scoped rest go into the
    pass's invariant and come back out of it after the last point; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Agg0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Agg0.Phi_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 over the thread state: entered from every unscoped buffer at `W4`, left at `W5`. Its arrays are split out
    of the unscoped buffers and put back at the exit contents; the generator register and the scoped rest go into the
    pass's invariant and come back out of it after the last point; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Agg1.body_obligation (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Agg1.Phi_out (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 over the thread state: entered from every unscoped buffer at `W7`, left at `W8`. Its arrays are split out
    of the unscoped buffers and put back at the exit contents; the generator register and the scoped rest go into the
    pass's invariant and come back out of it after the last point; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Agg2.body_obligation (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Agg2.Phi_out (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ),
    .host (hseg hostOps2 hostOps2_sub hostOps2_fresh (W5 m ρ)),
    .host (hseg hostOps2_1 hostOps2_1_sub hostOps2_1_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)),
    .host (hseg hostOps3_3 hostOps3_3_sub hostOps3_3_fresh (W11 m ρ)),
    .host (hseg hostOps3_4 hostOps3_4_sub hostOps3_4_fresh (W12 m ρ)) ]
/-- @main is the run of the segments. -/
theorem main_run (c : Dev nD) : main (F := F) c = Pipeline.Seg.run (segs m ρ) := (main_chain c).trans (by chain_rfl)

set_option backward.isDefEq.respectTransparency.types false in
/-- THE RUN, at any `F`: from any memory with zero counters every weakly fair execution of @main on the TensorCores
    terminates, nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => (show iprop(StableHlo.held (c : Thread nD τ) (Pipeline.ucRefs τ sig) (W13 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.Kernel.AggRun

end
-- ==== Proof.WordAggKept.lean ====
/-
  What the program leaves untouched. Its seven arguments are read and never written: no stretch of host arithmetic
  has an argument as a result, and an aggregation pass writes only its own result arrays (the adjacency argument
  enters the first pass as an input, and an input array comes out as it went in). So at the return every argument
  holds what it held at launch, and the run of the whole program ends with the arguments unchanged. The same
  reasoning carries any buffer across the stretches and passes that do not write it, which is how a value computed
  early (the reciprocal degrees, the adjacency copy) is still there when a later step reads it.
-/
import proofs.«155212_j57251914056250_2_alg».proof.Proof.WordAggRun

noncomputable section

namespace Cert.Kernel.AggRun

open Cert.Kernel Cert.Kernel.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-! ## A buffer no stretch writes keeps its contents across the stretch -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h
theorem W6_of (c : Dev nD) (r : Ref sig .tc) (h : r ∉ hostOps2_W) :
    W6 m ρ c (Proc.devRef .tc r) = W5 m ρ c (Proc.devRef .tc r) :=
  StableHlo.after_of_writes_sub hostOps2 _ hostOps2_writes h
theorem W7_of (c : Dev nD) (r : Ref sig .tc) (h : r ∉ hostOps2_1_W) :
    W7 m ρ c (Proc.devRef .tc r) = W6 m ρ c (Proc.devRef .tc r) :=
  StableHlo.after_of_writes_sub hostOps2_1 _ hostOps2_1_writes h
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h
theorem W10_of (c : Dev nD) (r : Ref sig .tc) (h : r ∉ hostOps3_1_W) :
    W10 m ρ c (Proc.devRef .tc r) = W9 m ρ c (Proc.devRef .tc r) :=
  StableHlo.after_of_writes_sub hostOps3_1 _ hostOps3_1_writes h
theorem W11_of (c : Dev nD) (r : Ref sig .tc) (h : r ∉ hostOps3_2_W) :
    W11 m ρ c (Proc.devRef .tc r) = W10 m ρ c (Proc.devRef .tc r) :=
  StableHlo.after_of_writes_sub hostOps3_2 _ hostOps3_2_writes h
theorem W12_of (c : Dev nD) (r : Ref sig .tc) (h : r ∉ hostOps3_3_W) :
    W12 m ρ c (Proc.devRef .tc r) = W11 m ρ c (Proc.devRef .tc r) :=
  StableHlo.after_of_writes_sub hostOps3_3 _ hostOps3_3_writes h
theorem W13_of (c : Dev nD) (r : Ref sig .tc) (h : r ∉ hostOps3_4_W) :
    W13 m ρ c (Proc.devRef .tc r) = W12 m ρ c (Proc.devRef .tc r) :=
  StableHlo.after_of_writes_sub hostOps3_4 _ hostOps3_4_writes h

/-! ## An input array of a pass comes out as it went in -/

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((Agg0.dat (V1 m ρ) c).arrAt_in w hin _).trans (Agg0.A_eq (V1 m ρ) c w))
theorem W5_in (c : Dev nD) (w : Fin cfg1.W) (hin : (cfg1.win w).isOut = false) :
    W5 m ρ c (Proc.devRef .tc (Pipeline.arrRef spec1 w)) = W4 m ρ c (Proc.devRef .tc (Pipeline.arrRef spec1 w)) :=
  (W5_arr m ρ c w).trans (((Agg1.dat (V4 m ρ) c).arrAt_in w hin _).trans (Agg1.A_eq (V4 m ρ) c w))
theorem W8_in (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((Agg2.dat (V7 m ρ) c).arrAt_in w hin _).trans (Agg2.A_eq (V7 m ρ) c w))

/-! ## The arguments at the return -/

/-- A buffer that no stretch writes and every pass leaves as it found it holds at the return what it held at launch. -/
theorem kept_of (c : Dev nD) (r : Ref sig .tc)
    (h0 : r ∉ hostOps0_W) (h1 : r ∉ hostOps1_W) (h1_1 : r ∉ hostOps1_1_W) (h2 : r ∉ hostOps2_W) (h2_1 : r ∉ hostOps2_1_W)
    (h3 : r ∉ hostOps3_W) (h3_1 : r ∉ hostOps3_1_W) (h3_2 : r ∉ hostOps3_2_W) (h3_3 : r ∉ hostOps3_3_W) (h3_4 : r ∉ hostOps3_4_W)
    (e2 : W2 m ρ c (Proc.devRef .tc r) = W1 m ρ c (Proc.devRef .tc r))
    (e5 : W5 m ρ c (Proc.devRef .tc r) = W4 m ρ c (Proc.devRef .tc r))
    (e8 : W8 m ρ c (Proc.devRef .tc r) = W7 m ρ c (Proc.devRef .tc r)) :
    W13 m ρ c (Proc.devRef .tc r) = m ((c : Thread nD τ).loc r) :=
  (W13_of m ρ c r h3_4).trans <| (W12_of m ρ c r h3_3).trans <| (W11_of m ρ c r h3_2).trans <| (W10_of m ρ c r h3_1).trans <|
    (W9_of m ρ c r h3).trans <| e8.trans <| (W7_of m ρ c r h2_1).trans <| (W6_of m ρ c r h2).trans <| e5.trans <|
    (W4_of m ρ c r h1_1).trans <| (W3_of m ρ c r h1).trans <| e2.trans <| (W1_of m ρ c r h0).trans rfl

theorem kept_arg0 (c : Dev nD) : W13 m ρ c (Proc.devRef .tc main_arg0) = m ((c : Thread nD τ).loc main_arg0) :=
  kept_of m ρ c main_arg0 (by decide) (by decide) (by decide) (by decide) (by decide) (by decide) (by decide) (by decide) (by decide) (by decide)
    (W2_of_ne m ρ c main_arg0 (by decide)) (W5_of_ne m ρ c main_arg0 (by decide)) (W8_of_ne m ρ c main_arg0 (by decide))
/-- The adjacency argument is the first pass's first input. -/
theorem kept_arg1 (c : Dev nD) : W13 m ρ c (Proc.devRef .tc main_arg1) = m ((c : Thread nD τ).loc main_arg1) :=
  kept_of m ρ c main_arg1 (by decide) (by decide) (by decide) (by decide) (by decide) (by decide) (by decide) (by decide) (by decide) (by decide)
    (W2_in m ρ c 0 rfl) (W5_of_ne m ρ c main_arg1 (by decide)) (W8_of_ne m ρ c main_arg1 (by decide))
theorem kept_arg2 (c : Dev nD) : W13 m ρ c (Proc.devRef .tc main_arg2) = m ((c : Thread nD τ).loc main_arg2) :=
  kept_of m ρ c main_arg2 (by decide) (by decide) (by decide) (by decide) (by decide) (by decide) (by decide) (by decide) (by decide) (by decide)
    (W2_of_ne m ρ c main_arg2 (by decide)) (W5_of_ne m ρ c main_arg2 (by decide)) (W8_of_ne m ρ c main_arg2 (by decide))
theorem kept_arg3 (c : Dev nD) : W13 m ρ c (Proc.devRef .tc main_arg3) = m ((c : Thread nD τ).loc main_arg3) :=
  kept_of m ρ c main_arg3 (by decide) (by decide) (by decide) (by decide) (by decide) (by decide) (by decide) (by decide) (by decide) (by decide)
    (W2_of_ne m ρ c main_arg3 (by decide)) (W5_of_ne m ρ c main_arg3 (by decide)) (W8_of_ne m ρ c main_arg3 (by decide))
theorem kept_arg4 (c : Dev nD) : W13 m ρ c (Proc.devRef .tc main_arg4) = m ((c : Thread nD τ).loc main_arg4) :=
  kept_of m ρ c main_arg4 (by decide) (by decide) (by decide) (by decide) (by decide) (by decide) (by decide) (by decide) (by decide) (by decide)
    (W2_of_ne m ρ c main_arg4 (by decide)) (W5_of_ne m ρ c main_arg4 (by decide)) (W8_of_ne m ρ c main_arg4 (by decide))
theorem kept_arg5 (c : Dev nD) : W13 m ρ c (Proc.devRef .tc main_arg5) = m ((c : Thread nD τ).loc main_arg5) :=
  kept_of m ρ c main_arg5 (by decide) (by decide) (by decide) (by decide) (by decide) (by decide) (by decide) (by decide) (by decide) (by decide)
    (W2_of_ne m ρ c main_arg5 (by decide)) (W5_of_ne m ρ c main_arg5 (by decide)) (W8_of_ne m ρ c main_arg5 (by decide))
theorem kept_arg6 (c : Dev nD) : W13 m ρ c (Proc.devRef .tc main_arg6) = m ((c : Thread nD τ).loc main_arg6) :=
  kept_of m ρ c main_arg6 (by decide) (by decide) (by decide) (by decide) (by decide) (by decide) (by decide) (by decide) (by decide) (by decide)
    (W2_of_ne m ρ c main_arg6 (by decide)) (W5_of_ne m ρ c main_arg6 (by decide)) (W8_of_ne m ρ c main_arg6 (by decide))

/-! ## The run leaves the arguments unchanged -/

/-- From any memory with zero counters every weakly fair execution of the program terminates, nothing faulting, with
    each of the seven arguments holding what it held at launch. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (kept_arg0 m ρ c),
     (h c _ (mem_uc main_arg1 (by decide))).trans (kept_arg1 m ρ c),
     (h c _ (mem_uc main_arg2 (by decide))).trans (kept_arg2 m ρ c),
     (h c _ (mem_uc main_arg3 (by decide))).trans (kept_arg3 m ρ c),
     (h c _ (mem_uc main_arg4 (by decide))).trans (kept_arg4 m ρ c),
     (h c _ (mem_uc main_arg5 (by decide))).trans (kept_arg5 m ρ c),
     (h c _ (mem_uc main_arg6 (by decide))).trans (kept_arg6 m ρ c)⟩) (run_all m ρ)

end Cert.Kernel.AggRun

end
-- ==== Proof.Claims.lean ====
/-
  The claims about the three-layer dense graph convolution, closed. Each aggregation pass leaves in its result
  array the block-by-block aggregate of its two inputs (and the first pass a copy of the adjacency array as well);
  with those four facts the assembled statements hold outright: the program as compiled, the same program at the
  ideal values and the reference program each run and leave their arguments unchanged, and the last two, started
  from the same arguments of which the precondition holds, end with the same scalar.
-/
import proofs.«155212_j57251914056250_2_alg».proof.Proof.Final
import proofs.«155212_j57251914056250_2_alg».proof.Proof.Agg0Value
import proofs.«155212_j57251914056250_2_alg».proof.Proof.Agg0Cast
import proofs.«155212_j57251914056250_2_alg».proof.Proof.Agg1Value
import proofs.«155212_j57251914056250_2_alg».proof.Proof.Agg2Value
import proofs.«155212_j57251914056250_2_alg».proof.Proof.WordAggKept

noncomputable section

namespace Cert.Gcn

open Idealize.ShloMosaic Idealize.SL.Sem

/-- The program as compiled, at the machine's own floats, runs and leaves its arguments unchanged. -/
theorem frame_k :
    Cert.frame_Kernel (hKernel := Cert.Kernel.Gen.facts) (hPre_finite_inputs := Cert.Pre_finite_inputs.Gen.facts) :=
  fun m ρ _ => Cert.Kernel.AggRun.frame_all (F := Bits) m ρ

/-- The same program at the ideal values runs and leaves its arguments unchanged. -/
theorem frame_ki :
    Cert.frame_KernelIdeal (hKernelIdeal := Cert.KernelIdeal.Gen.facts) (hPre_finite_inputs := Cert.Pre_finite_inputs.Gen.facts) :=
  frame_KernelIdeal_holds

/-- The reference program runs and leaves its arguments unchanged. -/
theorem frame_ri :
    Cert.frame_ReferenceIdeal (hReferenceIdeal := Cert.ReferenceIdeal.Gen.facts) (hPre_finite_inputs := Cert.Pre_finite_inputs.Gen.facts) :=
  frame_ReferenceIdeal_holds

/-- The idealization rewrote no operation. -/
theorem preserves : Cert.preserves_Kernel_KernelIdeal := trivial

/-- From the same arguments, of which the precondition holds, the two programs end with the same scalar and
    unchanged arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) :=
  algebraic_holds (fun V c => Cert.KernelIdeal.Agg0.agg0_value V c) (fun V c => Cert.KernelIdeal.Agg0.cast0_value V c)
    (fun V c => Cert.KernelIdeal.Agg1.agg1_value V c) (fun V c => Cert.KernelIdeal.Agg2.agg2_value V c)

/-- Everything claimed. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Gcn

end
-- ==== Proof.lean ====
/-
  A three-layer graph convolution over 16384 nodes with a dense adjacency array, computed two ways, gives one result.
  The reference takes the degrees as the column sums of the adjacency array and, three times over, multiplies the
  transposed adjacency array with the features, divides each row by its degree, applies a 64 × 64 weight and the
  rectifier; the result is a read-out of the features' mean. The other program makes the same aggregate in three grid
  passes over blocks of 1024 rows, adding up the blocks' partial sums in an accumulator; gets the degrees from the first
  pass by a column of ones appended to the features; and multiplies each row by the reciprocal of its degree.
  At the ideal values (floats are extended reals, every operation exact, a change of format the identity) three facts
  join the two: a sum taken block by block is the sum (addition of extended reals is commutative and associative with no
  side condition); the column of ones gives the column sums (x · 1 = x); and a · (1 / d) = a / d for a real d ≠ 0.
  The last needs the degrees to be nonzero reals: every input finite, and every column sum of the adjacency array nonzero
  — where a degree is zero the reference itself divides by zero, and the two programs differ there (0 · (1/0) = 0 against
  0 / 0). Under that precondition both programs run to the end, fault nowhere, leave their arguments unchanged, and end
  with equal results; the block-by-block program read at the machine's words runs to the end and leaves its arguments
  unchanged likewise. The pieces: the aggregate's two forms (AggSpec, AggRows, AggRef, DegColumn), the scaling law and the
  precondition read back (Scale, PreDeg), each grid pass's frame and value (Agg0…, Agg1…, Agg2…), the whole program's run
  (AggRun, AggKept; at the machine's words WordAgg…), the host arithmetic as terms (HostRead, RefOut), the two terms
  equal (Bridge), and the claims assembled (Final, Claims).
-/
import proofs.«155212_j57251914056250_2_alg».proof.Defs
import proofs.«155212_j57251914056250_2_alg».proof.Proof.Gen.Kernel
import proofs.«155212_j57251914056250_2_alg».proof.Proof.Gen.Kernel.Skeleton
import proofs.«155212_j57251914056250_2_alg».proof.Proof.Gen.Kernel.Launch
import proofs.«155212_j57251914056250_2_alg».proof.Proof.Gen.Kernel.Regions
import proofs.«155212_j57251914056250_2_alg».proof.Proof.Gen.Kernel.Points
import proofs.«155212_j57251914056250_2_alg».proof.Proof.Gen.KernelIdeal
import proofs.«155212_j57251914056250_2_alg».proof.Proof.Gen.KernelIdeal.Skeleton
import proofs.«155212_j57251914056250_2_alg».proof.Proof.Gen.KernelIdeal.Launch
import proofs.«155212_j57251914056250_2_alg».proof.Proof.Gen.KernelIdeal.Regions
import proofs.«155212_j57251914056250_2_alg».proof.Proof.Gen.KernelIdeal.Points
import proofs.«155212_j57251914056250_2_alg».proof.Proof.Gen.ReferenceIdeal
import proofs.«155212_j57251914056250_2_alg».proof.Proof.Gen.Pre_finite_inputs
import proofs.«155212_j57251914056250_2_alg».proof.Proof.Gen.ReferenceIdeal.Run
import proofs.«155212_j57251914056250_2_alg».proof.Proof.Claims
import Idealize.ShloMosaic.Adequacy
import Idealize.ShloMosaic.Init

noncomputable section

namespace Cert.Proof

/-- Everything claimed: the three programs run to the end, fault nowhere and leave their arguments unchanged; the
    idealization rewrote no operation; and the two idealized programs, from the same arguments, end with equal results. -/
theorem claim : Cert.Claim := Cert.Gcn.claim

end Cert.Proof

end
